-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x25 : Shape := ⟨4, ![16384, 7, 7, 25]⟩
abbrev S16384x8x5 : Shape := ⟨3, ![16384, 8, 5]⟩
abbrev S_ : Shape := ⟨0, ![]⟩

class Facts : Prop where
  bcast_S_S16384x7x7x25 : S_.BroadcastsInDim S16384x7x7x25 (![] : Fin 0 → Fin S16384x7x7x25.rank)
  reducesTo_S16384x7x7x25_S_d0_1_2_3 : S16384x7x7x25.ReducesTo [0, 1, 2, 3] S_
  h_S_ : 0 < S_.numel
  bcast_S_S16384x8x5 : S_.BroadcastsInDim S16384x8x5 (![] : Fin 0 → Fin S16384x8x5.rank)
  reducesTo_S16384x8x5_S_d0_1_2 : S16384x8x5.ReducesTo [0, 1, 2] S_

variable [Facts]

def fn {F : FTy → Type} [FloatOps F] (main_arg0 : FVec F S16384x7x7x25 .f32) (main_arg1 : FVec F S16384x8x5 .f32) : IVec S_ 1 :=
  let main_v0 : FVec F S16384x7x7x25 .f32 := Host.absf main_arg0
  let main_cst : FVec F S_ .f32 := constant S_ .f32 0x7F800000#32
  let main_v1 : FVec F S16384x7x7x25 .f32 := broadcastInDim S16384x7x7x25 ![] bcast_S_S16384x7x7x25 main_cst
  let main_v2 : IVec S16384x7x7x25 1 := cmpf .olt main_v0 main_v1
  let main_c : IVec S_ 1 := constantI S_ 1 1#1
  let main_v3 : IVec S_ 1 := (fun x v => Host.reduce IntOp.andi x v reducesTo_S16384x7x7x25_S_d0_1_2_3 h_S_) main_v2 main_c
  let main_v4 : FVec F S16384x8x5 .f32 := Host.absf main_arg1
  let main_cst_0 : FVec F S_ .f32 := constant S_ .f32 0x7F800000#32
  let main_v5 : FVec F S16384x8x5 .f32 := broadcastInDim S16384x8x5 ![] bcast_S_S16384x8x5 main_cst_0
  let main_v6 : IVec S16384x8x5 1 := cmpf .olt main_v4 main_v5
  let main_c_1 : IVec S_ 1 := constantI S_ 1 1#1
  let main_v7 : IVec S_ 1 := (fun x v => Host.reduce IntOp.andi x v reducesTo_S16384x8x5_S_d0_1_2 h_S_) main_v6 main_c_1
  let main_v8 : IVec S_ 1 := andi main_v3 main_v7
  main_v8
-- ==== Kernel.lean ====
abbrev S16384x7x7x25 : Shape := ⟨4, ![16384, 7, 7, 25]⟩
abbrev S16384x8x5 : Shape := ⟨3, ![16384, 8, 5]⟩
abbrev S16384x8x4 : Shape := ⟨3, ![16384, 8, 4]⟩
abbrev S_ : Shape := ⟨0, ![]⟩
abbrev S16384x8x1 : Shape := ⟨3, ![16384, 8, 1]⟩
abbrev S16384x8 : Shape := ⟨2, ![16384, 8]⟩
abbrev S16384x1x8 : Shape := ⟨3, ![16384, 1, 8]⟩
abbrev S16384x8x8 : Shape := ⟨3, ![16384, 8, 8]⟩
abbrev S8x8 : Shape := ⟨2, ![8, 8]⟩
abbrev S1x8x8 : Shape := ⟨3, ![1, 8, 8]⟩
abbrev S1x1x20 : Shape := ⟨3, ![1, 1, 20]⟩
abbrev S16384x8x20 : Shape := ⟨3, ![16384, 8, 20]⟩
abbrev S16384x8x25 : Shape := ⟨3, ![16384, 8, 25]⟩
abbrev S16384 : Shape := ⟨1, ![16384]⟩
abbrev S16384x1 : Shape := ⟨2, ![16384, 1]⟩
abbrev S802816x25 : Shape := ⟨2, ![802816, 25]⟩
abbrev S131072 : Shape := ⟨1, ![131072]⟩
abbrev S131072x25 : Shape := ⟨2, ![131072, 25]⟩
abbrev S131072x1 : Shape := ⟨2, ![131072, 1]⟩
abbrev S1x1 : Shape := ⟨2, ![1, 1]⟩
abbrev S128x7x7x25 : Shape := ⟨4, ![128, 7, 7, 25]⟩
abbrev S128x7x7x1 : Shape := ⟨4, ![128, 7, 7, 1]⟩
abbrev S128x7x7 : Shape := ⟨3, ![128, 7, 7]⟩
abbrev S128x7 : Shape := ⟨2, ![128, 7]⟩
abbrev S128 : Shape := ⟨1, ![128]⟩
abbrev S1x128 : Shape := ⟨2, ![1, 128]⟩
abbrev S1 : Shape := ⟨1, ![1]⟩
abbrev S128x7x7x20 : Shape := ⟨4, ![128, 7, 7, 20]⟩

abbrev nBuf : Space → Nat
  | .hbm => 124
  | .vmem => 5
  | .smem => 0
  | _ => 0

abbrev bufTy : (tb : Table) → Fin (tcTables nBuf tb) → BufTy
  | .hbm, ⟨0, _⟩ => ⟨S16384x7x7x25, .f32⟩
  | .hbm, ⟨1, _⟩ => ⟨S16384x8x5, .f32⟩
  | .hbm, ⟨2, _⟩ => ⟨S16384x8x4, .f32⟩
  | .hbm, ⟨3, _⟩ => ⟨S_, .f32⟩
  | .hbm, ⟨4, _⟩ => ⟨S16384x8x4, .f32⟩
  | .hbm, ⟨5, _⟩ => ⟨S16384x8x4, .f32⟩
  | .hbm, ⟨6, _⟩ => ⟨S16384x8x1, .f32⟩
  | .hbm, ⟨7, _⟩ => ⟨S16384x8, .f32⟩
  | .hbm, ⟨8, _⟩ => ⟨S16384x8, .i32⟩
  | .hbm, ⟨9, _⟩ => ⟨S16384x8x1, .f32⟩
  | .hbm, ⟨10, _⟩ => ⟨S16384x8, .f32⟩
  | .hbm, ⟨11, _⟩ => ⟨S16384x8x1, .f32⟩
  | .hbm, ⟨12, _⟩ => ⟨S16384x8, .f32⟩
  | .hbm, ⟨13, _⟩ => ⟨S16384x8, .f32⟩
  | .hbm, ⟨14, _⟩ => ⟨S_, .f32⟩
  | .hbm, ⟨15, _⟩ => ⟨S16384x8, .f32⟩
  | .hbm, ⟨16, _⟩ => ⟨S16384x8, .f32⟩
  | .hbm, ⟨17, _⟩ => ⟨S16384x8x1, .f32⟩
  | .hbm, ⟨18, _⟩ => ⟨S16384x8, .f32⟩
  | .hbm, ⟨19, _⟩ => ⟨S16384x8x1, .f32⟩
  | .hbm, ⟨20, _⟩ => ⟨S16384x8, .f32⟩
  | .hbm, ⟨21, _⟩ => ⟨S16384x8, .f32⟩
  | .hbm, ⟨22, _⟩ => ⟨S_, .f32⟩
  | .hbm, ⟨23, _⟩ => ⟨S16384x8, .f32⟩
  | .hbm, ⟨24, _⟩ => ⟨S16384x8, .f32⟩
  | .hbm, ⟨25, _⟩ => ⟨S16384x8x1, .f32⟩
  | .hbm, ⟨26, _⟩ => ⟨S16384x8, .f32⟩
  | .hbm, ⟨27, _⟩ => ⟨S16384x8x1, .f32⟩
  | .hbm, ⟨28, _⟩ => ⟨S16384x8, .f32⟩
  | .hbm, ⟨29, _⟩ => ⟨S16384x8, .f32⟩
  | .hbm, ⟨30, _⟩ => ⟨S16384x8x1, .f32⟩
  | .hbm, ⟨31, _⟩ => ⟨S16384x8, .f32⟩
  | .hbm, ⟨32, _⟩ => ⟨S16384x8x1, .f32⟩
  | .hbm, ⟨33, _⟩ => ⟨S16384x8, .f32⟩
  | .hbm, ⟨34, _⟩ => ⟨S16384x8, .f32⟩
  | .hbm, ⟨35, _⟩ => ⟨S_, .f32⟩
  | .hbm, ⟨36, _⟩ => ⟨S16384x8, .f32⟩
  | .hbm, ⟨37, _⟩ => ⟨S16384x8, .f32⟩
  | .hbm, ⟨38, _⟩ => ⟨S16384x8, .f32⟩
  | .hbm, ⟨39, _⟩ => ⟨S16384x8, .i32⟩
  | .hbm, ⟨40, _⟩ => ⟨S_, .f32⟩
  | .hbm, ⟨41, _⟩ => ⟨S16384x8, .f32⟩
  | .hbm, ⟨42, _⟩ => ⟨S16384x8, .f32⟩
  | .hbm, ⟨43, _⟩ => ⟨S16384x8, .f32⟩
  | .hbm, ⟨44, _⟩ => ⟨S16384x8, .i32⟩
  | .hbm, ⟨45, _⟩ => ⟨S_, .f32⟩
  | .hbm, ⟨46, _⟩ => ⟨S16384x8, .f32⟩
  | .hbm, ⟨47, _⟩ => ⟨S16384x8, .f32⟩
  | .hbm, ⟨48, _⟩ => ⟨S16384x8, .f32⟩
  | .hbm, ⟨49, _⟩ => ⟨S16384x8, .f32⟩
  | .hbm, ⟨50, _⟩ => ⟨S_, .f32⟩
  | .hbm, ⟨51, _⟩ => ⟨S16384x8, .f32⟩
  | .hbm, ⟨52, _⟩ => ⟨S16384x8, .f32⟩
  | .hbm, ⟨53, _⟩ => ⟨S16384x8, .f32⟩
  | .hbm, ⟨54, _⟩ => ⟨S16384x8, .f32⟩
  | .hbm, ⟨55, _⟩ => ⟨S_, .i32⟩
  | .hbm, ⟨56, _⟩ => ⟨S16384x8, .i32⟩
  | .hbm, ⟨57, _⟩ => ⟨S16384x8, .i32⟩
  | .hbm, ⟨58, _⟩ => ⟨S16384x8, .i32⟩
  | .hbm, ⟨59, _⟩ => ⟨S16384x8x1, .i32⟩
  | .hbm, ⟨60, _⟩ => ⟨S16384x1x8, .i32⟩
  | .hbm, ⟨61, _⟩ => ⟨S16384x8x8, .i32⟩
  | .hbm, ⟨62, _⟩ => ⟨S16384x8x8, .i32⟩
  | .hbm, ⟨63, _⟩ => ⟨S16384x8x8, .i1⟩
  | .hbm, ⟨64, _⟩ => ⟨S_, .i1⟩
  | .hbm, ⟨65, _⟩ => ⟨S8x8, .i1⟩
  | .hbm, ⟨66, _⟩ => ⟨S8x8, .i32⟩
  | .hbm, ⟨67, _⟩ => ⟨S_, .i32⟩
  | .hbm, ⟨68, _⟩ => ⟨S8x8, .i32⟩
  | .hbm, ⟨69, _⟩ => ⟨S8x8, .i32⟩
  | .hbm, ⟨70, _⟩ => ⟨S8x8, .i32⟩
  | .hbm, ⟨71, _⟩ => ⟨S8x8, .i1⟩
  | .hbm, ⟨72, _⟩ => ⟨S_, .i1⟩
  | .hbm, ⟨73, _⟩ => ⟨S8x8, .i1⟩
  | .hbm, ⟨74, _⟩ => ⟨S8x8, .i1⟩
  | .hbm, ⟨75, _⟩ => ⟨S1x8x8, .i1⟩
  | .hbm, ⟨76, _⟩ => ⟨S16384x8x8, .i1⟩
  | .hbm, ⟨77, _⟩ => ⟨S16384x8x8, .i1⟩
  | .hbm, ⟨78, _⟩ => ⟨S_, .i1⟩
  | .hbm, ⟨79, _⟩ => ⟨S16384x8, .i1⟩
  | .hbm, ⟨80, _⟩ => ⟨S16384x8, .i1⟩
  | .hbm, ⟨81, _⟩ => ⟨S16384x8x1, .i32⟩
  | .hbm, ⟨82, _⟩ => ⟨S1x1x20, .i32⟩
  | .hbm, ⟨83, _⟩ => ⟨S16384x8x20, .i32⟩
  | .hbm, ⟨84, _⟩ => ⟨S16384x8x20, .i32⟩
  | .hbm, ⟨85, _⟩ => ⟨S16384x8x20, .i1⟩
  | .hbm, ⟨86, _⟩ => ⟨S16384x8x20, .f32⟩
  | .hbm, ⟨87, _⟩ => ⟨S16384x8x1, .f32⟩
  | .hbm, ⟨88, _⟩ => ⟨S16384x8x1, .f32⟩
  | .hbm, ⟨89, _⟩ => ⟨S16384x8x1, .f32⟩
  | .hbm, ⟨90, _⟩ => ⟨S16384x8x1, .f32⟩
  | .hbm, ⟨91, _⟩ => ⟨S_, .f32⟩
  | .hbm, ⟨92, _⟩ => ⟨S16384x8, .f32⟩
  | .hbm, ⟨93, _⟩ => ⟨S16384x8x1, .f32⟩
  | .hbm, ⟨94, _⟩ => ⟨S16384x8x25, .f32⟩
  | .hbm, ⟨95, _⟩ => ⟨S16384, .i32⟩
  | .hbm, ⟨96, _⟩ => ⟨S16384x1, .i32⟩
  | .hbm, ⟨97, _⟩ => ⟨S_, .i32⟩
  | .hbm, ⟨98, _⟩ => ⟨S16384x1, .i32⟩
  | .hbm, ⟨99, _⟩ => ⟨S16384x1, .i32⟩
  | .hbm, ⟨100, _⟩ => ⟨S16384x8, .i32⟩
  | .hbm, ⟨101, _⟩ => ⟨S16384x8, .i32⟩
  | .hbm, ⟨102, _⟩ => ⟨S_, .i32⟩
  | .hbm, ⟨103, _⟩ => ⟨S_, .i32⟩
  | .hbm, ⟨104, _⟩ => ⟨S16384x8, .i32⟩
  | .hbm, ⟨105, _⟩ => ⟨S16384x8, .i32⟩
  | .hbm, ⟨106, _⟩ => ⟨S_, .f32⟩
  | .hbm, ⟨107, _⟩ => ⟨S802816x25, .f32⟩
  | .hbm, ⟨108, _⟩ => ⟨S131072, .i32⟩
  | .hbm, ⟨109, _⟩ => ⟨S131072x25, .f32⟩
  | .hbm, ⟨110, _⟩ => ⟨S_, .i32⟩
  | .hbm, ⟨111, _⟩ => ⟨S131072, .i32⟩
  | .hbm, ⟨112, _⟩ => ⟨S131072, .i1⟩
  | .hbm, ⟨113, _⟩ => ⟨S_, .i32⟩
  | .hbm, ⟨114, _⟩ => ⟨S131072, .i32⟩
  | .hbm, ⟨115, _⟩ => ⟨S131072, .i32⟩
  | .hbm, ⟨116, _⟩ => ⟨S131072, .i32⟩
  | .hbm, ⟨117, _⟩ => ⟨S131072x1, .i32⟩
  | .hbm, ⟨118, _⟩ => ⟨S802816x25, .f32⟩
  | .hbm, ⟨119, _⟩ => ⟨S16384x7x7x25, .f32⟩
  | .hbm, ⟨120, _⟩ => ⟨S1x1, .f32⟩
  | .hbm, ⟨121, _⟩ => ⟨S_, .f32⟩
  | .hbm, ⟨122, _⟩ => ⟨S_, .f32⟩
  | .hbm, ⟨123, _⟩ => ⟨S_, .f32⟩
  | .local _ .vmem, ⟨0, _⟩ => ⟨S128x7x7x25, .f32⟩
  | .local _ .vmem, ⟨1, _⟩ => ⟨S128x7x7x25, .f32⟩
  | .local _ .vmem, ⟨2, _⟩ => ⟨S128x7x7x25, .f32⟩
  | .local _ .vmem, ⟨3, _⟩ => ⟨S128x7x7x25, .f32⟩
  | .local _ .vmem, ⟨4, _⟩ => ⟨S1x1, .f32⟩
  | _, _ => ⟨S16384x7x7x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_5 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_c_6 : Ref sig .tc := ⟨.hbm, 64, rfl⟩
abbrev main_v54 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_c_0 : Ref sig .tc := ⟨.hbm, 72, rfl⟩
abbrev main_call0_v5 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_7 : Ref sig .tc := ⟨.hbm, 78, rfl⟩
abbrev main_v59 : Ref sig .tc := ⟨.hbm, 79, rfl⟩
abbrev main_v60 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_8 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_9 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_10 : Ref sig .tc := ⟨.hbm, 102, rfl⟩
abbrev main_call2_v0 : Ref sig .tc := ⟨.hbm, 103, rfl⟩
abbrev main_call2_v1 : Ref sig .tc := ⟨.hbm, 104, rfl⟩
abbrev main_v75 : Ref sig .tc := ⟨.hbm, 105, rfl⟩
abbrev main_cst_11 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_12 : Ref sig .tc := ⟨.hbm, 110, rfl⟩
abbrev main_v79 : Ref sig .tc := ⟨.hbm, 111, rfl⟩
abbrev main_v80 : Ref sig .tc := ⟨.hbm, 112, rfl⟩
abbrev main_c_13 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_14 : Ref sig .tc := ⟨.hbm, 122, rfl⟩
abbrev main_v89 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x7x7x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7x7x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S16384x8x5_S16384x8x4_0_0_0 : S16384x8x5.Slices ![0, 0, 0] S16384x8x4
  bcast_S_S16384x8x4 : S_.BroadcastsInDim S16384x8x4 (![] : Fin 0 → Fin S16384x8x4.rank)
  slices_S16384x8x5_S16384x8x1_0_0_4 : S16384x8x5.Slices ![0, 0, 4] S16384x8x1
  shapeCasts_S16384x8x1_S16384x8 : S16384x8x1.ShapeCasts S16384x8
  slices_S16384x8x4_S16384x8x1_0_0_0 : S16384x8x4.Slices ![0, 0, 0] S16384x8x1
  slices_S16384x8x4_S16384x8x1_0_0_2 : S16384x8x4.Slices ![0, 0, 2] S16384x8x1
  bcast_S_S16384x8 : S_.BroadcastsInDim S16384x8 (![] : Fin 0 → Fin S16384x8.rank)
  slices_S16384x8x4_S16384x8x1_0_0_1 : S16384x8x4.Slices ![0, 0, 1] S16384x8x1
  slices_S16384x8x4_S16384x8x1_0_0_3 : S16384x8x4.Slices ![0, 0, 3] S16384x8x1
  bcast_S16384x8_S16384x8x1_0_1 : S16384x8.BroadcastsInDim S16384x8x1 (![0, 1] : Fin 2 → Fin S16384x8x1.rank)
  bcast_S16384x8_S16384x1x8_0_2 : S16384x8.BroadcastsInDim S16384x1x8 (![0, 2] : Fin 2 → Fin S16384x1x8.rank)
  bcast_S16384x8x1_S16384x8x8_0_1_2 : S16384x8x1.BroadcastsInDim S16384x8x8 (![0, 1, 2] : Fin 3 → Fin S16384x8x8.rank)
  bcast_S16384x1x8_S16384x8x8_0_1_2 : S16384x1x8.BroadcastsInDim S16384x8x8 (![0, 1, 2] : Fin 3 → Fin S16384x8x8.rank)
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S16384x8x8_0_1_2 : S1x8x8.BroadcastsInDim S16384x8x8 (![0, 1, 2] : Fin 3 → Fin S16384x8x8.rank)
  reducesTo_S16384x8x8_S16384x8_d2 : S16384x8x8.ReducesTo [2] S16384x8
  h_S_ : 0 < S_.numel
  bcast_S16384x8x1_S16384x8x20_0_1_2 : S16384x8x1.BroadcastsInDim S16384x8x20 (![0, 1, 2] : Fin 3 → Fin S16384x8x20.rank)
  bcast_S1x1x20_S16384x8x20_0_1_2 : S1x1x20.BroadcastsInDim S16384x8x20 (![0, 1, 2] : Fin 3 → Fin S16384x8x20.rank)
  concatenates_S16384x8x1_S16384x8x1_S16384x8x1_S16384x8x1_S16384x8x1_S16384x8x20_S16384x8x25_d2 : Shape.Concatenates [S16384x8x1, S16384x8x1, S16384x8x1, S16384x8x1, S16384x8x1, S16384x8x20] S16384x8x25 2
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x8_0_1 : S16384x1.BroadcastsInDim S16384x8 (![0, 1] : Fin 2 → Fin S16384x8.rank)
  bcast_S_S802816x25 : S_.BroadcastsInDim S802816x25 (![] : Fin 0 → Fin S802816x25.rank)
  shapeCasts_S16384x8_S131072 : S16384x8.ShapeCasts S131072
  shapeCasts_S16384x8x25_S131072x25 : S16384x8x25.ShapeCasts S131072x25
  bcast_S_S131072 : S_.BroadcastsInDim S131072 (![] : Fin 0 → Fin S131072.rank)
  bcast_S131072_S131072x1_0 : S131072.BroadcastsInDim S131072x1 (![0] : Fin 1 → Fin S131072x1.rank)
  shapeCasts_S802816x25_S16384x7x7x25 : S802816x25.ShapeCasts S16384x7x7x25
  inb_S1x1_S1x1_0_0 : ∀ a, (![0, 0] : Fin 2 → Nat) a + S1x1.size a ≤ S1x1.size a
  h_S1x1 : 0 < S1x1.numel
  inb_S128x7x7x25_S128x7x7x25_0_0_0_0 : ∀ a, (![0, 0, 0, 0] : Fin 4 → Nat) a + S128x7x7x25.size a ≤ S128x7x7x25.size a
  h_S128x7x7x25 : 0 < S128x7x7x25.numel
  shapeCasts_S128x7x7x25_S128x7x7x25 : S128x7x7x25.ShapeCasts S128x7x7x25
  slices_S128x7x7x25_o0_0_0_4_S128x7x7x1 : S128x7x7x25.Slices ![0, 0, 0, 4] S128x7x7x1
  shapeCasts_S128x7x7x1_S128x7x7 : S128x7x7x1.ShapeCasts S128x7x7
  reduces_S128x7x7_S128x7 : S128x7x7.Reduces [2] S128x7
  reduces_S128x7_S128 : S128x7.Reduces [1] S128
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  slices_S128x7x7x25_o0_0_0_0_S128x7x7x1 : S128x7x7x25.Slices ![0, 0, 0, 0] S128x7x7x1
  slices_S128x7x7x25_o0_0_0_1_S128x7x7x1 : S128x7x7x25.Slices ![0, 0, 0, 1] S128x7x7x1
  slices_S128x7x7x25_o0_0_0_2_S128x7x7x1 : S128x7x7x25.Slices ![0, 0, 0, 2] S128x7x7x1
  slices_S128x7x7x25_o0_0_0_3_S128x7x7x1 : S128x7x7x25.Slices ![0, 0, 0, 3] S128x7x7x1
  slices_S128x7x7x25_o0_0_0_5_S128x7x7x20 : S128x7x7x25.Slices ![0, 0, 0, 5] S128x7x7x20
  shapeCasts_S128x7x7_S128x7x7x1 : S128x7x7.ShapeCasts S128x7x7x1
  broadcasts_S128x7x7x1_S128x7x7x20 : S128x7x7x1.Broadcasts S128x7x7x20
  reduces_S128x7x7x20_S128x7x7 : S128x7x7x20.Reduces [3] S128x7x7
  shapeCasts_S1x1_S1x1 : S1x1.ShapeCasts S1x1
  shapeCasts_S1x1_S_ : S1x1.ShapeCasts S_
  scatter_S802816x25_S131072x1_S131072x25_1_0_0_1_wf : ScatterDims.WF S802816x25 S131072x1 S131072x25 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x7x7x25.size a ≤ S16384x7x7x25.size a
  hwx0_0 : ∀ i : grid0.Coords, EltTy.bits .f32 = 32 ∨ (Rect.block (s := S16384x7x7x25) S128x7x7x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x7x7x25.size a ≤ S16384x7x7x25.size a
  hwx0_1 : ∀ i : grid0.Coords, EltTy.bits .f32 = 32 ∨ (Rect.block (s := S16384x7x7x25) S128x7x7x25.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def scatter_S802816x25_S131072x1_S131072x25_1_0_0_1 : ScatterDims S802816x25 S131072x1 S131072x25 where
  updateWindowDims := [1]
  insertedWindowDims := [0]
  scatterDimsToOperandDims := [0]
  indexVectorDim := 1
  wf := scatter_S802816x25_S131072x1_S131072x25_1_0_0_1_wf

abbrev win0_0 : Pipeline.Window sig grid0 :=
  Pipeline.Window.ofSpec (Memref.whole main_arg0) S128x7x7x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v86) S128x7x7x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v87) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x7x7x25 : Shape := ⟨4, ![16384, 7, 7, 25]⟩
abbrev S16384x8x5 : Shape := ⟨3, ![16384, 8, 5]⟩
abbrev S16384x8x4 : Shape := ⟨3, ![16384, 8, 4]⟩
abbrev S_ : Shape := ⟨0, ![]⟩
abbrev S16384x8x1 : Shape := ⟨3, ![16384, 8, 1]⟩
abbrev S16384x8 : Shape := ⟨2, ![16384, 8]⟩
abbrev S16384x1x8 : Shape := ⟨3, ![16384, 1, 8]⟩
abbrev S16384x8x8 : Shape := ⟨3, ![16384, 8, 8]⟩
abbrev S8x8 : Shape := ⟨2, ![8, 8]⟩
abbrev S1x8x8 : Shape := ⟨3, ![1, 8, 8]⟩
abbrev S1x1x20 : Shape := ⟨3, ![1, 1, 20]⟩
abbrev S16384x8x20 : Shape := ⟨3, ![16384, 8, 20]⟩
abbrev S16384x8x25 : Shape := ⟨3, ![16384, 8, 25]⟩
abbrev S16384 : Shape := ⟨1, ![16384]⟩
abbrev S16384x1 : Shape := ⟨2, ![16384, 1]⟩
abbrev S802816x25 : Shape := ⟨2, ![802816, 25]⟩
abbrev S131072 : Shape := ⟨1, ![131072]⟩
abbrev S131072x25 : Shape := ⟨2, ![131072, 25]⟩
abbrev S131072x1 : Shape := ⟨2, ![131072, 1]⟩
abbrev S16384x7x7x1 : Shape := ⟨4, ![16384, 7, 7, 1]⟩
abbrev S16384x7x7 : Shape := ⟨3, ![16384, 7, 7]⟩
abbrev S16384x7x7x20 : Shape := ⟨4, ![16384, 7, 7, 20]⟩

abbrev nBuf : Space → Nat
  | .hbm => 190
  | .vmem => 0
  | .smem => 0
  | _ => 0

abbrev hbmTy0_0 (i : Nat) : BufTy := match i % 128 with
  | 0 => ⟨S16384x7x7x25, .f32⟩
  | 1 => ⟨S16384x8x5, .f32⟩
  | 2 => ⟨S16384x8x4, .f32⟩
  | 3 => ⟨S_, .f32⟩
  | 4 => ⟨S16384x8x4, .f32⟩
  | 5 => ⟨S16384x8x4, .f32⟩
  | 6 => ⟨S16384x8x1, .f32⟩
  | 7 => ⟨S16384x8, .f32⟩
  | 8 => ⟨S16384x8, .i32⟩
  | 9 => ⟨S16384x8x1, .f32⟩
  | 10 => ⟨S16384x8, .f32⟩
  | 11 => ⟨S16384x8x1, .f32⟩
  | 12 => ⟨S16384x8, .f32⟩
  | 13 => ⟨S16384x8, .f32⟩
  | 14 => ⟨S_, .f32⟩
  | 15 => ⟨S16384x8, .f32⟩
  | 16 => ⟨S16384x8, .f32⟩
  | 17 => ⟨S16384x8x1, .f32⟩
  | 18 => ⟨S16384x8, .f32⟩
  | 19 => ⟨S16384x8x1, .f32⟩
  | 20 => ⟨S16384x8, .f32⟩
  | 21 => ⟨S16384x8, .f32⟩
  | 22 => ⟨S_, .f32⟩
  | 23 => ⟨S16384x8, .f32⟩
  | 24 => ⟨S16384x8, .f32⟩
  | 25 => ⟨S16384x8x1, .f32⟩
  | 26 => ⟨S16384x8, .f32⟩
  | 27 => ⟨S16384x8x1, .f32⟩
  | 28 => ⟨S16384x8, .f32⟩
  | 29 => ⟨S16384x8, .f32⟩
  | 30 => ⟨S16384x8x1, .f32⟩
  | 31 => ⟨S16384x8, .f32⟩
  | 32 => ⟨S16384x8x1, .f32⟩
  | 33 => ⟨S16384x8, .f32⟩
  | 34 => ⟨S16384x8, .f32⟩
  | 35 => ⟨S_, .f32⟩
  | 36 => ⟨S16384x8, .f32⟩
  | 37 => ⟨S16384x8, .f32⟩
  | 38 => ⟨S16384x8, .f32⟩
  | 39 => ⟨S16384x8, .i32⟩
  | 40 => ⟨S_, .f32⟩
  | 41 => ⟨S16384x8, .f32⟩
  | 42 => ⟨S16384x8, .f32⟩
  | 43 => ⟨S16384x8, .f32⟩
  | 44 => ⟨S16384x8, .i32⟩
  | 45 => ⟨S_, .f32⟩
  | 46 => ⟨S16384x8, .f32⟩
  | 47 => ⟨S16384x8, .f32⟩
  | 48 => ⟨S16384x8, .f32⟩
  | 49 => ⟨S16384x8, .f32⟩
  | 50 => ⟨S_, .f32⟩
  | 51 => ⟨S16384x8, .f32⟩
  | 52 => ⟨S16384x8, .f32⟩
  | 53 => ⟨S16384x8, .f32⟩
  | 54 => ⟨S16384x8, .f32⟩
  | 55 => ⟨S_, .i32⟩
  | 56 => ⟨S16384x8, .i32⟩
  | 57 => ⟨S16384x8, .i32⟩
  | 58 => ⟨S16384x8, .i32⟩
  | 59 => ⟨S16384x8x1, .i32⟩
  | 60 => ⟨S16384x1x8, .i32⟩
  | 61 => ⟨S16384x8x8, .i32⟩
  | 62 => ⟨S16384x8x8, .i32⟩
  | 63 => ⟨S16384x8x8, .i1⟩
  | 64 => ⟨S_, .i1⟩
  | 65 => ⟨S8x8, .i1⟩
  | 66 => ⟨S8x8, .i32⟩
  | 67 => ⟨S_, .i32⟩
  | 68 => ⟨S8x8, .i32⟩
  | 69 => ⟨S8x8, .i32⟩
  | 70 => ⟨S8x8, .i32⟩
  | 71 => ⟨S8x8, .i1⟩
  | 72 => ⟨S_, .i1⟩
  | 73 => ⟨S8x8, .i1⟩
  | 74 => ⟨S8x8, .i1⟩
  | 75 => ⟨S1x8x8, .i1⟩
  | 76 => ⟨S16384x8x8, .i1⟩
  | 77 => ⟨S16384x8x8, .i1⟩
  | 78 => ⟨S_, .i1⟩
  | 79 => ⟨S16384x8, .i1⟩
  | 80 => ⟨S16384x8, .i1⟩
  | 81 => ⟨S16384x8x1, .i32⟩
  | 82 => ⟨S1x1x20, .i32⟩
  | 83 => ⟨S16384x8x20, .i32⟩
  | 84 => ⟨S16384x8x20, .i32⟩
  | 85 => ⟨S16384x8x20, .i1⟩
  | 86 => ⟨S16384x8x20, .f32⟩
  | 87 => ⟨S16384x8x1, .f32⟩
  | 88 => ⟨S16384x8x1, .f32⟩
  | 89 => ⟨S16384x8x1, .f32⟩
  | 90 => ⟨S16384x8x1, .f32⟩
  | 91 => ⟨S_, .f32⟩
  | 92 => ⟨S16384x8, .f32⟩
  | 93 => ⟨S16384x8x1, .f32⟩
  | 94 => ⟨S16384x8x25, .f32⟩
  | 95 => ⟨S16384, .i32⟩
  | 96 => ⟨S16384x1, .i32⟩
  | 97 => ⟨S_, .i32⟩
  | 98 => ⟨S16384x1, .i32⟩
  | 99 => ⟨S16384x1, .i32⟩
  | 100 => ⟨S16384x8, .i32⟩
  | 101 => ⟨S16384x8, .i32⟩
  | 102 => ⟨S_, .i32⟩
  | 103 => ⟨S_, .i32⟩
  | 104 => ⟨S16384x8, .i32⟩
  | 105 => ⟨S16384x8, .i32⟩
  | 106 => ⟨S_, .f32⟩
  | 107 => ⟨S802816x25, .f32⟩
  | 108 => ⟨S131072, .i32⟩
  | 109 => ⟨S131072x25, .f32⟩
  | 110 => ⟨S_, .i32⟩
  | 111 => ⟨S131072, .i32⟩
  | 112 => ⟨S131072, .i1⟩
  | 113 => ⟨S_, .i32⟩
  | 114 => ⟨S131072, .i32⟩
  | 115 => ⟨S131072, .i32⟩
  | 116 => ⟨S131072, .i32⟩
  | 117 => ⟨S131072x1, .i32⟩
  | 118 => ⟨S802816x25, .f32⟩
  | 119 => ⟨S16384x7x7x25, .f32⟩
  | 120 => ⟨S16384x7x7x1, .f32⟩
  | 121 => ⟨S16384x7x7, .f32⟩
  | 122 => ⟨S_, .f32⟩
  | 123 => ⟨S16384x7x7, .f32⟩
  | 124 => ⟨S16384x7x7, .f32⟩
  | 125 => ⟨S_, .f32⟩
  | 126 => ⟨S16384x7x7, .f32⟩
  | 127 => ⟨S16384x7x7, .f32⟩
  | _ => ⟨S16384x7x7x25, .f32⟩

abbrev hbmTy0_1 (i : Nat) : BufTy := match i % 128 with
  | 0 => ⟨S16384x7x7x1, .f32⟩
  | 1 => ⟨S16384x7x7, .f32⟩
  | 2 => ⟨S16384x7x7x1, .f32⟩
  | 3 => ⟨S16384x7x7, .f32⟩
  | 4 => ⟨S16384x7x7, .f32⟩
  | 5 => ⟨S16384x7x7, .f32⟩
  | 6 => ⟨S16384x7x7, .f32⟩
  | 7 => ⟨S16384x7x7, .f32⟩
  | 8 => ⟨S_, .f32⟩
  | 9 => ⟨S16384, .f32⟩
  | 10 => ⟨S16384x7x7x1, .f32⟩
  | 11 => ⟨S16384x7x7, .f32⟩
  | 12 => ⟨S16384x7x7x1, .f32⟩
  | 13 => ⟨S16384x7x7, .f32⟩
  | 14 => ⟨S16384x7x7, .f32⟩
  | 15 => ⟨S16384x7x7, .f32⟩
  | 16 => ⟨S16384x7x7x1, .f32⟩
  | 17 => ⟨S16384x7x7, .f32⟩
  | 18 => ⟨S16384x7x7x1, .f32⟩
  | 19 => ⟨S16384x7x7, .f32⟩
  | 20 => ⟨S16384x7x7, .f32⟩
  | 21 => ⟨S16384x7x7, .f32⟩
  | 22 => ⟨S16384x7x7, .f32⟩
  | 23 => ⟨S16384x7x7x1, .f32⟩
  | 24 => ⟨S16384x7x7, .f32⟩
  | 25 => ⟨S16384x7x7, .f32⟩
  | 26 => ⟨S16384x7x7x1, .f32⟩
  | 27 => ⟨S16384x7x7, .f32⟩
  | 28 => ⟨S16384x7x7, .f32⟩
  | 29 => ⟨S16384x7x7, .f32⟩
  | 30 => ⟨S16384x7x7, .f32⟩
  | 31 => ⟨S16384x7x7, .f32⟩
  | 32 => ⟨S16384x7x7x1, .f32⟩
  | 33 => ⟨S16384x7x7, .f32⟩
  | 34 => ⟨S16384x7x7, .f32⟩
  | 35 => ⟨S16384x7x7x1, .f32⟩
  | 36 => ⟨S16384x7x7, .f32⟩
  | 37 => ⟨S16384x7x7, .f32⟩
  | 38 => ⟨S16384x7x7, .f32⟩
  | 39 => ⟨S16384x7x7, .f32⟩
  | 40 => ⟨S16384x7x7, .f32⟩
  | 41 => ⟨S16384x7x7, .f32⟩
  | 42 => ⟨S_, .f32⟩
  | 43 => ⟨S16384x7x7, .f32⟩
  | 44 => ⟨S16384x7x7, .f32⟩
  | 45 => ⟨S_, .f32⟩
  | 46 => ⟨S16384, .f32⟩
  | 47 => ⟨S16384x7x7x20, .f32⟩
  | 48 => ⟨S16384x7x7x20, .f32⟩
  | 49 => ⟨S16384x7x7x20, .f32⟩
  | 50 => ⟨S16384x7x7x20, .f32⟩
  | 51 => ⟨S16384x7x7x1, .f32⟩
  | 52 => ⟨S16384x7x7x20, .f32⟩
  | 53 => ⟨S16384x7x7x20, .f32⟩
  | 54 => ⟨S_, .f32⟩
  | 55 => ⟨S16384, .f32⟩
  | 56 => ⟨S16384, .f32⟩
  | 57 => ⟨S16384, .f32⟩
  | 58 => ⟨S_, .f32⟩
  | 59 => ⟨S_, .f32⟩
  | 60 => ⟨S_, .f32⟩
  | 61 => ⟨S_, .f32⟩
  | _ => ⟨S16384x7x7x25, .f32⟩

abbrev hbmTy (i : Nat) : BufTy := match i / 128 with
  | 0 => hbmTy0_0 i
  | 1 => hbmTy0_1 i
  | _ => ⟨S16384x7x7x25, .f32⟩

abbrev bufTy : (tb : Table) → Fin (tcTables nBuf tb) → BufTy
  | .hbm, ⟨i, _⟩ => hbmTy i
  | _, _ => ⟨S16384x7x7x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_5 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_c_6 : Ref sig .tc := ⟨.hbm, 64, rfl⟩
abbrev main_v54 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_c_0 : Ref sig .tc := ⟨.hbm, 72, rfl⟩
abbrev main_call0_v5 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_7 : Ref sig .tc := ⟨.hbm, 78, rfl⟩
abbrev main_v59 : Ref sig .tc := ⟨.hbm, 79, rfl⟩
abbrev main_v60 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_8 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_9 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_10 : Ref sig .tc := ⟨.hbm, 102, rfl⟩
abbrev main_call2_v0 : Ref sig .tc := ⟨.hbm, 103, rfl⟩
abbrev main_call2_v1 : Ref sig .tc := ⟨.hbm, 104, rfl⟩
abbrev main_v75 : Ref sig .tc := ⟨.hbm, 105, rfl⟩
abbrev main_cst_11 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_12 : Ref sig .tc := ⟨.hbm, 110, rfl⟩
abbrev main_v79 : Ref sig .tc := ⟨.hbm, 111, rfl⟩
abbrev main_v80 : Ref sig .tc := ⟨.hbm, 112, rfl⟩
abbrev main_c_13 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_14 : Ref sig .tc := ⟨.hbm, 122, rfl⟩
abbrev main_v89 : Ref sig .tc := ⟨.hbm, 123, rfl⟩
abbrev main_v90 : Ref sig .tc := ⟨.hbm, 124, rfl⟩
abbrev main_cst_15 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_16 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_17 : Ref sig .tc := ⟨.hbm, 170, rfl⟩
abbrev main_v134 : Ref sig .tc := ⟨.hbm, 171, rfl⟩
abbrev main_v135 : Ref sig .tc := ⟨.hbm, 172, rfl⟩
abbrev main_cst_18 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_19 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_20 : Ref sig .tc := ⟨.hbm, 186, rfl⟩
abbrev main_v147 : Ref sig .tc := ⟨.hbm, 187, rfl⟩
abbrev main_cst_21 : Ref sig .tc := ⟨.hbm, 188, rfl⟩
abbrev main_v148 : Ref sig .tc := ⟨.hbm, 189, rfl⟩

abbrev nD : Nat := 1
abbrev τ : Topo := Topo.v7x

variable {F : FTy → Type} [FloatOps F]

class Facts₀ : Prop where
  slices_S16384x8x5_S16384x8x4_0_0_0 : S16384x8x5.Slices ![0, 0, 0] S16384x8x4
  bcast_S_S16384x8x4 : S_.BroadcastsInDim S16384x8x4 (![] : Fin 0 → Fin S16384x8x4.rank)
  slices_S16384x8x5_S16384x8x1_0_0_4 : S16384x8x5.Slices ![0, 0, 4] S16384x8x1
  shapeCasts_S16384x8x1_S16384x8 : S16384x8x1.ShapeCasts S16384x8
  slices_S16384x8x4_S16384x8x1_0_0_0 : S16384x8x4.Slices ![0, 0, 0] S16384x8x1
  slices_S16384x8x4_S16384x8x1_0_0_2 : S16384x8x4.Slices ![0, 0, 2] S16384x8x1
  bcast_S_S16384x8 : S_.BroadcastsInDim S16384x8 (![] : Fin 0 → Fin S16384x8.rank)
  slices_S16384x8x4_S16384x8x1_0_0_1 : S16384x8x4.Slices ![0, 0, 1] S16384x8x1
  slices_S16384x8x4_S16384x8x1_0_0_3 : S16384x8x4.Slices ![0, 0, 3] S16384x8x1
  bcast_S16384x8_S16384x8x1_0_1 : S16384x8.BroadcastsInDim S16384x8x1 (![0, 1] : Fin 2 → Fin S16384x8x1.rank)
  bcast_S16384x8_S16384x1x8_0_2 : S16384x8.BroadcastsInDim S16384x1x8 (![0, 2] : Fin 2 → Fin S16384x1x8.rank)
  bcast_S16384x8x1_S16384x8x8_0_1_2 : S16384x8x1.BroadcastsInDim S16384x8x8 (![0, 1, 2] : Fin 3 → Fin S16384x8x8.rank)
  bcast_S16384x1x8_S16384x8x8_0_1_2 : S16384x1x8.BroadcastsInDim S16384x8x8 (![0, 1, 2] : Fin 3 → Fin S16384x8x8.rank)
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S16384x8x8_0_1_2 : S1x8x8.BroadcastsInDim S16384x8x8 (![0, 1, 2] : Fin 3 → Fin S16384x8x8.rank)
  reducesTo_S16384x8x8_S16384x8_d2 : S16384x8x8.ReducesTo [2] S16384x8
  h_S_ : 0 < S_.numel
  bcast_S16384x8x1_S16384x8x20_0_1_2 : S16384x8x1.BroadcastsInDim S16384x8x20 (![0, 1, 2] : Fin 3 → Fin S16384x8x20.rank)
  bcast_S1x1x20_S16384x8x20_0_1_2 : S1x1x20.BroadcastsInDim S16384x8x20 (![0, 1, 2] : Fin 3 → Fin S16384x8x20.rank)
  concatenates_S16384x8x1_S16384x8x1_S16384x8x1_S16384x8x1_S16384x8x1_S16384x8x20_S16384x8x25_d2 : Shape.Concatenates [S16384x8x1, S16384x8x1, S16384x8x1, S16384x8x1, S16384x8x1, S16384x8x20] S16384x8x25 2
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x8_0_1 : S16384x1.BroadcastsInDim S16384x8 (![0, 1] : Fin 2 → Fin S16384x8.rank)
  bcast_S_S802816x25 : S_.BroadcastsInDim S802816x25 (![] : Fin 0 → Fin S802816x25.rank)
  shapeCasts_S16384x8_S131072 : S16384x8.ShapeCasts S131072
  shapeCasts_S16384x8x25_S131072x25 : S16384x8x25.ShapeCasts S131072x25
  bcast_S_S131072 : S_.BroadcastsInDim S131072 (![] : Fin 0 → Fin S131072.rank)
  bcast_S131072_S131072x1_0 : S131072.BroadcastsInDim S131072x1 (![0] : Fin 1 → Fin S131072x1.rank)
  shapeCasts_S802816x25_S16384x7x7x25 : S802816x25.ShapeCasts S16384x7x7x25
  slices_S16384x7x7x25_S16384x7x7x1_0_0_0_4 : S16384x7x7x25.Slices ![0, 0, 0, 4] S16384x7x7x1
  shapeCasts_S16384x7x7x1_S16384x7x7 : S16384x7x7x1.ShapeCasts S16384x7x7
  bcast_S_S16384x7x7 : S_.BroadcastsInDim S16384x7x7 (![] : Fin 0 → Fin S16384x7x7.rank)
  reducesTo_S16384x7x7_S16384_d1_2 : S16384x7x7.ReducesTo [1, 2] S16384
  slices_S16384x7x7x25_S16384x7x7x1_0_0_0_0 : S16384x7x7x25.Slices ![0, 0, 0, 0] S16384x7x7x1
  slices_S16384x7x7x25_S16384x7x7x1_0_0_0_1 : S16384x7x7x25.Slices ![0, 0, 0, 1] S16384x7x7x1
  slices_S16384x7x7x25_S16384x7x7x1_0_0_0_2 : S16384x7x7x25.Slices ![0, 0, 0, 2] S16384x7x7x1
  slices_S16384x7x7x25_S16384x7x7x1_0_0_0_3 : S16384x7x7x25.Slices ![0, 0, 0, 3] S16384x7x7x1
  slices_S16384x7x7x25_S16384x7x7x20_0_0_0_5 : S16384x7x7x25.Slices ![0, 0, 0, 5] S16384x7x7x20
  bcast_S16384x7x7_S16384x7x7x1_0_1_2 : S16384x7x7.BroadcastsInDim S16384x7x7x1 (![0, 1, 2] : Fin 3 → Fin S16384x7x7x1.rank)
  bcast_S16384x7x7x1_S16384x7x7x20_0_1_2_3 : S16384x7x7x1.BroadcastsInDim S16384x7x7x20 (![0, 1, 2, 3] : Fin 4 → Fin S16384x7x7x20.rank)
  reducesTo_S16384x7x7x20_S16384_d1_2_3 : S16384x7x7x20.ReducesTo [1, 2, 3] S16384
  reducesTo_S16384_S_d0 : S16384.ReducesTo [0] S_
  scatter_S802816x25_S131072x1_S131072x25_1_0_0_1_wf : ScatterDims.WF S802816x25 S131072x1 S131072x25 [1] [0] [0] 1

variable [Facts₀]

def scatter_S802816x25_S131072x1_S131072x25_1_0_0_1 : ScatterDims S802816x25 S131072x1 S131072x25 where
  updateWindowDims := [1]
  insertedWindowDims := [0]
  scatterDimsToOperandDims := [0]
  indexVectorDim := 1
  wf := scatter_S802816x25_S131072x1_S131072x25_1_0_0_1_wf

class Facts : Prop extends Facts₀ where

variable [Facts]
-- ==== Proof.WordRegionEntry.lean ====
/-
  The loss kernel's launch, seen from the region's door. Before the region @main builds the target array
  (the boxes' cell offsets, sizes and one-hot labels scattered into a zero [16384·49, 25] table, first box
  of a cell winning) with seven stretches of host lines; after it, three more lines turn the kernel's
  [1,1] sum into the mean. Here: what every buffer holds when the region is entered, that @main is these
  stretches around the region, the block of each input a grid point sees, and the one branch of the body
  (the accumulator is cleared at grid point 0 and nowhere else).
-/
import proofs.«149325_j86758339379422_2_alg».proof.Proof.Gen.Kernel.Launch
import proofs.«149325_j86758339379422_2_alg».proof.Proof.Gen.Kernel.Skeleton
import proofs.«149325_j86758339379422_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch: the box geometry, the lower-triangular mask, the
    "an earlier box hit this cell" test, the one-hot labels, the 25 features per box and the flat cell index,
    the out-of-range sentinel for dropped boxes, and the scatter into the zero table. -/
abbrev linesBefore : List (List (HloOp τ sig (Elt F))) :=
  [hostOps0, hostOps0_1, hostOps0_2, hostOps0_3, hostOps0_4, hostOps0_5, hostOps0_6]

/-- Core `c`'s buffers when the region is entered: the launch contents after the lines before the region. -/
abbrev V0 (c : Dev nD) : Valuation τ sig (Elt F) := StableHlo.after (List.flatten (linesBefore (F := F))) (fun b => m (c, b))
/-- The same read at a TensorCore reference. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
theorem fresh0_6 : (hostOps0_6 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the lines before the region, the region, and the three lines after it: it reduces to the region
    continued by those three lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main linesBefore [hostOps1]
    ⟨hostOps0_sub, hostOps0_1_sub, hostOps0_2_sub, hostOps0_3_sub, hostOps0_4_sub, hostOps0_5_sub, hostOps0_6_sub⟩
    ⟨fresh0, fresh0_1, fresh0_2, fresh0_3, fresh0_4, fresh0_5, fresh0_6⟩ main_chain

/-- The lines after the region touch only unscoped TensorCore buffers. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp fresh1) op hop
/-- And each writes its own result only, which is none of the pipeline's three arrays. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.binary_writes, StableHlo.reshape_writes, Finset.mem_singleton] <;> exact StableHlo.devRef_ne_of_ne (by decide)

/-! ## The windows' blocks -/

/-- Window `w`'s block at grid point `t`, read off its array as the region finds it: rows 128·t … 128·t+127 of
    the predictions (window 0) or of the target (window 1). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The predictions' staging buffer holds the point's block before the body, whatever proof data names the
    outputs, as long as the body leaves the block in place. -/
theorem before_pred_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the target's staging buffer. -/
theorem before_target_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- "This is grid point 0", as the body computes it from the coordinate. -/
abbrev atStart (i : grid0.Coords) : Prop := (Scalar.cmpi .ne (Scalar.extui (Scalar.cmpi .eq (BitVec.ofNat 32 (i 0).val) 0#32)) 0#32) = 1#1
/-- It holds at the first of the 128 points only. -/
theorem atStart_iff : ∀ t : Fin cfg0.N, atStart (grid0.coords t) ↔ t.val % 128 = 0 :=
  (by decide +kernel : ∀ t : Fin grid0.N, atStart (grid0.coords t) ↔ t.val % 128 = 0)

/-! ## The staging memrefs the pipeline hands the body -/

/-- The accumulator's one staging buffer, through which its contents are stated. -/
abbrev accView : View sig .tc .vmem S1x1 .f32 := (Memref.whole cc0_stg2_0 : Memref sig .tc .vmem S1x1 .f32).view
abbrev mPred (t : Fin cfg0.N) : Memref sig .tc .vmem S128x7x7x25 .f32 := win0_0.stage (cfg0.slots t 0)
abbrev hPred (t : Fin cfg0.N) : (mPred t).IsWhole := hstage0_0 ((cfg0.slots t 0).cast nbuf0_0)
abbrev mTarget (t : Fin cfg0.N) : Memref sig .tc .vmem S128x7x7x25 .f32 := win0_1.stage (cfg0.slots t 1)
abbrev hTarget (t : Fin cfg0.N) : (mTarget t).IsWhole := hstage0_1 ((cfg0.slots t 1).cast nbuf0_1)
abbrev mAcc (t : Fin cfg0.N) : Memref sig .tc .vmem S1x1 .f32 := win0_2.stage (cfg0.slots t 2)
abbrev hAcc (t : Fin cfg0.N) : (mAcc t).IsWhole := hstage0_2 ((cfg0.slots t 2).cast nbuf0_2)

end Cert.Kernel.Accum

end
-- ==== Proof.WordFirstPoint.lean ====
/-
  The body of the loss kernel run once, at grid point 0: the accumulator is cleared, then the block's three partial losses are added to it.
  The run is symbolic: the body loads the two 128×7×7×25 blocks whole, stores zero into the 1×1 accumulator, reads the accumulator back
  and stores its new value; what the accumulator's buffer ends with is found by the run as a list of stores.
-/
import proofs.«149325_j86758339379422_2_alg».proof.Proof.WordRegionEntry

set_option maxRecDepth 16384

noncomputable section

namespace Cert.Kernel.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator's staging memref at the first point (the branch taken), last first,
    with the proof that on whole staging memrefs — the two inputs at their blocks `x0` (predictions) and `x1` (target), the
    accumulator at anything — the body runs to its end holding the inputs as they were and the accumulator with those stores
    written. -/
noncomputable def runFirst (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : atStart i)
    (x0 : Vec F S128x7x7x25 .f32) (x1 : Vec F S128x7x7x25 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__loss_kernel i arg1 harg1 arg2 harg2 arg3 harg3) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Accum

end
-- ==== Proof.WordLaterPoint.lean ====
/-
  The body of the loss kernel run once, at a later grid point: the block's three partial losses are added to what the accumulator held.
  The run is symbolic: the body loads the two 128×7×7×25 blocks whole, reads the accumulator back
  and stores its new value; what the accumulator's buffer ends with is found by the run as a list of stores.
-/
import proofs.«149325_j86758339379422_2_alg».proof.Proof.WordFirstPoint

set_option maxRecDepth 16384

noncomputable section

namespace Cert.Kernel.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator's staging memref at a later point (the branch not taken), last first,
    with the proof that on whole staging memrefs — the two inputs at their blocks `x0` (predictions) and `x1` (target), the
    accumulator at its running contents `acc` — the body runs to its end holding the inputs as they were and the accumulator with those stores
    written. -/
noncomputable def runLater (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : ¬atStart i)
    (x0 : Vec F S128x7x7x25 .f32) (x1 : Vec F S128x7x7x25 .f32) (acc : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__loss_kernel i arg1 harg1 arg2 harg2 arg3 harg3) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Accum

end
-- ==== Proof.WordFrame.lean ====
/-
  The loss kernel's run through its 128 grid points. The accumulator window (one 1×1 block, the same at every
  point, written back once, after the last point) carries the sum: point 0 clears it and adds its block's
  partial loss, every later point adds its own to what the point before left. Here: what the accumulator's
  buffer holds after each point, by recursion on the point; the pipeline's proof data; the body's obligation
  at a generic point; the run of @main; and that the two argument arrays end as they began.
-/
import proofs.«149325_j86758339379422_2_alg».proof.Proof.WordLaterPoint

set_option maxRecDepth 16384

noncomputable section

namespace Cert.Kernel.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's stores cover the accumulator's one cell. -/
theorem coverFirst (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : atStart i)
    (x0 x1 : Vec F S128x7x7x25 .f32) (y : S1x1.Idx) :
    ∃ pc ∈ (runFirst c i arg1 harg1 arg2 harg2 arg3 harg3 hc x0 x1).1, y ∈ pc.1.set :=
  View.cover_of_tiledL (runFirst c i arg1 harg1 arg2 harg2 arg3 harg3 hc x0 x1).1 S1x1.size (by sl_kernel_rfl) y

/-- What the first point leaves in the accumulator: its stores read back. -/
def accFirst (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : atStart i)
    (x0 x1 : Vec F S128x7x7x25 .f32) : Vec F S1x1 .f32 :=
  accView.read (Elt F) (accView.writes (Elt F) accView.junk (runFirst c i arg1 harg1 arg2 harg2 arg3 harg3 hc x0 x1).1)

/-- A later point's one store covers the accumulator's cell. -/
theorem coverLater (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : ¬atStart i)
    (x0 x1 : Vec F S128x7x7x25 .f32) (acc : Vec F S1x1 .f32) (y : S1x1.Idx) :
    ∃ pc ∈ (runLater c i arg1 harg1 arg2 harg2 arg3 harg3 hc x0 x1 acc).1, y ∈ pc.1.set :=
  View.cover_of_tiledL (runLater c i arg1 harg1 arg2 harg2 arg3 harg3 hc x0 x1 acc).1 S1x1.size (by sl_kernel_rfl) y

/-- What a later point leaves in the accumulator, from what it found there. -/
def accLater (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : ¬atStart i)
    (x0 x1 : Vec F S128x7x7x25 .f32) (acc : Vec F S1x1 .f32) : Vec F S1x1 .f32 :=
  accView.read (Elt F) (accView.writes (Elt F) accView.junk (runLater c i arg1 harg1 arg2 harg2 arg3 harg3 hc x0 x1 acc).1)

/-! ## The accumulator after each point -/

/-- What the accumulator's staging buffer holds after the body at point `n`: point 0 starts from zero, point
    `n + 1` from what point `n` left (the buffer is not written back in between). -/
def accAt (c : Dev nD) : (n : ℕ) → n < cfg0.N → Vec F S1x1 .f32
  | 0, hn => accFirst c (grid0.coords ⟨0, hn⟩) (mPred ⟨0, hn⟩) (hPred ⟨0, hn⟩) (mTarget ⟨0, hn⟩) (hTarget ⟨0, hn⟩) (mAcc ⟨0, hn⟩) (hAcc ⟨0, hn⟩)
      ((atStart_iff ⟨0, hn⟩).mpr (Nat.zero_mod _)) (iblk m c 0 ⟨0, hn⟩) (iblk m c 1 ⟨0, hn⟩)
  | n + 1, hn =>
    if h0 : (n + 1) % 128 = 0 then
      accFirst c (grid0.coords ⟨n + 1, hn⟩) (mPred ⟨n + 1, hn⟩) (hPred ⟨n + 1, hn⟩) (mTarget ⟨n + 1, hn⟩) (hTarget ⟨n + 1, hn⟩) (mAcc ⟨n + 1, hn⟩) (hAcc ⟨n + 1, hn⟩)
        ((atStart_iff ⟨n + 1, hn⟩).mpr h0) (iblk m c 0 ⟨n + 1, hn⟩) (iblk m c 1 ⟨n + 1, hn⟩)
    else
      accLater c (grid0.coords ⟨n + 1, hn⟩) (mPred ⟨n + 1, hn⟩) (hPred ⟨n + 1, hn⟩) (mTarget ⟨n + 1, hn⟩) (hTarget ⟨n + 1, hn⟩) (mAcc ⟨n + 1, hn⟩) (hAcc ⟨n + 1, hn⟩)
        (fun h => h0 ((atStart_iff ⟨n + 1, hn⟩).mp h)) (iblk m c 0 ⟨n + 1, hn⟩) (iblk m c 1 ⟨n + 1, hn⟩) (accAt c n (Nat.lt_of_succ_lt hn))

theorem accAt_first (c : Dev nD) (t : Fin cfg0.N) (h0 : t.val % 128 = 0) :
    accAt m c t.val t.isLt = accFirst c (grid0.coords t) (mPred t) (hPred t) (mTarget t) (hTarget t) (mAcc t) (hAcc t) ((atStart_iff t).mpr h0) (iblk m c 0 t) (iblk m c 1 t) := by
  obtain ⟨n, hn⟩ := t
  cases n with
  | zero => exact rfl
  | succ n => exact (dif_pos h0).trans rfl

theorem accAt_later (c : Dev nD) (t : Fin cfg0.N) (h0 : ¬t.val % 128 = 0) :
    accAt m c t.val t.isLt = accLater c (grid0.coords t) (mPred t) (hPred t) (mTarget t) (hTarget t) (mAcc t) (hAcc t) (fun h => h0 ((atStart_iff t).mp h)) (iblk m c 0 t) (iblk m c 1 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer still at its block and
    the accumulator's at `accAt`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_pred (c : Dev nD) (t : Fin cfg0.N) : (dats m 0 c).after 0 t = iblk m c 0 t := by dsimp only [dats]
theorem after_target (c : Dev nD) (t : Fin cfg0.N) : (dats m 0 c).after 1 t = iblk m c 1 t := by dsimp only [dats]
theorem after_acc (c : Dev nD) (t : Fin cfg0.N) : (dats m 0 c).after 2 t = accAt m c t.val t.isLt := by dsimp only [dats]

theorem before_pred (c : Dev nD) (t : Fin cfg0.N) (d) : (dats m 0 c).before 0 t d = iblk m c 0 t :=
  before_pred_of m (dats m 0 c) (A_eq m c 0) (after_pred m c) t d
theorem before_target (c : Dev nD) (t : Fin cfg0.N) (d) : (dats m 0 c).before 1 t d = iblk m c 1 t :=
  before_target_of m (dats m 0 c) (A_eq m c 1) (after_target m c) t d
/-- At a later point the accumulator's buffer holds what the point before left: it is written back only after
    the last point. -/
theorem before_acc_later (c : Dev nD) (t : Fin cfg0.N) (h0 : ¬t.val % 128 = 0) (d) :
    (dats m 0 c).before 2 t d = accAt m c (t.val - 1) (Nat.lt_of_le_of_lt (Nat.sub_le _ _) t.isLt) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body's obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (mPred t) fullShare ((dats m 0 c).before 0 t d))
    ∗ (∃ d, owns (c : Thread nD τ) (mTarget t) fullShare ((dats m 0 c).before 1 t d))
    ∗ (∃ d, owns (c : Thread nD τ) (mAcc t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (mPred t) fullShare ((dats m 0 c).after 0 t)
    ∗ owns (c : Thread nD τ) (mTarget t) fullShare ((dats m 0 c).after 1 t)
    ∗ owns (c : Thread nD τ) (mAcc t) fullShare ((dats m 0 c).after 2 t))

set_option maxHeartbeats 800000 in
/-- The body at any point: the inputs' buffers hold their blocks; point 0 is the clearing run, any other point
    the adding run over what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_pred, before_target]
  rw [show (dats m 0 c).Φ t.succ = (dats m 0 c).Φ t.castSucc from rfl,
    show (dats m 0 c).owesAt () t.succ = (dats m 0 c).owesAt () t.castSucc from rfl,
    after_pred, after_target, after_acc]
  have hN : t.val < 128 := lt_of_lt_of_eq t.isLt (show cfg0.N = 128 from N_0)
  by_cases h0 : t.val % 128 = 0
  · rw [accAt_first m c t h0]
    unfold accFirst
    iintro ⟨HΦ, Ho, ⟨%d0, H0⟩, ⟨%d1, H1⟩, ⟨%d2, H2⟩⟩
    iapply ((runFirst c (grid0.coords t) _ _ _ _ _ _ ((atStart_iff t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later m c t h0]
    simp only [before_acc_later m c t h0]
    unfold accLater
    iintro ⟨HΦ, Ho, ⟨%d0, H0⟩, ⟨%d1, H1⟩, ⟨%d2, H2⟩⟩
    iapply ((runLater c (grid0.coords t) _ _ _ _ _ _ (fun h => h0 ((atStart_iff t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each of the pipeline's arrays holds what the
    proof data computes for it, and every other unscoped buffer what the three lines after the region make of
    the region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_fresh) (hkeep := after_keeps)
    (hmain := hmain m Variants.none) (hA := A_eq m) (hΦ := fun _ _ => rfl)

/-! ## The arguments are kept -/

set_option maxHeartbeats 4000000 in
/-- No line before the region writes the predictions' array. -/
theorem V_arg0 (c : Dev nD) : V m c main_arg0 = m ((c : Thread nD τ).loc main_arg0) := by
  dsimp only [V, V0]
  simp only [linesBefore, hostOps0, hostOps0_1, hostOps0_2, hostOps0_3, hostOps0_4, hostOps0_5, hostOps0_6, List.flatten_cons,
    List.flatten_nil, List.append_nil, List.cons_append, List.nil_append]
  simp (disch := decide) only [StableHlo.after_cons, StableHlo.after_nil, StableHlo.nullary_result_ne', StableHlo.unary_result_ne',
    StableHlo.binary_result_ne', StableHlo.ternary_result_ne', StableHlo.reshape_result_ne', StableHlo.nary_result_ne']
  all_goals rfl

set_option maxHeartbeats 4000000 in
/-- Nor the boxes' array. -/
theorem V_arg1 (c : Dev nD) : V m c main_arg1 = m ((c : Thread nD τ).loc main_arg1) := by
  dsimp only [V, V0]
  simp only [linesBefore, hostOps0, hostOps0_1, hostOps0_2, hostOps0_3, hostOps0_4, hostOps0_5, hostOps0_6, List.flatten_cons,
    List.flatten_nil, List.append_nil, List.cons_append, List.nil_append]
  simp (disch := decide) only [StableHlo.after_cons, StableHlo.after_nil, StableHlo.nullary_result_ne', StableHlo.unary_result_ne',
    StableHlo.binary_result_ne', StableHlo.ternary_result_ne', StableHlo.reshape_result_ne', StableHlo.nary_result_ne']
  all_goals rfl

/-- The three lines after the region do not write the boxes' array either, and the region does not stage it. -/
theorem tail_arg1 (c : Dev nD) :
    Pipeline.afterTail₀ cfgs (dats m) 0 (V0 m) [hostOps1] c main_arg1 = m ((c : Thread nD τ).loc main_arg1) := by
  unfold Pipeline.afterTail₀
  show StableHlo.after hostOps1 _ (Proc.devRef .tc main_arg1) = _
  simp (disch := decide) only [StableHlo.after_cons, StableHlo.after_nil, StableHlo.nullary_result_ne', StableHlo.binary_result_ne',
    StableHlo.reshape_result_ne']
  rw [Pipeline.withArrays_of_ne spec0 c _ _ main_arg1 (fun w => by fin_cases w <;> decide)]
  exact V_arg1 m c

/-- THE FRAME: @main runs to its end without a fault and both argument arrays end as they began — the
    predictions' array is an input window's (no write-back), the boxes' array is touched by no store. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_arg0 m c))),
      ((h c).2 main_arg1 (Pipeline.mem_restRefs_of main_arg1 (by decide) (by decide))).trans (tail_arg1 m c)⟩) (run_main m ρ)

end Cert.Kernel.Accum

end
-- ==== Proof.IdealRegionEntry.lean ====
/-
  The loss kernel's launch, seen from the region's door. Before the region @main builds the target array
  (the boxes' cell offsets, sizes and one-hot labels scattered into a zero [16384·49, 25] table, first box
  of a cell winning) with seven stretches of host lines; after it, three more lines turn the kernel's
  [1,1] sum into the mean. Here: what every buffer holds when the region is entered, that @main is these
  stretches around the region, the block of each input a grid point sees, and the one branch of the body
  (the accumulator is cleared at grid point 0 and nowhere else).
-/
import proofs.«149325_j86758339379422_2_alg».proof.Proof.Gen.KernelIdeal.Launch
import proofs.«149325_j86758339379422_2_alg».proof.Proof.Gen.KernelIdeal.Skeleton
import proofs.«149325_j86758339379422_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch: the box geometry, the lower-triangular mask, the
    "an earlier box hit this cell" test, the one-hot labels, the 25 features per box and the flat cell index,
    the out-of-range sentinel for dropped boxes, and the scatter into the zero table. -/
abbrev linesBefore : List (List (HloOp τ sig (Elt F))) :=
  [hostOps0, hostOps0_1, hostOps0_2, hostOps0_3, hostOps0_4, hostOps0_5, hostOps0_6]

/-- Core `c`'s buffers when the region is entered: the launch contents after the lines before the region. -/
abbrev V0 (c : Dev nD) : Valuation τ sig (Elt F) := StableHlo.after (List.flatten (linesBefore (F := F))) (fun b => m (c, b))
/-- The same read at a TensorCore reference. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
theorem fresh0_6 : (hostOps0_6 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the lines before the region, the region, and the three lines after it: it reduces to the region
    continued by those three lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main linesBefore [hostOps1]
    ⟨hostOps0_sub, hostOps0_1_sub, hostOps0_2_sub, hostOps0_3_sub, hostOps0_4_sub, hostOps0_5_sub, hostOps0_6_sub⟩
    ⟨fresh0, fresh0_1, fresh0_2, fresh0_3, fresh0_4, fresh0_5, fresh0_6⟩ main_chain

/-- The lines after the region touch only unscoped TensorCore buffers. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp fresh1) op hop
/-- And each writes its own result only, which is none of the pipeline's three arrays. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.binary_writes, StableHlo.reshape_writes, Finset.mem_singleton] <;> exact StableHlo.devRef_ne_of_ne (by decide)

/-! ## The windows' blocks -/

/-- Window `w`'s block at grid point `t`, read off its array as the region finds it: rows 128·t … 128·t+127 of
    the predictions (window 0) or of the target (window 1). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The predictions' staging buffer holds the point's block before the body, whatever proof data names the
    outputs, as long as the body leaves the block in place. -/
theorem before_pred_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the target's staging buffer. -/
theorem before_target_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- "This is grid point 0", as the body computes it from the coordinate. -/
abbrev atStart (i : grid0.Coords) : Prop := (Scalar.cmpi .ne (Scalar.extui (Scalar.cmpi .eq (BitVec.ofNat 32 (i 0).val) 0#32)) 0#32) = 1#1
/-- It holds at the first of the 128 points only. -/
theorem atStart_iff : ∀ t : Fin cfg0.N, atStart (grid0.coords t) ↔ t.val % 128 = 0 :=
  (by decide +kernel : ∀ t : Fin grid0.N, atStart (grid0.coords t) ↔ t.val % 128 = 0)

/-! ## The staging memrefs the pipeline hands the body -/

/-- The accumulator's one staging buffer, through which its contents are stated. -/
abbrev accView : View sig .tc .vmem S1x1 .f32 := (Memref.whole cc0_stg2_0 : Memref sig .tc .vmem S1x1 .f32).view
abbrev mPred (t : Fin cfg0.N) : Memref sig .tc .vmem S128x7x7x25 .f32 := win0_0.stage (cfg0.slots t 0)
abbrev hPred (t : Fin cfg0.N) : (mPred t).IsWhole := hstage0_0 ((cfg0.slots t 0).cast nbuf0_0)
abbrev mTarget (t : Fin cfg0.N) : Memref sig .tc .vmem S128x7x7x25 .f32 := win0_1.stage (cfg0.slots t 1)
abbrev hTarget (t : Fin cfg0.N) : (mTarget t).IsWhole := hstage0_1 ((cfg0.slots t 1).cast nbuf0_1)
abbrev mAcc (t : Fin cfg0.N) : Memref sig .tc .vmem S1x1 .f32 := win0_2.stage (cfg0.slots t 2)
abbrev hAcc (t : Fin cfg0.N) : (mAcc t).IsWhole := hstage0_2 ((cfg0.slots t 2).cast nbuf0_2)

end Cert.KernelIdeal.Accum

end
-- ==== Proof.IdealFirstPoint.lean ====
/-
  The body of the loss kernel run once, at grid point 0: the accumulator is cleared, then the block's three partial losses are added to it.
  The run is symbolic: the body loads the two 128×7×7×25 blocks whole, stores zero into the 1×1 accumulator, reads the accumulator back
  and stores its new value; what the accumulator's buffer ends with is found by the run as a list of stores.
-/
import proofs.«149325_j86758339379422_2_alg».proof.Proof.IdealRegionEntry

set_option maxRecDepth 16384

noncomputable section

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator's staging memref at the first point (the branch taken), last first,
    with the proof that on whole staging memrefs — the two inputs at their blocks `x0` (predictions) and `x1` (target), the
    accumulator at anything — the body runs to its end holding the inputs as they were and the accumulator with those stores
    written. -/
noncomputable def runFirst (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : atStart i)
    (x0 : Vec F S128x7x7x25 .f32) (x1 : Vec F S128x7x7x25 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__loss_kernel i arg1 harg1 arg2 harg2 arg3 harg3) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Accum

end
-- ==== Proof.IdealLaterPoint.lean ====
/-
  The body of the loss kernel run once, at a later grid point: the block's three partial losses are added to what the accumulator held.
  The run is symbolic: the body loads the two 128×7×7×25 blocks whole, reads the accumulator back
  and stores its new value; what the accumulator's buffer ends with is found by the run as a list of stores.
-/
import proofs.«149325_j86758339379422_2_alg».proof.Proof.IdealFirstPoint

set_option maxRecDepth 16384

noncomputable section

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator's staging memref at a later point (the branch not taken), last first,
    with the proof that on whole staging memrefs — the two inputs at their blocks `x0` (predictions) and `x1` (target), the
    accumulator at its running contents `acc` — the body runs to its end holding the inputs as they were and the accumulator with those stores
    written. -/
noncomputable def runLater (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : ¬atStart i)
    (x0 : Vec F S128x7x7x25 .f32) (x1 : Vec F S128x7x7x25 .f32) (acc : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare acc
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__loss_kernel i arg1 harg1 arg2 harg2 arg3 harg3) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Accum

end
-- ==== Proof.IdealFrame.lean ====
/-
  The loss kernel's run through its 128 grid points. The accumulator window (one 1×1 block, the same at every
  point, written back once, after the last point) carries the sum: point 0 clears it and adds its block's
  partial loss, every later point adds its own to what the point before left. Here: what the accumulator's
  buffer holds after each point, by recursion on the point; the pipeline's proof data; the body's obligation
  at a generic point; the run of @main; and that the two argument arrays end as they began.
-/
import proofs.«149325_j86758339379422_2_alg».proof.Proof.IdealLaterPoint

set_option maxRecDepth 16384

noncomputable section

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's stores cover the accumulator's one cell. -/
theorem coverFirst (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : atStart i)
    (x0 x1 : Vec F S128x7x7x25 .f32) (y : S1x1.Idx) :
    ∃ pc ∈ (runFirst c i arg1 harg1 arg2 harg2 arg3 harg3 hc x0 x1).1, y ∈ pc.1.set :=
  View.cover_of_tiledL (runFirst c i arg1 harg1 arg2 harg2 arg3 harg3 hc x0 x1).1 S1x1.size (by sl_kernel_rfl) y

/-- What the first point leaves in the accumulator: its stores read back. -/
def accFirst (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : atStart i)
    (x0 x1 : Vec F S128x7x7x25 .f32) : Vec F S1x1 .f32 :=
  accView.read (Elt F) (accView.writes (Elt F) accView.junk (runFirst c i arg1 harg1 arg2 harg2 arg3 harg3 hc x0 x1).1)

/-- A later point's one store covers the accumulator's cell. -/
theorem coverLater (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : ¬atStart i)
    (x0 x1 : Vec F S128x7x7x25 .f32) (acc : Vec F S1x1 .f32) (y : S1x1.Idx) :
    ∃ pc ∈ (runLater c i arg1 harg1 arg2 harg2 arg3 harg3 hc x0 x1 acc).1, y ∈ pc.1.set :=
  View.cover_of_tiledL (runLater c i arg1 harg1 arg2 harg2 arg3 harg3 hc x0 x1 acc).1 S1x1.size (by sl_kernel_rfl) y

/-- What a later point leaves in the accumulator, from what it found there. -/
def accLater (c : Dev nD) (i : grid0.Coords) (arg1 : Memref sig .tc .vmem S128x7x7x25 .f32) (harg1 : arg1.IsWhole) (arg2 : Memref sig .tc .vmem S128x7x7x25 .f32) (harg2 : arg2.IsWhole) (arg3 : Memref sig .tc .vmem S1x1 .f32) (harg3 : arg3.IsWhole) (hc : ¬atStart i)
    (x0 x1 : Vec F S128x7x7x25 .f32) (acc : Vec F S1x1 .f32) : Vec F S1x1 .f32 :=
  accView.read (Elt F) (accView.writes (Elt F) accView.junk (runLater c i arg1 harg1 arg2 harg2 arg3 harg3 hc x0 x1 acc).1)

/-! ## The accumulator after each point -/

/-- What the accumulator's staging buffer holds after the body at point `n`: point 0 starts from zero, point
    `n + 1` from what point `n` left (the buffer is not written back in between). -/
def accAt (c : Dev nD) : (n : ℕ) → n < cfg0.N → Vec F S1x1 .f32
  | 0, hn => accFirst c (grid0.coords ⟨0, hn⟩) (mPred ⟨0, hn⟩) (hPred ⟨0, hn⟩) (mTarget ⟨0, hn⟩) (hTarget ⟨0, hn⟩) (mAcc ⟨0, hn⟩) (hAcc ⟨0, hn⟩)
      ((atStart_iff ⟨0, hn⟩).mpr (Nat.zero_mod _)) (iblk m c 0 ⟨0, hn⟩) (iblk m c 1 ⟨0, hn⟩)
  | n + 1, hn =>
    if h0 : (n + 1) % 128 = 0 then
      accFirst c (grid0.coords ⟨n + 1, hn⟩) (mPred ⟨n + 1, hn⟩) (hPred ⟨n + 1, hn⟩) (mTarget ⟨n + 1, hn⟩) (hTarget ⟨n + 1, hn⟩) (mAcc ⟨n + 1, hn⟩) (hAcc ⟨n + 1, hn⟩)
        ((atStart_iff ⟨n + 1, hn⟩).mpr h0) (iblk m c 0 ⟨n + 1, hn⟩) (iblk m c 1 ⟨n + 1, hn⟩)
    else
      accLater c (grid0.coords ⟨n + 1, hn⟩) (mPred ⟨n + 1, hn⟩) (hPred ⟨n + 1, hn⟩) (mTarget ⟨n + 1, hn⟩) (hTarget ⟨n + 1, hn⟩) (mAcc ⟨n + 1, hn⟩) (hAcc ⟨n + 1, hn⟩)
        (fun h => h0 ((atStart_iff ⟨n + 1, hn⟩).mp h)) (iblk m c 0 ⟨n + 1, hn⟩) (iblk m c 1 ⟨n + 1, hn⟩) (accAt c n (Nat.lt_of_succ_lt hn))

theorem accAt_first (c : Dev nD) (t : Fin cfg0.N) (h0 : t.val % 128 = 0) :
    accAt m c t.val t.isLt = accFirst c (grid0.coords t) (mPred t) (hPred t) (mTarget t) (hTarget t) (mAcc t) (hAcc t) ((atStart_iff t).mpr h0) (iblk m c 0 t) (iblk m c 1 t) := by
  obtain ⟨n, hn⟩ := t
  cases n with
  | zero => exact rfl
  | succ n => exact (dif_pos h0).trans rfl

theorem accAt_later (c : Dev nD) (t : Fin cfg0.N) (h0 : ¬t.val % 128 = 0) :
    accAt m c t.val t.isLt = accLater c (grid0.coords t) (mPred t) (hPred t) (mTarget t) (hTarget t) (mAcc t) (hAcc t) (fun h => h0 ((atStart_iff t).mp h)) (iblk m c 0 t) (iblk m c 1 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer still at its block and
    the accumulator's at `accAt`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_pred (c : Dev nD) (t : Fin cfg0.N) : (dats m 0 c).after 0 t = iblk m c 0 t := by dsimp only [dats]
theorem after_target (c : Dev nD) (t : Fin cfg0.N) : (dats m 0 c).after 1 t = iblk m c 1 t := by dsimp only [dats]
theorem after_acc (c : Dev nD) (t : Fin cfg0.N) : (dats m 0 c).after 2 t = accAt m c t.val t.isLt := by dsimp only [dats]

theorem before_pred (c : Dev nD) (t : Fin cfg0.N) (d) : (dats m 0 c).before 0 t d = iblk m c 0 t :=
  before_pred_of m (dats m 0 c) (A_eq m c 0) (after_pred m c) t d
theorem before_target (c : Dev nD) (t : Fin cfg0.N) (d) : (dats m 0 c).before 1 t d = iblk m c 1 t :=
  before_target_of m (dats m 0 c) (A_eq m c 1) (after_target m c) t d
/-- At a later point the accumulator's buffer holds what the point before left: it is written back only after
    the last point. -/
theorem before_acc_later (c : Dev nD) (t : Fin cfg0.N) (h0 : ¬t.val % 128 = 0) (d) :
    (dats m 0 c).before 2 t d = accAt m c (t.val - 1) (Nat.lt_of_le_of_lt (Nat.sub_le _ _) t.isLt) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body's obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (mPred t) fullShare ((dats m 0 c).before 0 t d))
    ∗ (∃ d, owns (c : Thread nD τ) (mTarget t) fullShare ((dats m 0 c).before 1 t d))
    ∗ (∃ d, owns (c : Thread nD τ) (mAcc t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (mPred t) fullShare ((dats m 0 c).after 0 t)
    ∗ owns (c : Thread nD τ) (mTarget t) fullShare ((dats m 0 c).after 1 t)
    ∗ owns (c : Thread nD τ) (mAcc t) fullShare ((dats m 0 c).after 2 t))

set_option maxHeartbeats 800000 in
/-- The body at any point: the inputs' buffers hold their blocks; point 0 is the clearing run, any other point
    the adding run over what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_pred, before_target]
  rw [show (dats m 0 c).Φ t.succ = (dats m 0 c).Φ t.castSucc from rfl,
    show (dats m 0 c).owesAt () t.succ = (dats m 0 c).owesAt () t.castSucc from rfl,
    after_pred, after_target, after_acc]
  have hN : t.val < 128 := lt_of_lt_of_eq t.isLt (show cfg0.N = 128 from N_0)
  by_cases h0 : t.val % 128 = 0
  · rw [accAt_first m c t h0]
    unfold accFirst
    iintro ⟨HΦ, Ho, ⟨%d0, H0⟩, ⟨%d1, H1⟩, ⟨%d2, H2⟩⟩
    iapply ((runFirst c (grid0.coords t) _ _ _ _ _ _ ((atStart_iff t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later m c t h0]
    simp only [before_acc_later m c t h0]
    unfold accLater
    iintro ⟨HΦ, Ho, ⟨%d0, H0⟩, ⟨%d1, H1⟩, ⟨%d2, H2⟩⟩
    iapply ((runLater c (grid0.coords t) _ _ _ _ _ _ (fun h => h0 ((atStart_iff t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each of the pipeline's arrays holds what the
    proof data computes for it, and every other unscoped buffer what the three lines after the region make of
    the region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_fresh) (hkeep := after_keeps)
    (hmain := hmain m Variants.none) (hA := A_eq m) (hΦ := fun _ _ => rfl)

/-! ## The arguments are kept -/

set_option maxHeartbeats 4000000 in
/-- No line before the region writes the predictions' array. -/
theorem V_arg0 (c : Dev nD) : V m c main_arg0 = m ((c : Thread nD τ).loc main_arg0) := by
  dsimp only [V, V0]
  simp only [linesBefore, hostOps0, hostOps0_1, hostOps0_2, hostOps0_3, hostOps0_4, hostOps0_5, hostOps0_6, List.flatten_cons,
    List.flatten_nil, List.append_nil, List.cons_append, List.nil_append]
  simp (disch := decide) only [StableHlo.after_cons, StableHlo.after_nil, StableHlo.nullary_result_ne', StableHlo.unary_result_ne',
    StableHlo.binary_result_ne', StableHlo.ternary_result_ne', StableHlo.reshape_result_ne', StableHlo.nary_result_ne']
  all_goals rfl

set_option maxHeartbeats 4000000 in
/-- Nor the boxes' array. -/
theorem V_arg1 (c : Dev nD) : V m c main_arg1 = m ((c : Thread nD τ).loc main_arg1) := by
  dsimp only [V, V0]
  simp only [linesBefore, hostOps0, hostOps0_1, hostOps0_2, hostOps0_3, hostOps0_4, hostOps0_5, hostOps0_6, List.flatten_cons,
    List.flatten_nil, List.append_nil, List.cons_append, List.nil_append]
  simp (disch := decide) only [StableHlo.after_cons, StableHlo.after_nil, StableHlo.nullary_result_ne', StableHlo.unary_result_ne',
    StableHlo.binary_result_ne', StableHlo.ternary_result_ne', StableHlo.reshape_result_ne', StableHlo.nary_result_ne']
  all_goals rfl

/-- The three lines after the region do not write the boxes' array either, and the region does not stage it. -/
theorem tail_arg1 (c : Dev nD) :
    Pipeline.afterTail₀ cfgs (dats m) 0 (V0 m) [hostOps1] c main_arg1 = m ((c : Thread nD τ).loc main_arg1) := by
  unfold Pipeline.afterTail₀
  show StableHlo.after hostOps1 _ (Proc.devRef .tc main_arg1) = _
  simp (disch := decide) only [StableHlo.after_cons, StableHlo.after_nil, StableHlo.nullary_result_ne', StableHlo.binary_result_ne',
    StableHlo.reshape_result_ne']
  rw [Pipeline.withArrays_of_ne spec0 c _ _ main_arg1 (fun w => by fin_cases w <;> decide)]
  exact V_arg1 m c

/-- THE FRAME: @main runs to its end without a fault and both argument arrays end as they began — the
    predictions' array is an input window's (no write-back), the boxes' array is touched by no store. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_arg0 m c))),
      ((h c).2 main_arg1 (Pipeline.mem_restRefs_of main_arg1 (by decide) (by decide))).trans (tail_arg1 m c)⟩) (run_main m ρ)

end Cert.KernelIdeal.Accum

end
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.LossSum.lean ====
/-
  The loss as a function of the predictions and the target, over the extended reals, and the one regrouping
  that joins the two programs.

  A cell has 25 features: two offsets, two sizes, a confidence, twenty class scores. With `t` the target's
  features and `p` the prediction's, and `o = t 4` the cell's object mask, a cell contributes
    conf  = (o + (1 - o)·½) · (o - p 4)²,
    coord = o · ((t 0 - p 0)² + (t 1 - p 1)² + (√t 2 - √p 2)² + (√t 3 - √p 3)²) · 5,
    cls k = o · (t (5+k) - p (5+k))²        for each of the twenty classes k.
  An image (a row of 7×7 cells) contributes the sum of its cells' three terms; the loss is the sum over the
  images, divided by their number. The kernel sums each term over a block of 128 images first and adds the
  three block sums; the reference sums per image. Both are finite sums in a commutative monoid, so they
  agree whatever the values are — no finiteness is used. The three literals stay the words the programs
  print.
-/
import Idealize.ShloMosaic.Lib.ValueIdx
import proofs.«149325_j86758339379422_2_alg».proof.Proof.LibBlockSum

noncomputable section

open scoped BigOperators

namespace Cert.LossSum

open Idealize.ShloMosaic Idealize.ShloMosaic.ValueIdx

/-- The literals 1, ½ and 5 as the programs print them. -/
abbrev one : EReal := Ideal.ofBits .f32 0x3F800000#32
abbrev half : EReal := Ideal.ofBits .f32 0x3F000000#32
abbrev five : EReal := Ideal.ofBits .f32 0x40A00000#32

/-- The confidence term of a cell. -/
def conf (p t : Fin 25 → EReal) : EReal :=
  (t 4 + (one - t 4) * half) * ((t 4 - p 4) * (t 4 - p 4))

/-- The box term of a cell. -/
def coord (p t : Fin 25 → EReal) : EReal :=
  t 4 * ((((t 0 - p 0) * (t 0 - p 0) + (t 1 - p 1) * (t 1 - p 1))
      + (Ideal.sqrt (t 2) - Ideal.sqrt (p 2)) * (Ideal.sqrt (t 2) - Ideal.sqrt (p 2)))
      + (Ideal.sqrt (t 3) - Ideal.sqrt (p 3)) * (Ideal.sqrt (t 3) - Ideal.sqrt (p 3))) * five

/-- Feature `5 + k`: the score of class `k`. -/
abbrev clsAt (k : Fin 20) : Fin 25 := ⟨5 + k.val, by omega⟩

/-- The class term of a cell, for class `k`. -/
def cls (p t : Fin 25 → EReal) (k : Fin 20) : EReal :=
  t 4 * ((t (clsAt k) - p (clsAt k)) * (t (clsAt k) - p (clsAt k)))

/-- An image's cells, as a function of the two cell coordinates and the feature. -/
abbrev Image := Fin 7 → Fin 7 → Fin 25 → EReal

/-- What one image contributes: its cells' confidence terms, box terms and class terms, summed. -/
def imageLoss (p t : Image) : EReal :=
  ((∑ i : Fin 7, ∑ j : Fin 7, conf (p i j) (t i j)) + (∑ i : Fin 7, ∑ j : Fin 7, coord (p i j) (t i j)))
    + ∑ i : Fin 7, ∑ j : Fin 7, ∑ k : Fin 20, cls (p i j) (t i j) k

/-- The images of an [n, 7, 7, 25] array. -/
abbrev imageOf {n : Nat} (X : (⟨4, ![n, 7, 7, 25]⟩ : Shape).Idx → EReal) (b : Fin n) : Image :=
  fun i j f => X (ix4 b i j f)

/-- What a block of `n` images contributes, summed the kernel's way: each of the three terms over the whole
    block, then the three sums added. -/
def blockLoss {n : Nat} (P T : (⟨4, ![n, 7, 7, 25]⟩ : Shape).Idx → EReal) : EReal :=
  ((∑ b : Fin n, ∑ i : Fin 7, ∑ j : Fin 7, conf (imageOf P b i j) (imageOf T b i j))
    + (∑ b : Fin n, ∑ i : Fin 7, ∑ j : Fin 7, coord (imageOf P b i j) (imageOf T b i j)))
    + ∑ b : Fin n, ∑ i : Fin 7, ∑ j : Fin 7, ∑ k : Fin 20, cls (imageOf P b i j) (imageOf T b i j) k

/-- Summed the kernel's way or image by image, a block contributes the same. -/
theorem blockLoss_eq_sum {n : Nat} (P T : (⟨4, ![n, 7, 7, 25]⟩ : Shape).Idx → EReal) :
    blockLoss P T = ∑ b : Fin n, imageLoss (imageOf P b) (imageOf T b) := by
  unfold blockLoss imageLoss
  rw [Finset.sum_add_distrib, Finset.sum_add_distrib]

/-- The sum of all images' contributions, the reference's way. -/
def totalLoss (P T : (⟨4, ![16384, 7, 7, 25]⟩ : Shape).Idx → EReal) : EReal :=
  ∑ B : Fin 16384, imageLoss (imageOf P B) (imageOf T B)

/-- The mean over the 16384 images, as the contents of a scalar buffer: the total divided by 16384 (the literal
    the programs print). -/
def lossValue (P T : (⟨4, ![16384, 7, 7, 25]⟩ : Shape).Idx → EReal) : (⟨0, ![]⟩ : Shape).Idx → EReal :=
  fun _ => Ideal.div (totalLoss P T) (Ideal.ofBits .f32 0x46800000#32)

/-- Image `b` of block `t` is image `128·t + b` of the array. -/
abbrev rowOf (t b : Fin 128) : Fin 16384 := ⟨t.val * 128 + b.val, by omega⟩

/-- THE REGROUPING. If block `t` of each array is its rows 128·t … 128·t + 127, the 128 block sums add up to
    the sum over all 16384 images. -/
theorem sum_blockLoss (P T : (⟨4, ![16384, 7, 7, 25]⟩ : Shape).Idx → EReal)
    (Pb Tb : Fin 128 → (⟨4, ![128, 7, 7, 25]⟩ : Shape).Idx → EReal)
    (hP : ∀ t b i j f, Pb t (ix4 b i j f) = P (ix4 (rowOf t b) i j f))
    (hT : ∀ t b i j f, Tb t (ix4 b i j f) = T (ix4 (rowOf t b) i j f)) :
    ∑ t : Fin 128, blockLoss (Pb t) (Tb t) = totalLoss P T := by
  unfold totalLoss
  rw [show (∑ B : Fin 16384, imageLoss (imageOf P B) (imageOf T B))
      = ∑ t : Fin 128, ∑ b : Fin 128, imageLoss (imageOf P (rowOf t b)) (imageOf T (rowOf t b)) from
    Cert.LibBlockSum.sum_blocks_fin 128 128 (fun B : Fin (128 * 128) => imageLoss (imageOf P B) (imageOf T B))]
  refine Finset.sum_congr rfl fun t _ => ?_
  rw [blockLoss_eq_sum]
  refine Finset.sum_congr rfl fun b _ => ?_
  have eP : imageOf (Pb t) b = imageOf P (rowOf t b) := funext fun i => funext fun j => funext fun f => hP t b i j f
  have eT : imageOf (Tb t) b = imageOf T (rowOf t b) := funext fun i => funext fun j => funext fun f => hT t b i j f
  rw [eP, eT]

/-- A running total that starts from zero plus the first block's sum and adds one block's sum per step is,
    after the last of the 128 steps, the sum of them all. -/
theorem running_total (c acc : ℕ → EReal) (h0 : acc 0 = 0 + c 0) (hs : ∀ n, acc (n + 1) = acc n + c (n + 1)) :
    acc 127 = ∑ t : Fin 128, c t.val := by
  rw [Cert.LibBlockSum.fold_eq_sum c acc (by rw [h0, zero_add]) hs 127, Fin.sum_univ_eq_sum_range]

end Cert.LossSum

end
-- ==== Proof.IdealBlockValue.lean ====
/-
  One grid point's arithmetic, read over the extended reals. The body's last store writes the accumulator's
  old value plus the block's partial loss: the confidence terms of the block's 128·7·7 cells summed (lane
  sums along the last axis, then the next, then over the 128 images), the same for the box terms, the class
  terms summed over the classes first, and the three scalars added. Read at the accumulator's one cell this
  is `old + blockLoss pred target` of Proof/LossSum.lean.
-/
import proofs.«149325_j86758339379422_2_alg».proof.Proof.Gen.KernelIdeal.Skeleton
import proofs.«149325_j86758339379422_2_alg».proof.Proof.LossSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.LossSum

/-! ## Layout steps at an index -/

/-- Feature `o` of every cell, as a [128,7,7] array: the slice at offset `o` of the last axis with its unit
    axis dropped. -/
theorem feature_apply (x : FVec Ideal S128x7x7x25 .f32) (o : Nat) (ho : o < 25)
    (hs : S128x7x7x25.Slices ![0, 0, 0, o] S128x7x7x1) (hc : S128x7x7x1.ShapeCasts S128x7x7)
    (b : Fin 128) (i j : Fin 7) :
    shapeCast S128x7x7 (extractStridedSlice S128x7x7x1 ![0, 0, 0, o] x hs) hc (ix3 b i j) = x (ix4 b i j ⟨o, ho⟩) := by
  refine (shapeCast_apply _ hc (ix3 b i j) (ix4 b i j (0 : Fin 1)) ?_).trans ?_
  · rw [Shape.rowMajor_val_four, Shape.rowMajor_val_three]
    show ((b.val * 7 + i.val) * 7 + j.val) * 1 + 0 = (b.val * 7 + i.val) * 7 + j.val
    omega
  · exact extractStridedSlice_apply ![0, 0, 0, o] x hs (ix4 b i j (0 : Fin 1)) (ix4 b i j ⟨o, ho⟩) (fun a => match a with
      | ⟨0, _⟩ => by show b.val = 0 + b.val; omega
      | ⟨1, _⟩ => by show i.val = 0 + i.val; omega
      | ⟨2, _⟩ => by show j.val = 0 + j.val; omega
      | ⟨3, _⟩ => by show o = o + 0; omega)

/-- The twenty class scores of every cell: the slice at offset 5 of the last axis. -/
theorem scores_apply (x : FVec Ideal S128x7x7x25 .f32) (hs : S128x7x7x25.Slices ![0, 0, 0, 5] S128x7x7x20)
    (b : Fin 128) (i j : Fin 7) (k : Fin 20) :
    extractStridedSlice S128x7x7x20 ![0, 0, 0, 5] x hs (ix4 b i j k) = x (ix4 b i j (clsAt k)) :=
  extractStridedSlice_apply ![0, 0, 0, 5] x hs (ix4 b i j k) (ix4 b i j (clsAt k)) (fun a => match a with
    | ⟨0, _⟩ => by show b.val = 0 + b.val; omega
    | ⟨1, _⟩ => by show i.val = 0 + i.val; omega
    | ⟨2, _⟩ => by show j.val = 0 + j.val; omega
    | ⟨3, _⟩ => by show 5 + k.val = 5 + k.val; rfl)

/-- A [128,7,7] array laid along twenty classes: every class sees the cell's value. -/
theorem alongClasses_apply (v : FVec Ideal S128x7x7 .f32) (hc : S128x7x7.ShapeCasts S128x7x7x1)
    (hb : S128x7x7x1.Broadcasts S128x7x7x20) (b : Fin 128) (i j : Fin 7) (k : Fin 20) :
    broadcastTo S128x7x7x20 (shapeCast S128x7x7x1 v hc) hb (ix4 b i j k) = v (ix3 b i j) := by
  refine (broadcastTo_apply _ hb (ix4 b i j k) (ix4 b i j (0 : Fin 1)) (fun a => match a with
      | ⟨0, _⟩ => by show b.val = if (128 : Nat) = 1 then 0 else b.val; rw [if_neg (by decide)]
      | ⟨1, _⟩ => by show i.val = if (7 : Nat) = 1 then 0 else i.val; rw [if_neg (by decide)]
      | ⟨2, _⟩ => by show j.val = if (7 : Nat) = 1 then 0 else j.val; rw [if_neg (by decide)]
      | ⟨3, _⟩ => by show (0 : Nat) = if (1 : Nat) = 1 then 0 else k.val; rw [if_pos rfl])).trans ?_
  refine shapeCast_apply v hc (ix4 b i j (0 : Fin 1)) (ix3 b i j) ?_
  rw [Shape.rowMajor_val_four, Shape.rowMajor_val_three]
  show (b.val * 7 + i.val) * 7 + j.val = ((b.val * 7 + i.val) * 7 + j.val) * 1 + 0
  omega

/-! ## The lane sums at an index -/

/-- Summing a [128,7,7,20] array along the classes. -/
theorem sumClasses_apply (v : FVec Ideal S128x7x7x20 .f32) (h : S128x7x7x20.Reduces [3] S128x7x7)
    (hφ : FKind.Formats .f32) (hacc : (0x00000000#32 : BitVec 32) = 0x00000000#32) (b : Fin 128) (i j : Fin 7) :
    multiReduction .add [3] S128x7x7 v 0x00000000#32 h hφ hacc (ix3 b i j) = ∑ k : Fin 20, v (ix4 b i j k) := by
  refine (Ideal.multiReduction_add_single v 0x00000000#32 h hφ hacc (ix3 b i j)).trans ?_
  refine Finset.sum_congr rfl fun k _ => congrArg v (funext fun a => ?_)
  match a with
  | ⟨0, _⟩ => rfl
  | ⟨1, _⟩ => rfl
  | ⟨2, _⟩ => rfl
  | ⟨3, _⟩ => rfl

/-- Summing a [128,7,7] array along its last axis. -/
theorem sumCols_apply (v : FVec Ideal S128x7x7 .f32) (h : S128x7x7.Reduces [2] S128x7)
    (hφ : FKind.Formats .f32) (hacc : (0x00000000#32 : BitVec 32) = 0x00000000#32) (b : Fin 128) (i : Fin 7) :
    multiReduction .add [2] S128x7 v 0x00000000#32 h hφ hacc (ix2 b i) = ∑ j : Fin 7, v (ix3 b i j) := by
  refine (Ideal.multiReduction_add_single v 0x00000000#32 h hφ hacc (ix2 b i)).trans ?_
  refine Finset.sum_congr rfl fun j _ => congrArg v (funext fun a => ?_)
  match a with
  | ⟨0, _⟩ => rfl
  | ⟨1, _⟩ => rfl
  | ⟨2, _⟩ => rfl

/-- Summing a [128,7] array along its last axis. -/
theorem sumRows_apply (v : FVec Ideal S128x7 .f32) (h : S128x7.Reduces [1] S128)
    (hφ : FKind.Formats .f32) (hacc : (0x00000000#32 : BitVec 32) = 0x00000000#32) (b : Fin 128) :
    multiReduction .add [1] S128 v 0x00000000#32 h hφ hacc (ix1 b) = ∑ i : Fin 7, v (ix2 b i) := by
  refine (Ideal.multiReduction_add_single v 0x00000000#32 h hφ hacc (ix1 b)).trans ?_
  refine Finset.sum_congr rfl fun i _ => congrArg v (funext fun a => ?_)
  match a with
  | ⟨0, _⟩ => rfl
  | ⟨1, _⟩ => rfl

/-- A vector of 128 per-image sums stood up as one row, summed along the row, and read as a scalar: the sum over
    the images. -/
theorem sumImages_apply (v : FVec Ideal S128 .f32) (hc : S128.ShapeCasts S1x128) (h : S1x128.Reduces [1] S1)
    (hφ : FKind.Formats .f32) (hacc : (0x00000000#32 : BitVec 32) = 0x00000000#32) (hc' : S1.ShapeCasts S1x1)
    (hp : ∀ a, (![0, 0] : Fin 2 → Nat) a < S1x1.size a) :
    extractAt ![0, 0] (shapeCast S1x1 (multiReduction .add [1] S1 (shapeCast S1x128 v hc) 0x00000000#32 h hφ hacc) hc') hp
      = ∑ b : Fin 128, v (ix1 b) := by
  unfold extractAt
  refine (shapeCast_apply _ hc' _ (ix1 (0 : Fin 1)) ?_).trans ?_
  · rw [Shape.rowMajor_val_two, Shape.rowMajor_val_one]; rfl
  refine (Ideal.multiReduction_add_single _ 0x00000000#32 h hφ hacc (ix1 (0 : Fin 1))).trans ?_
  refine Finset.sum_congr rfl fun b _ => ?_
  refine (congrArg (shapeCast S1x128 v hc) (funext fun a => ?_)).trans (shapeCast_a_1a_apply v hc (0 : Fin 1) b)
  match a with
  | ⟨0, _⟩ => rfl
  | ⟨1, _⟩ => rfl

/-- So the chain the body uses — last axis, next axis, the images — is the triple sum. -/
theorem total3 (v : FVec Ideal S128x7x7 .f32) (h2 : S128x7x7.Reduces [2] S128x7) (h1 : S128x7.Reduces [1] S128)
    (hc : S128.ShapeCasts S1x128) (h0 : S1x128.Reduces [1] S1) (hφ : FKind.Formats .f32)
    (hacc : (0x00000000#32 : BitVec 32) = 0x00000000#32) (hc' : S1.ShapeCasts S1x1)
    (hp : ∀ a, (![0, 0] : Fin 2 → Nat) a < S1x1.size a) :
    extractAt ![0, 0] (shapeCast S1x1 (multiReduction .add [1] S1 (shapeCast S1x128
        (multiReduction .add [1] S128 (multiReduction .add [2] S128x7 v 0x00000000#32 h2 hφ hacc) 0x00000000#32 h1 hφ hacc) hc)
        0x00000000#32 h0 hφ hacc) hc') hp
      = ∑ b : Fin 128, ∑ i : Fin 7, ∑ j : Fin 7, v (ix3 b i j) := by
  refine (sumImages_apply _ hc h0 hφ hacc hc' hp).trans ?_
  refine Finset.sum_congr rfl fun b _ => ?_
  refine (sumRows_apply _ h1 hφ hacc b).trans ?_
  exact Finset.sum_congr rfl fun i _ => sumCols_apply v h2 hφ hacc b i

/-- The same chain after the classes have been summed first: the fourfold sum. -/
theorem total4 (v : FVec Ideal S128x7x7x20 .f32) (h3 : S128x7x7x20.Reduces [3] S128x7x7) (h2 : S128x7x7.Reduces [2] S128x7)
    (h1 : S128x7.Reduces [1] S128) (hc : S128.ShapeCasts S1x128) (h0 : S1x128.Reduces [1] S1) (hφ : FKind.Formats .f32)
    (hacc : (0x00000000#32 : BitVec 32) = 0x00000000#32) (hc' : S1.ShapeCasts S1x1)
    (hp : ∀ a, (![0, 0] : Fin 2 → Nat) a < S1x1.size a) :
    extractAt ![0, 0] (shapeCast S1x1 (multiReduction .add [1] S1 (shapeCast S1x128
        (multiReduction .add [1] S128 (multiReduction .add [2] S128x7
          (multiReduction .add [3] S128x7x7 v 0x00000000#32 h3 hφ hacc) 0x00000000#32 h2 hφ hacc) 0x00000000#32 h1 hφ hacc) hc)
        0x00000000#32 h0 hφ hacc) hc') hp
      = ∑ b : Fin 128, ∑ i : Fin 7, ∑ j : Fin 7, ∑ k : Fin 20, v (ix4 b i j k) := by
  refine (total3 _ h2 h1 hc h0 hφ hacc hc' hp).trans ?_
  exact Finset.sum_congr rfl fun b _ => Finset.sum_congr rfl fun i _ => Finset.sum_congr rfl fun j _ =>
    sumClasses_apply v h3 hφ hacc b i j

/-! ## The body's values -/

/-- The target block enters the arithmetic as loaded (its same-shape cast is the identity). -/
theorem pay3_eq (x1 : Vec Ideal S128x7x7x25 .f32) : k0_pay3 (F := Ideal) x1 = x1 := shapeCast_self x1 _

/-- The object mask of a cell: feature 4 of the target. -/
theorem mask_apply (x1 : Vec Ideal S128x7x7x25 .f32) (b : Fin 128) (i j : Fin 7) :
    k0_pay4 (F := Ideal) x1 (ix3 b i j) = x1 (ix4 b i j 4) := by
  unfold k0_pay4
  rw [pay3_eq]
  exact feature_apply x1 4 (by omega) _ _ b i j

/-- The block's confidence terms, summed. -/
theorem confSum_eq (x0 x1 : Vec Ideal S128x7x7x25 .f32) :
    k0_pay5 (F := Ideal) x0 x1
      = ∑ b : Fin 128, ∑ i : Fin 7, ∑ j : Fin 7, conf (imageOf x0 b i j) (imageOf x1 b i j) := by
  unfold k0_pay5
  dsimp only
  refine (total3 _ _ _ _ _ _ _ _ _).trans ?_
  refine Finset.sum_congr rfl fun b _ => Finset.sum_congr rfl fun i _ => Finset.sum_congr rfl fun j _ => ?_
  simp only [mulf_apply, addf_apply, subf_apply, broadcast_apply, mask_apply, pay3_eq, feature_apply _ 4 (by omega)]
  rfl

/-- A cell's box-corner difference for feature `o` (an offset). -/
theorem offsetDiff_apply (x0 x1 : Vec Ideal S128x7x7x25 .f32) (b : Fin 128) (i j : Fin 7) :
    k0_pay6 (F := Ideal) x0 x1 (ix3 b i j) = x1 (ix4 b i j 0) - x0 (ix4 b i j 0)
    ∧ k0_pay7 (F := Ideal) x0 x1 (ix3 b i j) = x1 (ix4 b i j 1) - x0 (ix4 b i j 1)
    ∧ k0_pay8 (F := Ideal) x0 x1 (ix3 b i j) = Ideal.sqrt (x1 (ix4 b i j 2)) - Ideal.sqrt (x0 (ix4 b i j 2)) := by
  refine ⟨?_, ?_, ?_⟩
  · unfold k0_pay6
    simp only [subf_apply, pay3_eq, feature_apply _ 0 (by omega)]
    rfl
  · unfold k0_pay7
    simp only [subf_apply, pay3_eq, feature_apply _ 1 (by omega)]
    rfl
  · unfold k0_pay8
    show Ideal.sqrt (shapeCast S128x7x7 (extractStridedSlice S128x7x7x1 ![0, 0, 0, 2] (k0_pay3 x1) _) _ (ix3 b i j))
        - Ideal.sqrt (shapeCast S128x7x7 (extractStridedSlice S128x7x7x1 ![0, 0, 0, 2] x0 _) _ (ix3 b i j)) = _
    rw [pay3_eq, feature_apply _ 2 (by omega), feature_apply _ 2 (by omega)]
    rfl

/-- THE POINT'S STORE. At the accumulator's one cell the body's last payload is the old value plus the block's
    partial loss. -/
theorem step_apply (x0 x1 : Vec Ideal S128x7x7x25 .f32) (prev : Vec Ideal S1x1 .f32) :
    k0_pay1 (F := Ideal) x0 (k0_pay3 x1) (k0_pay4 x1) (k0_pay5 x0 x1) (k0_pay6 x0 x1) (k0_pay7 x0 x1) (k0_pay8 x0 x1) prev (ix2 0 0)
      = prev (ix2 0 0) + blockLoss x0 x1 := by
  unfold k0_pay1
  dsimp only
  rw [addf_apply, shapeCast_self, broadcast_apply, Ideal.scalar_addf_def, Ideal.scalar_addf_def, confSum_eq]
  unfold blockLoss
  congr 2
  · congr 1
    refine (total3 _ _ _ _ _ _ _ _ _).trans ?_
    refine Finset.sum_congr rfl fun b _ => Finset.sum_congr rfl fun i _ => Finset.sum_congr rfl fun j _ => ?_
    simp only [mulf_apply, addf_apply, subf_apply, broadcast_apply, mask_apply, (offsetDiff_apply x0 x1 b i j).1,
      (offsetDiff_apply x0 x1 b i j).2.1, (offsetDiff_apply x0 x1 b i j).2.2]
    show x1 (ix4 b i j 4) * (((_ + _) + _)
        + (Ideal.sqrt (shapeCast S128x7x7 (extractStridedSlice S128x7x7x1 ![0, 0, 0, 3] (k0_pay3 x1) _) _ (ix3 b i j))
          - Ideal.sqrt (shapeCast S128x7x7 (extractStridedSlice S128x7x7x1 ![0, 0, 0, 3] x0 _) _ (ix3 b i j)))
        * (Ideal.sqrt (shapeCast S128x7x7 (extractStridedSlice S128x7x7x1 ![0, 0, 0, 3] (k0_pay3 x1) _) _ (ix3 b i j))
          - Ideal.sqrt (shapeCast S128x7x7 (extractStridedSlice S128x7x7x1 ![0, 0, 0, 3] x0 _) _ (ix3 b i j)))) * _ = _
    rw [pay3_eq, feature_apply _ 3 (by omega), feature_apply _ 3 (by omega)]
    rfl
  · refine (total4 _ _ _ _ _ _ _ _ _ _).trans ?_
    refine Finset.sum_congr rfl fun b _ => Finset.sum_congr rfl fun i _ => Finset.sum_congr rfl fun j _ =>
      Finset.sum_congr rfl fun k _ => ?_
    simp only [mulf_apply, subf_apply, alongClasses_apply, mask_apply, pay3_eq, scores_apply]
    rfl

end Cert.KernelIdeal.BlockValue

end
-- ==== Proof.IdealPointValue.lean ====
/-
  What the accumulator holds after each grid point, as values. The stores the two runs found are read back:
  the first point leaves the body's last payload over the zero it has just stored, a later point the same
  payload over what it found. By induction on the point the accumulator's cell holds, after point `n`, the
  sum of the partial losses of blocks 0 … n.
-/
import proofs.«149325_j86758339379422_2_alg».proof.Proof.IdealFrame
import proofs.«149325_j86758339379422_2_alg».proof.Proof.IdealBlockValue
import Idealize.ShloMosaic.Lib.Pipeline.Value

set_option maxRecDepth 16384

noncomputable section

open scoped BigOperators

namespace Cert.KernelIdeal.PointValue

open Idealize.ShloMosaic Idealize.ShloMosaic.TcCoe Idealize.SL.Sem Idealize.ShloMosaic.Tactic
open Idealize.ShloMosaic.Pipeline (Dat)
open Idealize.ShloMosaic.ValueIdx
open Cert.KernelIdeal Cert.KernelIdeal.Gen Cert.KernelIdeal.Accum Cert.LossSum

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The body's last payload as a function of the two blocks and the accumulator's old contents. -/
def step (x0 x1 : Vec F S128x7x7x25 .f32) (prev : Vec F S1x1 .f32) : Vec F S1x1 .f32 :=
  k0_pay1 x0 (k0_pay3 x1) (k0_pay4 x1) (k0_pay5 x0 x1) (k0_pay6 x0 x1) (k0_pay7 x0 x1) (k0_pay8 x0 x1) prev

/-- A later point leaves its payload over what it found. -/
theorem accLater_eq (c : Dev nD) (i : grid0.Coords) (a1 : Memref sig .tc .vmem S128x7x7x25 .f32) (h1 : a1.IsWhole)
    (a2 : Memref sig .tc .vmem S128x7x7x25 .f32) (h2 : a2.IsWhole) (a3 : Memref sig .tc .vmem S1x1 .f32) (h3 : a3.IsWhole)
    (hc : ¬atStart i) (x0 x1 : Vec F S128x7x7x25 .f32) (acc : Vec F S1x1 .f32) :
    accLater c i a1 h1 a2 h2 a3 h3 hc x0 x1 acc = step x0 x1 acc := by
  unfold accLater
  rw [View.read_writes_eq_canon _ _ _ (coverLater c i a1 h1 a2 h2 a3 h3 hc x0 x1 acc)]
  unfold runLater
  dsimp only
  sl_unfold_words
  rw [View.canon_unit_zero hz2]
  simp only [View.readAt_eq_ld, h1.read_unread, h2.read_unread, h3.read_unread, View.ld_unit_zero (S := S128x7x7x25) hz4,
    View.ld_unit_zero (S := S1x1) hz2]
  rfl

/-- The first point leaves its payload over the zero it stored first. -/
theorem accFirst_eq (c : Dev nD) (i : grid0.Coords) (a1 : Memref sig .tc .vmem S128x7x7x25 .f32) (h1 : a1.IsWhole)
    (a2 : Memref sig .tc .vmem S128x7x7x25 .f32) (h2 : a2.IsWhole) (a3 : Memref sig .tc .vmem S1x1 .f32) (h3 : a3.IsWhole)
    (hc : atStart i) (x0 x1 : Vec F S128x7x7x25 .f32) :
    accFirst c i a1 h1 a2 h2 a3 h3 hc x0 x1 = step x0 x1 (k0_pay2 (F := F)) := by
  unfold accFirst
  rw [View.read_writes_eq_canon _ _ _ (coverFirst c i a1 h1 a2 h2 a3 h3 hc x0 x1)]
  unfold runFirst
  dsimp only
  sl_unfold_words
  rw [View.canon_cons_unit_zero (S := S1x1) hz2, View.readCov_unit_zero (S := S1x1) _ hz2]
  simp only [View.readAt_eq_ld, h1.read_unread, h2.read_unread, View.ld_unit_zero (S := S128x7x7x25) hz4,
    View.ld_unit_zero (S := S1x1) hz2]
  rfl

/-! ## The running sum -/

variable (m : (ℓ : Loc nD τ sig) → Buf (Elt Ideal) ℓ)

/-- Block `n`'s partial loss (zero past the grid, so that the name makes sense at every natural). -/
def part (c : Dev nD) (n : ℕ) : EReal :=
  if h : n < cfg0.N then blockLoss (iblk m c 0 ⟨n, h⟩) (iblk m c 1 ⟨n, h⟩) else 0

/-- After point `n` the accumulator's cell holds the partial losses of blocks 0 … n, added up. -/
theorem accAt_cell (c : Dev nD) : ∀ (n : ℕ) (h : n < cfg0.N),
    accAt m c n h (ix2 0 0) = ∑ k ∈ Finset.range (n + 1), part m c k
  | 0, h => by
    rw [accAt_first m c ⟨0, h⟩ rfl, accFirst_eq]
    unfold step
    rw [Cert.KernelIdeal.BlockValue.step_apply, Finset.sum_range_one]
    unfold part
    rw [dif_pos h]
    show Ideal.ofBits .f32 0x00000000#32 + _ = _
    rw [Ideal.ofBits_zero_f32, zero_add]
  | n + 1, h => by
    have hN : cfg0.N = 128 := N_0
    have hB : ¬(⟨n + 1, h⟩ : Fin cfg0.N).val % 128 = 0 := by dsimp only; omega
    rw [accAt_later m c ⟨n + 1, h⟩ hB, accLater_eq]
    unfold step
    rw [Cert.KernelIdeal.BlockValue.step_apply, Finset.sum_range_succ _ (n + 1)]
    exact congrArg₂ (· + ·) (accAt_cell c n (Nat.lt_of_succ_lt h)) (by unfold part; rw [dif_pos h])

end Cert.KernelIdeal.PointValue

end
-- ==== Proof.LibNarySix.lean ====
/-
  A host operation of six operands (a concatenate of six pieces) read at its result: the operation's function
  applied to the six operands' contents, each at its own reference — written out operand by operand, so that
  the contents of each can be read further.
-/
import Idealize.ShloMosaic.Lib.StableHlo.Run

noncomputable section

namespace Cert.LibNarySix

open Idealize.ShloMosaic Idealize.ShloMosaic.StableHlo Idealize.SL.Sem

variable {τ : Topo} {sig : RefSig} {Val : EltTy → Type}
variable {x0 x1 x2 x3 x4 x5 y : Ref sig .tc}

/-- The result of a six-operand operation at its own result buffer. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [nary_result]; congr 1; funext k; fin_cases k <;> rfl

/-- The same, for `simp`: the result reference is not used to index the lemma. -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) :=
  nary6_result f hxs hy F

end Cert.LibNarySix

end
-- ==== Proof.IdealResult.lean ====
/-
  The kernel program's result, read off its run. The accumulator's [1,1] array is written back once, after
  the last grid point, with the sum of the 128 blocks' partial losses; block `t` of the predictions (of the
  target) is rows 128·t … 128·t+127 of that array, so the sum is the total over all 16384 images; the three
  lines after the region reshape it to a scalar and divide by 16384. The two argument arrays end as they
  began: no line and no store touches them.
-/
import proofs.«149325_j86758339379422_2_alg».proof.Proof.IdealPointValue
import proofs.«149325_j86758339379422_2_alg».proof.Proof.LibNarySix

set_option maxRecDepth 16384

noncomputable section

open scoped BigOperators

namespace Cert.KernelIdeal.Result

open Idealize.ShloMosaic Idealize.ShloMosaic.TcCoe Idealize.SL.Sem Idealize.ShloMosaic.StableHlo
open Idealize.ShloMosaic.Pipeline (Dat)
open Idealize.ShloMosaic.ValueIdx
open Cert.KernelIdeal Cert.KernelIdeal.Gen Cert.KernelIdeal.Accum Cert.KernelIdeal.PointValue Cert.LossSum Cert.LibNarySix

variable (m : (ℓ : Loc nD τ sig) → Buf (Elt Ideal) ℓ) (ρ : Dev nD → PrngReg)

/-! ## The blocks are rows of the arrays -/

/-- Where the windows' blocks sit: block `t` of either input starts at row 128·t and at 0 on the other axes. -/
theorem blockOrigin : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0) :=
  (by decide +kernel : ∀ t : Fin grid0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0))

/-- The accumulator's window sits at the origin of its [1,1] array at every point, one cell wide each way. -/
theorem accOrigin : ∀ t : Fin cfg0.N,
    win0_2.index t 0 = 0 ∧ win0_2.index t 1 = 0 ∧ win0_2.xsize (grid0.coords t) 0 = 1 ∧ win0_2.xsize (grid0.coords t) 1 = 1 :=
  (by decide +kernel : ∀ t : Fin grid0.N,
    win0_2.index t 0 = 0 ∧ win0_2.index t 1 = 0 ∧ win0_2.xsize (grid0.coords t) 0 = 1 ∧ win0_2.xsize (grid0.coords t) 1 = 1)

/-- Grid point `t` as a point of the 128-point grid. -/
abbrev pt (t : Fin 128) : Fin cfg0.N := ⟨t.val, lt_of_lt_of_eq t.isLt N_0.symm⟩

/-- Block `t` of a [16384,7,7,25] array seen through the predictions' window is its rows 128·t …. -/
theorem predWindow_apply (c : Dev nD) (A : Buf (Elt Ideal) ((cfg0.win 0).arr.view.loc (c.tc : Thread nD τ)))
    (t b : Fin 128) (i j : Fin 7) (f : Fin 25) :
    ((cfg0.win 0).blk (pt t)).view.read (Elt Ideal) A (ix4 b i j f) = A (ix4 (rowOf t b) i j f) := by
  rw [View.read_apply]
  refine congrArg A (funext fun a => Fin.ext ?_)
  have ho := (blockOrigin (pt t)).1
  match a with
  | ⟨0, _⟩ => show win0_0.index (pt t) 0 * 128 + 1 * b.val = t.val * 128 + b.val; rw [ho.1]; show t.val * 128 + 1 * b.val = t.val * 128 + b.val; omega
  | ⟨1, _⟩ => show win0_0.index (pt t) 1 * 7 + 1 * i.val = i.val; rw [ho.2.1]; omega
  | ⟨2, _⟩ => show win0_0.index (pt t) 2 * 7 + 1 * j.val = j.val; rw [ho.2.2.1]; omega
  | ⟨3, _⟩ => show win0_0.index (pt t) 3 * 25 + 1 * f.val = f.val; rw [ho.2.2.2]; omega

/-- The same through the target's window. -/
theorem targetWindow_apply (c : Dev nD) (A : Buf (Elt Ideal) ((cfg0.win 1).arr.view.loc (c.tc : Thread nD τ)))
    (t b : Fin 128) (i j : Fin 7) (f : Fin 25) :
    ((cfg0.win 1).blk (pt t)).view.read (Elt Ideal) A (ix4 b i j f) = A (ix4 (rowOf t b) i j f) := by
  rw [View.read_apply]
  refine congrArg A (funext fun a => Fin.ext ?_)
  have ho := (blockOrigin (pt t)).2
  match a with
  | ⟨0, _⟩ => show win0_1.index (pt t) 0 * 128 + 1 * b.val = t.val * 128 + b.val; rw [ho.1]; show t.val * 128 + 1 * b.val = t.val * 128 + b.val; omega
  | ⟨1, _⟩ => show win0_1.index (pt t) 1 * 7 + 1 * i.val = i.val; rw [ho.2.1]; omega
  | ⟨2, _⟩ => show win0_1.index (pt t) 2 * 7 + 1 * j.val = j.val; rw [ho.2.2.1]; omega
  | ⟨3, _⟩ => show win0_1.index (pt t) 3 * 25 + 1 * f.val = f.val; rw [ho.2.2.2]; omega

/-- Block `t` of the predictions is their rows 128·t …. -/
theorem predBlock_apply (c : Dev nD) (t b : Fin 128) (i j : Fin 7) (f : Fin 25) :
    iblk m c 0 (pt t) (ix4 b i j f) = V m c main_arg0 (ix4 (rowOf t b) i j f) := by
  unfold iblk
  exact predWindow_apply c _ t b i j f

/-- Block `t` of the target is its rows 128·t …. -/
theorem targetBlock_apply (c : Dev nD) (t b : Fin 128) (i j : Fin 7) (f : Fin 25) :
    iblk m c 1 (pt t) (ix4 b i j f) = V m c main_v86 (ix4 (rowOf t b) i j f) := by
  unfold iblk
  exact targetWindow_apply c _ t b i j f

/-! ## The accumulator after the last point -/

/-- The last grid point. -/
abbrev lastPt : Fin cfg0.N := ⟨127, by rw [show cfg0.N = 128 from N_0]; decide⟩

/-- After the last point the accumulator's cell holds the loss summed over all 16384 images. -/
theorem acc_last (c : Dev nD) :
    accAt m c 127 lastPt.isLt (ix2 0 0) = totalLoss (V m c main_arg0) (V m c main_v86) := by
  rw [accAt_cell m c 127 lastPt.isLt, ← Fin.sum_univ_eq_sum_range (fun k => part m c k) 128,
    ← sum_blockLoss (V m c main_arg0) (V m c main_v86) (fun t => iblk m c 0 (pt t)) (fun t => iblk m c 1 (pt t))
      (fun t b i j f => predBlock_apply m c t b i j f) (fun t b i j f => targetBlock_apply m c t b i j f)]
  refine Finset.sum_congr rfl fun t _ => ?_
  unfold part
  rw [dif_pos (pt t).isLt]

/-- The result array's contents after the run: its one cell at the accumulator's last value. -/
def sumArray (c : Dev nD) : Buf (Elt Ideal) ((c : Thread nD τ).loc main_v87) := accAt m c 127 lastPt.isLt

/-- Its one cell holds the loss summed over all 16384 images. -/
theorem sumArray_cell (c : Dev nD) : sumArray m c (ix2 0 0) = totalLoss (V m c main_arg0) (V m c main_v86) := by
  unfold sumArray
  exact acc_last m c

/-- The accumulator's contents at a point named two ways. -/
theorem accAt_congr (c : Dev nD) {n n' : ℕ} (e : n = n') (h : n < cfg0.N) (h' : n' < cfg0.N) :
    accAt m c n h = accAt m c n' h' := by
  subst e; rfl

/-- Block (0,0) of a [1,1] array is the array: what a point would write back of any contents `G` of the
    accumulator's buffer is `G` read through the block. -/
theorem cut_whole (t : Fin cfg0.N) (G : Vec Ideal S1x1 .f32) :
    (cfg0.win 2).cut (grid0.coords t) G = ((cfg0.win 2).blk t).view.read (Elt Ideal) G := by
  have hz' : (fun a => win0_2.index t a * main_v87.ty.shape.size a) = fun _ => 0 := funext fun a => by
    match a with
    | ⟨0, _⟩ => show win0_2.index t 0 * 1 = 0; rw [(accOrigin t).1]
    | ⟨1, _⟩ => show win0_2.index t 1 * 1 = 0; rw [(accOrigin t).2.1]
  exact (Memref.read_access_unit_zero (Elt Ideal) main_v87 hz' (fun a => by rw [congrFun hz' a]; simp) G).symm

/-- The one write-back, after the last point, writes the accumulator's contents. -/
theorem flushed_eq (c : Dev nD) (t : Fin cfg0.N) (hf : (cfg0.win 2).flush t = true) :
    (dats m 0 c).flushed 2 t = ((cfg0.win 2).blk t).view.read (Elt Ideal) (sumArray m c) := by
  have hN : cfg0.N = 128 := N_0
  have h127 : t.val = 127 := by have := (flush0_2 t).mp hf; have := t.isLt; omega
  have hacc : (dats m 0 c).after 2 t = sumArray m c := by
    rw [after_acc]; unfold sumArray; exact accAt_congr m c h127 t.isLt lastPt.isLt
  show (cfg0.win 2).cut (grid0.coords t) ((dats m 0 c).after 2 t) = _
  rw [hacc]
  exact cut_whole t _

/-- The accumulator's block is its whole [1,1] array, at every point. -/
theorem mem_accBlock (c : Dev nD) (t : Fin cfg0.N)
    (i : ((cfg0.win 2).arr.view.loc (c.tc : Thread nD τ)).2.ty.Idx) : i ∈ ((cfg0.win 2).blk t).view.set := by
  show i ∈ ((View.whole main_v87).slice (win0_2.rect t)).set
  rw [View.set_slice_whole, Rect.mem_set_unit]
  intro a
  have h0 : (i 0 : Nat) < 1 := (i 0).isLt
  have h1 : (i 1 : Nat) < 1 := (i 1).isLt
  match a with
  | ⟨0, _⟩ => show win0_2.index t 0 * win0_2.size 0 ≤ (i 0 : Nat) ∧ (i 0 : Nat) < win0_2.index t 0 * win0_2.size 0 + win0_2.xsize (grid0.coords t) 0
              rw [show win0_2.index t 0 * win0_2.size 0 = 0 from by rw [(accOrigin t).1, Nat.zero_mul], (accOrigin t).2.2.1]; omega
  | ⟨1, _⟩ => show win0_2.index t 1 * win0_2.size 1 ≤ (i 1 : Nat) ∧ (i 1 : Nat) < win0_2.index t 1 * win0_2.size 1 + win0_2.xsize (grid0.coords t) 1
              rw [show win0_2.index t 1 * win0_2.size 1 = 0 from by rw [(accOrigin t).2.1, Nat.zero_mul], (accOrigin t).2.2.2]; omega

/-- So the result array ends holding the accumulator's last contents. -/
theorem final_sum (c : Dev nD) : (dats m 0 c).arrAt 2 cfg0.N = sumArray m c :=
  (dats m 0 c).arrAt_eq_of_cover 2 (sumArray m c) (flushed_eq m c) fun i =>
    ⟨lastPt, (flush0_2 lastPt).mpr rfl, mem_accBlock c lastPt i⟩

/-! ## The three lines after the region -/

/-- What the region leaves at the result array's buffer. -/
theorem exit_sum (c : Dev nD) :
    Pipeline.withArrays spec0 c (V0 m c) (fun w => (dats m 0 c).arrAt w cfg0.N) (Proc.devRef .tc main_v87) = sumArray m c :=
  (Pipeline.withArrays_arr spec0 launch0.win.arr_inj c _ _ 2).trans (final_sum m c)

/-- A [1,1] array reshaped to a scalar reads its one cell. -/
theorem scalar_of_cell (x : FVec Ideal S1x1 .f32) (j : S_.Idx) : shapeCast S_ x shapeCasts_S1x1_S_ j = x (ix2 0 0) := by
  refine shapeCast_apply x shapeCasts_S1x1_S_ j (ix2 0 0) ?_
  have h1 := (S_.rowMajor j).isLt
  rw [Shape.rowMajor_val_two]
  show 0 * 1 + 0 = (S_.rowMajor j).val
  have : S_.numel = 1 := by decide
  omega

/-- THE KERNEL PROGRAM'S VALUE: the total over the images divided by 16384. -/
theorem tail_result (c : Dev nD) :
    Pipeline.afterTail₀ cfgs (dats m) 0 (V0 m) [hostOps1] c main_v89 = lossValue (V m c main_arg0) (V m c main_v86) := by
  unfold Pipeline.afterTail₀
  show StableHlo.after hostOps1 _ (Proc.devRef .tc main_v89) = _
  after_results
  rw [exit_sum]
  funext j
  show Ideal.div (shapeCast S_ (sumArray m c) shapeCasts_S1x1_S_ j) (Ideal.ofBits .f32 0x46800000#32) = _
  rw [scalar_of_cell, sumArray_cell]
  rfl

/-- The run, read: the result at the loss value, the two arguments unchanged. -/
theorem run : θ_run defs (onTc (τ := τ) (main (F := Ideal))) ⟨m, fun _ => 0, ρ⟩ fun r => ∀ c : Dev nD,
      r.2.mem ((c.tc : Thread nD τ).loc main_v89) = lossValue (V m c main_arg0) (V m c main_v86)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v89 (Pipeline.mem_restRefs_of main_v89 (by decide) (by decide))).trans (tail_result m c),
      ((h c).1 0).trans (((dats m 0 c).arrAt_in 0 rfl _).trans ((A_eq m c 0).trans (V_arg0 m c))),
      ((h c).2 main_arg1 (Pipeline.mem_restRefs_of main_arg1 (by decide) (by decide))).trans (tail_arg1 m c)⟩) (run_main m ρ)

end Cert.KernelIdeal.Result

end
-- ==== Proof.RefLines.lean ====
/-
  The reference's @main as two stretches of host lines — the 118 that build the target array from the boxes
  (the same lines, one for one, as the kernel program's before its region), then the 70 that take the three
  masked squared-error terms of every cell, sum them per image and average over the 16384 images — and its
  run: every weakly fair execution terminates with every buffer at the lines' fold over the launch contents.
-/
import proofs.«149325_j86758339379422_2_alg».proof.ReferenceIdeal
import proofs.«149325_j86758339379422_2_alg».proof.Proof.Gen.ReferenceIdeal
import Idealize.ShloMosaic.Lib.StableHlo.Run

set_option maxRecDepth 16384

noncomputable section

namespace Cert.ReferenceIdeal.Lines

open Cert.ReferenceIdeal Cert.ReferenceIdeal.Gen Idealize.ShloMosaic Idealize.ShloMosaic.TcCoe Idealize.SL.Sem Idealize.ShloMosaic.StableHlo

variable {F : FTy → Type} [FloatOps F]

/-- The lines that build the target array (a called function's lines stand in its call's place). -/
abbrev targetLines : List (HloOp τ sig (Elt F)) :=
  [ unary main_arg1 main_v0 ((extractStridedSlice S16384x8x4 ![0, 0, 0] · slices_S16384x8x5_S16384x8x4_0_0_0) : (⟨S16384x8x5, .f32⟩ : BufTy).Contents (Elt F) → (⟨S16384x8x4, .f32⟩ : BufTy).Contents (Elt F)),
    nullary main_cst (constant S_ .f32 0x43E00000#32),
    unary main_cst main_v1 (broadcastInDim S16384x8x4 ![] bcast_S_S16384x8x4 : (⟨S_, .f32⟩ : BufTy).Contents (Elt F) → (⟨S16384x8x4, .f32⟩ : BufTy).Contents (Elt F)),
    binary main_v0 main_v1 main_v2 (Host.divf : (⟨S16384x8x4, .f32⟩ : BufTy).Contents (Elt F) → (⟨S16384x8x4, .f32⟩ : BufTy).Contents (Elt F) → (⟨S16384x8x4, .f32⟩ : BufTy).Contents (Elt F)),
    unary main_arg1 main_v3 ((extractStridedSlice S16384x8x1 ![0, 0, 4] · slices_S16384x8x5_S16384x8x1_0_0_4) : (⟨S16384x8x5, .f32⟩ : BufTy).Contents (Elt F) → (⟨S16384x8x1, .f32⟩ : BufTy).Contents (Elt F)),
    reshape main_v3 main_v4 rfl shapeCasts_S16384x8x1_S16384x8,
    unary main_v4 main_v5 (fptosi 32 : (⟨S16384x8, .f32⟩ : BufTy).Contents (Elt F) → (⟨S16384x8, .i32⟩ : BufTy).Contents (Elt F)),
    unary main_v2 main_v6 ((extractStridedSlice S16384x8x1 ![0, 0, 0] · slices_S16384x8x4_S16384x8x1_0_0_0) : (⟨S16384x8x4, .f32⟩ : BufTy).Contents (Elt F) → (⟨S16384x8x1, .f32⟩ : BufTy).Contents (Elt F)),
    reshape main_v6 main_v7 rfl shapeCasts_S16384x8x1_S16384x8,
    unary main_v2 main_v8 ((extractStridedSlice S16384x8x1 ![0, 0, 2] · slices_S16384x8x4_S16384x8x1_0_0_2) : (⟨S16384x8x4, .f32⟩ : BufTy).Contents (Elt F) → (⟨S16384x8x1, .f32⟩ : BufTy).Contents (Elt F)),
    reshape main_v8 main_v9 rfl shapeCasts_S16384x8x1_S16384x8,
    binary main_v7 main_v9 main_v10 (addf : (⟨S16384x8, .f32⟩ : BufTy).Contents (Elt F) → (⟨S16384x8, .f32⟩ : BufTy).Contents (Elt F) → (⟨S16384x8, .f32⟩ : BufTy).Contents (Elt F)),
    nullary main_cst_0 (constant S_ .f32 0x3F000000#32),
    unary main_cst_0 main_v11 (broadcastInDim S16384x8 ![] bcast_S_S16384x8 : (⟨S_, .f32⟩ : BufTy).Contents (Elt F) → (⟨S16384x8, .f32⟩ : BufTy).Contents (Elt F)),
    binary main_v10 main_v11 main_v12 (mulf : (⟨S16384x8, .f32⟩ : BufTy).Contents (Elt F) → (⟨S16384x8, .f32⟩ : BufTy).Contents (Elt F) → (⟨S16384x8, .f32⟩ : BufTy).Contents (Elt F)),
    unary main_v2 main_v13 ((extractStridedSlice S16384x8x1 ![0, 0, 1] · slices_S16384x8x4_S16384x8x1_0_0_1) : (⟨S16384x8x4, .f32⟩ : BufTy).Contents (Elt F) → (⟨S16384x8x1, .f32⟩ : BufTy).Contents (Elt F)),
    reshape main_v13 main_v14 rfl shapeCasts_S16384x8x1_S16384x8,
    unary main_v2 main_v15 ((extractStridedSlice S16384x8x1 ![0, 0, 3] · slices_S16384x8x4_S16384x8x1_0_0_3) : (⟨S16384x8x4, .f32⟩ : BufTy).Contents (Elt F) → (⟨S16384x8x1, .f32⟩ : BufTy).Contents (Elt F)),
    reshape main_v15 main_v16 rfl shapeCasts_S16384x8x1_S16384x8,
    binary main_v14 main_v16 main_v17 (addf : (⟨S16384x8, .f32⟩ : BufTy).Contents (Elt F) → (⟨S16384x8, .f32⟩ : BufTy).Contents (Elt F) → (⟨S16384x8, .f32⟩ : BufTy).Contents (Elt F)),
    nullary main_cst_1 (constant S_ .f32 0x3F000000#32),
    unary main_cst_1 main_v18 (broadcastInDim S16384x8 ![] bcast_S_S16384x8 : (⟨S_, .f32⟩ : BufTy).Contents (Elt F) → (⟨S16384x8, .f32⟩ : BufTy).Contents (Elt F)),
    binary main_v17 main_v18 main_v19 (mulf : (⟨S16384x8, .f32⟩ : BufTy).Contents (Elt F) → (⟨S16384x8, .f32⟩ : BufTy).Contents (Elt F) → (⟨S16384x8, .f32⟩ : BufTy).Contents (Elt F)),
    unary main_v2 main_v20 ((extractStridedSlice S16384x8x1 ![0, 0, 2] · slices_S16384x8x4_S16384x8x1_0_0_2) : (⟨S16384x8x4, .f32⟩ : BufTy).Contents (Elt F) → (⟨S16384x8x1, .f32⟩ : BufTy).Contents (Elt F)),
    reshape main_v20 main_v21 rfl shapeCasts_S16384x8x1_S16384x8,
    unary main_v2 main_v22 ((extractStridedSlice S16384x8x1 ![0, 0, 0] · slices_S16384x8x4_S16384x8x1_0_0_0) : (⟨S16384x8x4, .f32⟩ : BufTy).Contents (Elt F) → (⟨S16384x8x1, .f32⟩ : BufTy).Contents (Elt F)),
    reshape main_v22 main_v23 rfl shapeCasts_S16384x8x1_S16384x8,
    binary main_v21 main_v23 main_v24 (subf : (⟨S16384x8, .f32⟩ : BufTy).Contents (Elt F) → (⟨S16384x8, .f32⟩ : BufTy).Contents (Elt F) → (⟨S16384x8, .f32⟩ : BufTy).Contents (Elt F)),
    unary main_v2 main_v25 ((extractStridedSlice S16384x8x1 ![0, 0, 3] · slices_S16384x8x4_S16384x8x1_0_0_3) : (⟨S16384x8x4, .f32⟩ : BufTy).Contents (Elt F) → (⟨S16384x8x1, .f32⟩ : BufTy).Contents (Elt F)),
    reshape main_v25 main_v26 rfl shapeCasts_S16384x8x1_S16384x8,
    unary main_v2 main_v27 ((extractStridedSlice S16384x8x1 ![0, 0, 1] · slices_S16384x8x4_S16384x8x1_0_0_1) : (⟨S16384x8x4, .f32⟩ : BufTy).Contents (Elt F) → (⟨S16384x8x1, .f32⟩ : BufTy).Contents (Elt F)),
    reshape main_v27 main_v28 rfl shapeCasts_S16384x8x1_S16384x8,
    binary main_v26 main_v28 main_v29 (subf : (⟨S16384x8, .f32⟩ : BufTy).Contents (Elt F) → (⟨S16384x8, .f32⟩ : BufTy).Contents (Elt F) → (⟨S16384x8, .f32⟩ : BufTy).Contents (Elt F)),
    nullary main_cst_2 (constant S_ .f32 0x40E00000#32),
    unary main_cst_2 main_v30 (broadcastInDim S16384x8 ![] bcast_S_S16384x8 : (⟨S_, .f32⟩ : BufTy).Contents (Elt F) → (⟨S16384x8, .f32⟩ : BufTy).Contents (Elt F)),
    binary main_v12 main_v30 main_v31 (mulf : (⟨S16384x8, .f32⟩ : BufTy).Contents (Elt F) → (⟨S16384x8, .f32⟩ : BufTy).Contents (Elt F) → (⟨S16384x8, .f32⟩ : BufTy).Contents (Elt F)),
    unary main_v31 main_v32 (Host.floor : (⟨S16384x8, .f32⟩ : BufTy).Contents (Elt F) → (⟨S16384x8, .f32⟩ : BufTy).Contents (Elt F)),
    unary main_v32 main_v33 (fptosi 32 : (⟨S16384x8, .f32⟩ : BufTy).Contents (Elt F) → (⟨S16384x8, .i32⟩ : BufTy).Contents (Elt F)),
    nullary main_cst_3 (constant S_ .f32 0x40E00000#32),
    unary main_cst_3 main_v34 (broadcastInDim S16384x8 ![] bcast_S_S16384x8 : (⟨S_, .f32⟩ : BufTy).Contents (Elt F) → (⟨S16384x8, .f32⟩ : BufTy).Contents (Elt F)),
    binary main_v19 main_v34 main_v35 (mulf : (⟨S16384x8, .f32⟩ : BufTy).Contents (Elt F) → (⟨S16384x8, .f32⟩ : BufTy).Contents (Elt F) → (⟨S16384x8, .f32⟩ : BufTy).Contents (Elt F)),
    unary main_v35 main_v36 (Host.floor : (⟨S16384x8, .f32⟩ : BufTy).Contents (Elt F) → (⟨S16384x8, .f32⟩ : BufTy).Contents (Elt F)),
    unary main_v36 main_v37 (fptosi 32 : (⟨S16384x8, .f32⟩ : BufTy).Contents (Elt F) → (⟨S16384x8, .i32⟩ : BufTy).Contents (Elt F)),
    nullary main_cst_4 (constant S_ .f32 0x40E00000#32),
    unary main_cst_4 main_v38 (broadcastInDim S16384x8 ![] bcast_S_S16384x8 : (⟨S_, .f32⟩ : BufTy).Contents (Elt F) → (⟨S16384x8, .f32⟩ : BufTy).Contents (Elt F)),
    binary main_v12 main_v38 main_v39 (mulf : (⟨S16384x8, .f32⟩ : BufTy).Contents (Elt F) → (⟨S16384x8, .f32⟩ : BufTy).Contents (Elt F) → (⟨S16384x8, .f32⟩ : BufTy).Contents (Elt F)),
    unary main_v33 main_v40 (sitofp .f32 : (⟨S16384x8, .i32⟩ : BufTy).Contents (Elt F) → (⟨S16384x8, .f32⟩ : BufTy).Contents (Elt F)),
    binary main_v39 main_v40 main_v41 (subf : (⟨S16384x8, .f32⟩ : BufTy).Contents (Elt F) → (⟨S16384x8, .f32⟩ : BufTy).Contents (Elt F) → (⟨S16384x8, .f32⟩ : BufTy).Contents (Elt F)),
    nullary main_cst_5 (constant S_ .f32 0x40E00000#32),
    unary main_cst_5 main_v42 (broadcastInDim S16384x8 ![] bcast_S_S16384x8 : (⟨S_, .f32⟩ : BufTy).Contents (Elt F) → (⟨S16384x8, .f32⟩ : BufTy).Contents (Elt F)),
    binary main_v19 main_v42 main_v43 (mulf : (⟨S16384x8, .f32⟩ : BufTy).Contents (Elt F) → (⟨S16384x8, .f32⟩ : BufTy).Contents (Elt F) → (⟨S16384x8, .f32⟩ : BufTy).Contents (Elt F)),
    unary main_v37 main_v44 (sitofp .f32 : (⟨S16384x8, .i32⟩ : BufTy).Contents (Elt F) → (⟨S16384x8, .f32⟩ : BufTy).Contents (Elt F)),
    binary main_v43 main_v44 main_v45 (subf : (⟨S16384x8, .f32⟩ : BufTy).Contents (Elt F) → (⟨S16384x8, .f32⟩ : BufTy).Contents (Elt F) → (⟨S16384x8, .f32⟩ : BufTy).Contents (Elt F)),
    nullary main_c (constantI S_ 32 7#32),
    unary main_c main_v46 (broadcastInDim S16384x8 ![] bcast_S_S16384x8 : (⟨S_, .i32⟩ : BufTy).Contents (Elt F) → (⟨S16384x8, .i32⟩ : BufTy).Contents (Elt F)),
    binary main_v37 main_v46 main_v47 (muli : (⟨S16384x8, .i32⟩ : BufTy).Contents (Elt F) → (⟨S16384x8, .i32⟩ : BufTy).Contents (Elt F) → (⟨S16384x8, .i32⟩ : BufTy).Contents (Elt F)),
    binary main_v47 main_v33 main_v48 (addi : (⟨S16384x8, .i32⟩ : BufTy).Contents (Elt F) → (⟨S16384x8, .i32⟩ : BufTy).Contents (Elt F) → (⟨S16384x8, .i32⟩ : BufTy).Contents (Elt F)),
    unary main_v48 main_v49 (broadcastInDim S16384x8x1 ![0, 1] bcast_S16384x8_S16384x8x1_0_1 : (⟨S16384x8, .i32⟩ : BufTy).Contents (Elt F) → (⟨S16384x8x1, .i32⟩ : BufTy).Contents (Elt F)),
    unary main_v48 main_v50 (broadcastInDim S16384x1x8 ![0, 2] bcast_S16384x8_S16384x1x8_0_2 : (⟨S16384x8, .i32⟩ : BufTy).Contents (Elt F) → (⟨S16384x1x8, .i32⟩ : BufTy).Contents (Elt F)),
    unary main_v49 main_v51 (broadcastInDim S16384x8x8 ![0, 1, 2] bcast_S16384x8x1_S16384x8x8_0_1_2 : (⟨S16384x8x1, .i32⟩ : BufTy).Contents (Elt F) → (⟨S16384x8x8, .i32⟩ : BufTy).Contents (Elt F)),
    unary main_v50 main_v52 (broadcastInDim S16384x8x8 ![0, 1, 2] bcast_S16384x1x8_S16384x8x8_0_1_2 : (⟨S16384x1x8, .i32⟩ : BufTy).Contents (Elt F) → (⟨S16384x8x8, .i32⟩ : BufTy).Contents (Elt F)),
    binary main_v51 main_v52 main_v53 (cmpi .eq : (⟨S16384x8x8, .i32⟩ : BufTy).Contents (Elt F) → (⟨S16384x8x8, .i32⟩ : BufTy).Contents (Elt F) → (⟨S16384x8x8, .i1⟩ : BufTy).Contents (Elt F)),
    nullary main_c_6 (constantI S_ 1 1#1),
    unary main_c_6 main_v54 (broadcastInDim S8x8 ![] bcast_S_S8x8 : (⟨S_, .i1⟩ : BufTy).Contents (Elt F) → (⟨S8x8, .i1⟩ : BufTy).Contents (Elt F)),
    TRef.nullary (TRef.of (T := ⟨S8x8, .i32⟩) main_call0_v0) (iotaInDim S8x8 32 0),
    TRef.nullary (TRef.of (T := ⟨S_, .i32⟩) main_call0_c) (constantI S_ 32 4294967295#32),
    TRef.unary (TRef.of (T := ⟨S_, .i32⟩) main_call0_c) (TRef.of (T := ⟨S8x8, .i32⟩) main_call0_v1) (broadcastInDim S8x8 ![] bcast_S_S8x8),
    TRef.binary (TRef.of (T := ⟨S8x8, .i32⟩) main_call0_v0) (TRef.of (T := ⟨S8x8, .i32⟩) main_call0_v1) (TRef.of (T := ⟨S8x8, .i32⟩) main_call0_v2) addi,
    TRef.nullary (TRef.of (T := ⟨S8x8, .i32⟩) main_call0_v3) (iotaInDim S8x8 32 1),
    TRef.binary (TRef.of (T := ⟨S8x8, .i32⟩) main_call0_v2) (TRef.of (T := ⟨S8x8, .i32⟩) main_call0_v3) (TRef.of (T := ⟨S8x8, .i1⟩) main_call0_v4) (cmpi .sge),
    TRef.nullary (TRef.of (T := ⟨S_, .i1⟩) main_call0_c_0) (constantI S_ 1 0#1),
    TRef.unary (TRef.of (T := ⟨S_, .i1⟩) main_call0_c_0) (TRef.of (T := ⟨S8x8, .i1⟩) main_call0_v5) (broadcastInDim S8x8 ![] bcast_S_S8x8),
    TRef.ternary (TRef.of (T := ⟨S8x8, .i1⟩) main_call0_v4) (TRef.of (T := ⟨S8x8, .i1⟩) main_v54) (TRef.of (T := ⟨S8x8, .i1⟩) main_call0_v5) (TRef.of (T := ⟨S8x8, .i1⟩) main_v55) select,
    unary main_v55 main_v56 (broadcastInDim S1x8x8 ![1, 2] bcast_S8x8_S1x8x8_1_2 : (⟨S8x8, .i1⟩ : BufTy).Contents (Elt F) → (⟨S1x8x8, .i1⟩ : BufTy).Contents (Elt F)),
    unary main_v56 main_v57 (broadcastInDim S16384x8x8 ![0, 1, 2] bcast_S1x8x8_S16384x8x8_0_1_2 : (⟨S1x8x8, .i1⟩ : BufTy).Contents (Elt F) → (⟨S16384x8x8, .i1⟩ : BufTy).Contents (Elt F)),
    binary main_v53 main_v57 main_v58 (andi : (⟨S16384x8x8, .i1⟩ : BufTy).Contents (Elt F) → (⟨S16384x8x8, .i1⟩ : BufTy).Contents (Elt F) → (⟨S16384x8x8, .i1⟩ : BufTy).Contents (Elt F)),
    nullary main_c_7 (constantI S_ 1 0#1),
    binary main_v58 main_c_7 main_v59 ((fun x v => Host.reduce IntOp.ori x v reducesTo_S16384x8x8_S16384x8_d2 h_S_) : (⟨S16384x8x8, .i1⟩ : BufTy).Contents (Elt F) → (⟨S_, .i1⟩ : BufTy).Contents (Elt F) → (⟨S16384x8, .i1⟩ : BufTy).Contents (Elt F)),
    unary main_v59 main_v60 (noti : (⟨S16384x8, .i1⟩ : BufTy).Contents (Elt F) → (⟨S16384x8, .i1⟩ : BufTy).Contents (Elt F)),
    TRef.unary (TRef.of (T := ⟨S16384x8, .i32⟩) main_v5) (TRef.of (T := ⟨S16384x8x1, .i32⟩) main_call1_v0) (broadcastInDim S16384x8x1 ![0, 1] bcast_S16384x8_S16384x8x1_0_1),
    TRef.nullary (TRef.of (T := ⟨S1x1x20, .i32⟩) main_call1_v1) (iotaInDim S1x1x20 32 2),
    TRef.unary (TRef.of (T := ⟨S16384x8x1, .i32⟩) main_call1_v0) (TRef.of (T := ⟨S16384x8x20, .i32⟩) main_call1_v2) (broadcastInDim S16384x8x20 ![0, 1, 2] bcast_S16384x8x1_S16384x8x20_0_1_2),
    TRef.unary (TRef.of (T := ⟨S1x1x20, .i32⟩) main_call1_v1) (TRef.of (T := ⟨S16384x8x20, .i32⟩) main_call1_v3) (broadcastInDim S16384x8x20 ![0, 1, 2] bcast_S1x1x20_S16384x8x20_0_1_2),
    TRef.binary (TRef.of (T := ⟨S16384x8x20, .i32⟩) main_call1_v2) (TRef.of (T := ⟨S16384x8x20, .i32⟩) main_call1_v3) (TRef.of (T := ⟨S16384x8x20, .i1⟩) main_call1_v4) (cmpi .eq),
    TRef.unary (TRef.of (T := ⟨S16384x8x20, .i1⟩) main_call1_v4) (TRef.of (T := ⟨S16384x8x20, .f32⟩) main_v61) (uitofp .f32),
    unary main_v41 main_v62 (broadcastInDim S16384x8x1 ![0, 1] bcast_S16384x8_S16384x8x1_0_1 : (⟨S16384x8, .f32⟩ : BufTy).Contents (Elt F) → (⟨S16384x8x1, .f32⟩ : BufTy).Contents (Elt F)),
    unary main_v45 main_v63 (broadcastInDim S16384x8x1 ![0, 1] bcast_S16384x8_S16384x8x1_0_1 : (⟨S16384x8, .f32⟩ : BufTy).Contents (Elt F) → (⟨S16384x8x1, .f32⟩ : BufTy).Contents (Elt F)),
    unary main_v24 main_v64 (broadcastInDim S16384x8x1 ![0, 1] bcast_S16384x8_S16384x8x1_0_1 : (⟨S16384x8, .f32⟩ : BufTy).Contents (Elt F) → (⟨S16384x8x1, .f32⟩ : BufTy).Contents (Elt F)),
    unary main_v29 main_v65 (broadcastInDim S16384x8x1 ![0, 1] bcast_S16384x8_S16384x8x1_0_1 : (⟨S16384x8, .f32⟩ : BufTy).Contents (Elt F) → (⟨S16384x8x1, .f32⟩ : BufTy).Contents (Elt F)),
    nullary main_cst_8 (constant S_ .f32 0x3F800000#32),
    unary main_cst_8 main_v66 (broadcastInDim S16384x8 ![] bcast_S_S16384x8 : (⟨S_, .f32⟩ : BufTy).Contents (Elt F) → (⟨S16384x8, .f32⟩ : BufTy).Contents (Elt F)),
    unary main_v66 main_v67 (broadcastInDim S16384x8x1 ![0, 1] bcast_S16384x8_S16384x8x1_0_1 : (⟨S16384x8, .f32⟩ : BufTy).Contents (Elt F) → (⟨S16384x8x1, .f32⟩ : BufTy).Contents (Elt F)),
    nary ![main_v62, main_v63, main_v64, main_v65, main_v67, main_v61] main_v68 (fun u => concatenate S16384x8x25 2 [⟨S16384x8x1, u 0⟩, ⟨S16384x8x1, u 1⟩, ⟨S16384x8x1, u 2⟩, ⟨S16384x8x1, u 3⟩, ⟨S16384x8x1, u 4⟩, ⟨S16384x8x20, u 5⟩] concatenates_S16384x8x1_S16384x8x1_S16384x8x1_S16384x8x1_S16384x8x1_S16384x8x20_S16384x8x25_d2),
    nullary main_v69 (iotaInDim S16384 32 0),
    unary main_v69 main_v70 (broadcastInDim S16384x1 ![0] bcast_S16384_S16384x1_0 : (⟨S16384, .i32⟩ : BufTy).Contents (Elt F) → (⟨S16384x1, .i32⟩ : BufTy).Contents (Elt F)),
    nullary main_c_9 (constantI S_ 32 49#32),
    unary main_c_9 main_v71 (broadcastInDim S16384x1 ![] bcast_S_S16384x1 : (⟨S_, .i32⟩ : BufTy).Contents (Elt F) → (⟨S16384x1, .i32⟩ : BufTy).Contents (Elt F)),
    binary main_v70 main_v71 main_v72 (muli : (⟨S16384x1, .i32⟩ : BufTy).Contents (Elt F) → (⟨S16384x1, .i32⟩ : BufTy).Contents (Elt F) → (⟨S16384x1, .i32⟩ : BufTy).Contents (Elt F)),
    unary main_v72 main_v73 (broadcastInDim S16384x8 ![0, 1] bcast_S16384x1_S16384x8_0_1 : (⟨S16384x1, .i32⟩ : BufTy).Contents (Elt F) → (⟨S16384x8, .i32⟩ : BufTy).Contents (Elt F)),
    binary main_v73 main_v48 main_v74 (addi : (⟨S16384x8, .i32⟩ : BufTy).Contents (Elt F) → (⟨S16384x8, .i32⟩ : BufTy).Contents (Elt F) → (⟨S16384x8, .i32⟩ : BufTy).Contents (Elt F)),
    nullary main_c_10 (constantI S_ 32 802816#32),
    TRef.unary (TRef.of (T := ⟨S_, .i32⟩) main_c_10) (TRef.of (T := ⟨S_, .i32⟩) main_call2_v0) id,
    TRef.unary (TRef.of (T := ⟨S_, .i32⟩) main_call2_v0) (TRef.of (T := ⟨S16384x8, .i32⟩) main_call2_v1) (broadcastInDim S16384x8 ![] bcast_S_S16384x8),
    TRef.ternary (TRef.of (T := ⟨S16384x8, .i1⟩) main_v60) (TRef.of (T := ⟨S16384x8, .i32⟩) main_v74) (TRef.of (T := ⟨S16384x8, .i32⟩) main_call2_v1) (TRef.of (T := ⟨S16384x8, .i32⟩) main_v75) select,
    nullary main_cst_11 (constant S_ .f32 0x00000000#32),
    unary main_cst_11 main_v76 (broadcastInDim S802816x25 ![] bcast_S_S802816x25 : (⟨S_, .f32⟩ : BufTy).Contents (Elt F) → (⟨S802816x25, .f32⟩ : BufTy).Contents (Elt F)),
    reshape main_v75 main_v77 rfl shapeCasts_S16384x8_S131072,
    reshape main_v68 main_v78 rfl shapeCasts_S16384x8x25_S131072x25,
    nullary main_c_12 (constantI S_ 32 0#32),
    unary main_c_12 main_v79 (broadcastInDim S131072 ![] bcast_S_S131072 : (⟨S_, .i32⟩ : BufTy).Contents (Elt F) → (⟨S131072, .i32⟩ : BufTy).Contents (Elt F)),
    binary main_v77 main_v79 main_v80 (cmpi .slt : (⟨S131072, .i32⟩ : BufTy).Contents (Elt F) → (⟨S131072, .i32⟩ : BufTy).Contents (Elt F) → (⟨S131072, .i1⟩ : BufTy).Contents (Elt F)),
    nullary main_c_13 (constantI S_ 32 802816#32),
    unary main_c_13 main_v81 (broadcastInDim S131072 ![] bcast_S_S131072 : (⟨S_, .i32⟩ : BufTy).Contents (Elt F) → (⟨S131072, .i32⟩ : BufTy).Contents (Elt F)),
    binary main_v77 main_v81 main_v82 (addi : (⟨S131072, .i32⟩ : BufTy).Contents (Elt F) → (⟨S131072, .i32⟩ : BufTy).Contents (Elt F) → (⟨S131072, .i32⟩ : BufTy).Contents (Elt F)),
    ternary main_v80 main_v82 main_v77 main_v83 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v83 main_v84 (broadcastInDim S131072x1 ![0] bcast_S131072_S131072x1_0 : (⟨S131072, .i32⟩ : BufTy).Contents (Elt F) → (⟨S131072x1, .i32⟩ : BufTy).Contents (Elt F)),
    ternary main_v76 main_v84 main_v78 main_v85 ((fun x i u => Host.scatter scatter_S802816x25_S131072x1_S131072x25_1_0_0_1 (fun _ b => b) x i u) : (⟨S802816x25, .f32⟩ : BufTy).Contents (Elt F) → (⟨S131072x1, .i32⟩ : BufTy).Contents (Elt F) → (⟨S131072x25, .f32⟩ : BufTy).Contents (Elt F) → (⟨S802816x25, .f32⟩ : BufTy).Contents (Elt F)),
    reshape main_v85 main_v86 rfl shapeCasts_S802816x25_S16384x7x7x25 ]

/-- The lines that compute the loss from the predictions and the target. -/
abbrev lossLines : List (HloOp τ sig (Elt F)) :=
  [ unary main_v86 main_v87 ((extractStridedSlice S16384x7x7x1 ![0, 0, 0, 4] · slices_S16384x7x7x25_S16384x7x7x1_0_0_0_4) : (⟨S16384x7x7x25, .f32⟩ : BufTy).Contents (Elt F) → (⟨S16384x7x7x1, .f32⟩ : BufTy).Contents (Elt F)),
    reshape main_v87 main_v88 rfl shapeCasts_S16384x7x7x1_S16384x7x7,
    nullary main_cst_14 (constant S_ .f32 0x3F800000#32),
    unary main_cst_14 main_v89 (broadcastInDim S16384x7x7 ![] bcast_S_S16384x7x7 : (⟨S_, .f32⟩ : BufTy).Contents (Elt F) → (⟨S16384x7x7, .f32⟩ : BufTy).Contents (Elt F)),
    binary main_v89 main_v88 main_v90 (subf : (⟨S16384x7x7, .f32⟩ : BufTy).Contents (Elt F) → (⟨S16384x7x7, .f32⟩ : BufTy).Contents (Elt F) → (⟨S16384x7x7, .f32⟩ : BufTy).Contents (Elt F)),
    nullary main_cst_15 (constant S_ .f32 0x3F000000#32),
    unary main_cst_15 main_v91 (broadcastInDim S16384x7x7 ![] bcast_S_S16384x7x7 : (⟨S_, .f32⟩ : BufTy).Contents (Elt F) → (⟨S16384x7x7, .f32⟩ : BufTy).Contents (Elt F)),
    binary main_v90 main_v91 main_v92 (mulf : (⟨S16384x7x7, .f32⟩ : BufTy).Contents (Elt F) → (⟨S16384x7x7, .f32⟩ : BufTy).Contents (Elt F) → (⟨S16384x7x7, .f32⟩ : BufTy).Contents (Elt F)),
    unary main_v86 main_v93 ((extractStridedSlice S16384x7x7x1 ![0, 0, 0, 4] · slices_S16384x7x7x25_S16384x7x7x1_0_0_0_4) : (⟨S16384x7x7x25, .f32⟩ : BufTy).Contents (Elt F) → (⟨S16384x7x7x1, .f32⟩ : BufTy).Contents (Elt F)),
    reshape main_v93 main_v94 rfl shapeCasts_S16384x7x7x1_S16384x7x7,
    unary main_arg0 main_v95 ((extractStridedSlice S16384x7x7x1 ![0, 0, 0, 4] · slices_S16384x7x7x25_S16384x7x7x1_0_0_0_4) : (⟨S16384x7x7x25, .f32⟩ : BufTy).Contents (Elt F) → (⟨S16384x7x7x1, .f32⟩ : BufTy).Contents (Elt F)),
    reshape main_v95 main_v96 rfl shapeCasts_S16384x7x7x1_S16384x7x7,
    binary main_v94 main_v96 main_v97 (subf : (⟨S16384x7x7, .f32⟩ : BufTy).Contents (Elt F) → (⟨S16384x7x7, .f32⟩ : BufTy).Contents (Elt F) → (⟨S16384x7x7, .f32⟩ : BufTy).Contents (Elt F)),
    binary main_v97 main_v97 main_v98 (mulf : (⟨S16384x7x7, .f32⟩ : BufTy).Contents (Elt F) → (⟨S16384x7x7, .f32⟩ : BufTy).Contents (Elt F) → (⟨S16384x7x7, .f32⟩ : BufTy).Contents (Elt F)),
    binary main_v88 main_v92 main_v99 (addf : (⟨S16384x7x7, .f32⟩ : BufTy).Contents (Elt F) → (⟨S16384x7x7, .f32⟩ : BufTy).Contents (Elt F) → (⟨S16384x7x7, .f32⟩ : BufTy).Contents (Elt F)),
    binary main_v99 main_v98 main_v100 (mulf : (⟨S16384x7x7, .f32⟩ : BufTy).Contents (Elt F) → (⟨S16384x7x7, .f32⟩ : BufTy).Contents (Elt F) → (⟨S16384x7x7, .f32⟩ : BufTy).Contents (Elt F)),
    nullary main_cst_16 (constant S_ .f32 0x00000000#32),
    binary main_v100 main_cst_16 main_v101 ((fun x v => Host.reduceAdd x v reducesTo_S16384x7x7_S16384_d1_2 h_S_) : (⟨S16384x7x7, .f32⟩ : BufTy).Contents (Elt F) → (⟨S_, .f32⟩ : BufTy).Contents (Elt F) → (⟨S16384, .f32⟩ : BufTy).Contents (Elt F)),
    unary main_v86 main_v102 ((extractStridedSlice S16384x7x7x1 ![0, 0, 0, 0] · slices_S16384x7x7x25_S16384x7x7x1_0_0_0_0) : (⟨S16384x7x7x25, .f32⟩ : BufTy).Contents (Elt F) → (⟨S16384x7x7x1, .f32⟩ : BufTy).Contents (Elt F)),
    reshape main_v102 main_v103 rfl shapeCasts_S16384x7x7x1_S16384x7x7,
    unary main_arg0 main_v104 ((extractStridedSlice S16384x7x7x1 ![0, 0, 0, 0] · slices_S16384x7x7x25_S16384x7x7x1_0_0_0_0) : (⟨S16384x7x7x25, .f32⟩ : BufTy).Contents (Elt F) → (⟨S16384x7x7x1, .f32⟩ : BufTy).Contents (Elt F)),
    reshape main_v104 main_v105 rfl shapeCasts_S16384x7x7x1_S16384x7x7,
    binary main_v103 main_v105 main_v106 (subf : (⟨S16384x7x7, .f32⟩ : BufTy).Contents (Elt F) → (⟨S16384x7x7, .f32⟩ : BufTy).Contents (Elt F) → (⟨S16384x7x7, .f32⟩ : BufTy).Contents (Elt F)),
    binary main_v106 main_v106 main_v107 (mulf : (⟨S16384x7x7, .f32⟩ : BufTy).Contents (Elt F) → (⟨S16384x7x7, .f32⟩ : BufTy).Contents (Elt F) → (⟨S16384x7x7, .f32⟩ : BufTy).Contents (Elt F)),
    unary main_v86 main_v108 ((extractStridedSlice S16384x7x7x1 ![0, 0, 0, 1] · slices_S16384x7x7x25_S16384x7x7x1_0_0_0_1) : (⟨S16384x7x7x25, .f32⟩ : BufTy).Contents (Elt F) → (⟨S16384x7x7x1, .f32⟩ : BufTy).Contents (Elt F)),
    reshape main_v108 main_v109 rfl shapeCasts_S16384x7x7x1_S16384x7x7,
    unary main_arg0 main_v110 ((extractStridedSlice S16384x7x7x1 ![0, 0, 0, 1] · slices_S16384x7x7x25_S16384x7x7x1_0_0_0_1) : (⟨S16384x7x7x25, .f32⟩ : BufTy).Contents (Elt F) → (⟨S16384x7x7x1, .f32⟩ : BufTy).Contents (Elt F)),
    reshape main_v110 main_v111 rfl shapeCasts_S16384x7x7x1_S16384x7x7,
    binary main_v109 main_v111 main_v112 (subf : (⟨S16384x7x7, .f32⟩ : BufTy).Contents (Elt F) → (⟨S16384x7x7, .f32⟩ : BufTy).Contents (Elt F) → (⟨S16384x7x7, .f32⟩ : BufTy).Contents (Elt F)),
    binary main_v112 main_v112 main_v113 (mulf : (⟨S16384x7x7, .f32⟩ : BufTy).Contents (Elt F) → (⟨S16384x7x7, .f32⟩ : BufTy).Contents (Elt F) → (⟨S16384x7x7, .f32⟩ : BufTy).Contents (Elt F)),
    binary main_v107 main_v113 main_v114 (addf : (⟨S16384x7x7, .f32⟩ : BufTy).Contents (Elt F) → (⟨S16384x7x7, .f32⟩ : BufTy).Contents (Elt F) → (⟨S16384x7x7, .f32⟩ : BufTy).Contents (Elt F)),
    unary main_v86 main_v115 ((extractStridedSlice S16384x7x7x1 ![0, 0, 0, 2] · slices_S16384x7x7x25_S16384x7x7x1_0_0_0_2) : (⟨S16384x7x7x25, .f32⟩ : BufTy).Contents (Elt F) → (⟨S16384x7x7x1, .f32⟩ : BufTy).Contents (Elt F)),
    reshape main_v115 main_v116 rfl shapeCasts_S16384x7x7x1_S16384x7x7,
    unary main_v116 main_v117 (Host.sqrt : (⟨S16384x7x7, .f32⟩ : BufTy).Contents (Elt F) → (⟨S16384x7x7, .f32⟩ : BufTy).Contents (Elt F)),
    unary main_arg0 main_v118 ((extractStridedSlice S16384x7x7x1 ![0, 0, 0, 2] · slices_S16384x7x7x25_S16384x7x7x1_0_0_0_2) : (⟨S16384x7x7x25, .f32⟩ : BufTy).Contents (Elt F) → (⟨S16384x7x7x1, .f32⟩ : BufTy).Contents (Elt F)),
    reshape main_v118 main_v119 rfl shapeCasts_S16384x7x7x1_S16384x7x7,
    unary main_v119 main_v120 (Host.sqrt : (⟨S16384x7x7, .f32⟩ : BufTy).Contents (Elt F) → (⟨S16384x7x7, .f32⟩ : BufTy).Contents (Elt F)),
    binary main_v117 main_v120 main_v121 (subf : (⟨S16384x7x7, .f32⟩ : BufTy).Contents (Elt F) → (⟨S16384x7x7, .f32⟩ : BufTy).Contents (Elt F) → (⟨S16384x7x7, .f32⟩ : BufTy).Contents (Elt F)),
    binary main_v121 main_v121 main_v122 (mulf : (⟨S16384x7x7, .f32⟩ : BufTy).Contents (Elt F) → (⟨S16384x7x7, .f32⟩ : BufTy).Contents (Elt F) → (⟨S16384x7x7, .f32⟩ : BufTy).Contents (Elt F)),
    binary main_v114 main_v122 main_v123 (addf : (⟨S16384x7x7, .f32⟩ : BufTy).Contents (Elt F) → (⟨S16384x7x7, .f32⟩ : BufTy).Contents (Elt F) → (⟨S16384x7x7, .f32⟩ : BufTy).Contents (Elt F)),
    unary main_v86 main_v124 ((extractStridedSlice S16384x7x7x1 ![0, 0, 0, 3] · slices_S16384x7x7x25_S16384x7x7x1_0_0_0_3) : (⟨S16384x7x7x25, .f32⟩ : BufTy).Contents (Elt F) → (⟨S16384x7x7x1, .f32⟩ : BufTy).Contents (Elt F)),
    reshape main_v124 main_v125 rfl shapeCasts_S16384x7x7x1_S16384x7x7,
    unary main_v125 main_v126 (Host.sqrt : (⟨S16384x7x7, .f32⟩ : BufTy).Contents (Elt F) → (⟨S16384x7x7, .f32⟩ : BufTy).Contents (Elt F)),
    unary main_arg0 main_v127 ((extractStridedSlice S16384x7x7x1 ![0, 0, 0, 3] · slices_S16384x7x7x25_S16384x7x7x1_0_0_0_3) : (⟨S16384x7x7x25, .f32⟩ : BufTy).Contents (Elt F) → (⟨S16384x7x7x1, .f32⟩ : BufTy).Contents (Elt F)),
    reshape main_v127 main_v128 rfl shapeCasts_S16384x7x7x1_S16384x7x7,
    unary main_v128 main_v129 (Host.sqrt : (⟨S16384x7x7, .f32⟩ : BufTy).Contents (Elt F) → (⟨S16384x7x7, .f32⟩ : BufTy).Contents (Elt F)),
    binary main_v126 main_v129 main_v130 (subf : (⟨S16384x7x7, .f32⟩ : BufTy).Contents (Elt F) → (⟨S16384x7x7, .f32⟩ : BufTy).Contents (Elt F) → (⟨S16384x7x7, .f32⟩ : BufTy).Contents (Elt F)),
    binary main_v130 main_v130 main_v131 (mulf : (⟨S16384x7x7, .f32⟩ : BufTy).Contents (Elt F) → (⟨S16384x7x7, .f32⟩ : BufTy).Contents (Elt F) → (⟨S16384x7x7, .f32⟩ : BufTy).Contents (Elt F)),
    binary main_v123 main_v131 main_v132 (addf : (⟨S16384x7x7, .f32⟩ : BufTy).Contents (Elt F) → (⟨S16384x7x7, .f32⟩ : BufTy).Contents (Elt F) → (⟨S16384x7x7, .f32⟩ : BufTy).Contents (Elt F)),
    binary main_v88 main_v132 main_v133 (mulf : (⟨S16384x7x7, .f32⟩ : BufTy).Contents (Elt F) → (⟨S16384x7x7, .f32⟩ : BufTy).Contents (Elt F) → (⟨S16384x7x7, .f32⟩ : BufTy).Contents (Elt F)),
    nullary main_cst_17 (constant S_ .f32 0x40A00000#32),
    unary main_cst_17 main_v134 (broadcastInDim S16384x7x7 ![] bcast_S_S16384x7x7 : (⟨S_, .f32⟩ : BufTy).Contents (Elt F) → (⟨S16384x7x7, .f32⟩ : BufTy).Contents (Elt F)),
    binary main_v133 main_v134 main_v135 (mulf : (⟨S16384x7x7, .f32⟩ : BufTy).Contents (Elt F) → (⟨S16384x7x7, .f32⟩ : BufTy).Contents (Elt F) → (⟨S16384x7x7, .f32⟩ : BufTy).Contents (Elt F)),
    nullary main_cst_18 (constant S_ .f32 0x00000000#32),
    binary main_v135 main_cst_18 main_v136 ((fun x v => Host.reduceAdd x v reducesTo_S16384x7x7_S16384_d1_2 h_S_) : (⟨S16384x7x7, .f32⟩ : BufTy).Contents (Elt F) → (⟨S_, .f32⟩ : BufTy).Contents (Elt F) → (⟨S16384, .f32⟩ : BufTy).Contents (Elt F)),
    unary main_v86 main_v137 ((extractStridedSlice S16384x7x7x20 ![0, 0, 0, 5] · slices_S16384x7x7x25_S16384x7x7x20_0_0_0_5) : (⟨S16384x7x7x25, .f32⟩ : BufTy).Contents (Elt F) → (⟨S16384x7x7x20, .f32⟩ : BufTy).Contents (Elt F)),
    unary main_arg0 main_v138 ((extractStridedSlice S16384x7x7x20 ![0, 0, 0, 5] · slices_S16384x7x7x25_S16384x7x7x20_0_0_0_5) : (⟨S16384x7x7x25, .f32⟩ : BufTy).Contents (Elt F) → (⟨S16384x7x7x20, .f32⟩ : BufTy).Contents (Elt F)),
    binary main_v137 main_v138 main_v139 (subf : (⟨S16384x7x7x20, .f32⟩ : BufTy).Contents (Elt F) → (⟨S16384x7x7x20, .f32⟩ : BufTy).Contents (Elt F) → (⟨S16384x7x7x20, .f32⟩ : BufTy).Contents (Elt F)),
    binary main_v139 main_v139 main_v140 (mulf : (⟨S16384x7x7x20, .f32⟩ : BufTy).Contents (Elt F) → (⟨S16384x7x7x20, .f32⟩ : BufTy).Contents (Elt F) → (⟨S16384x7x7x20, .f32⟩ : BufTy).Contents (Elt F)),
    unary main_v88 main_v141 (broadcastInDim S16384x7x7x1 ![0, 1, 2] bcast_S16384x7x7_S16384x7x7x1_0_1_2 : (⟨S16384x7x7, .f32⟩ : BufTy).Contents (Elt F) → (⟨S16384x7x7x1, .f32⟩ : BufTy).Contents (Elt F)),
    unary main_v141 main_v142 (broadcastInDim S16384x7x7x20 ![0, 1, 2, 3] bcast_S16384x7x7x1_S16384x7x7x20_0_1_2_3 : (⟨S16384x7x7x1, .f32⟩ : BufTy).Contents (Elt F) → (⟨S16384x7x7x20, .f32⟩ : BufTy).Contents (Elt F)),
    binary main_v142 main_v140 main_v143 (mulf : (⟨S16384x7x7x20, .f32⟩ : BufTy).Contents (Elt F) → (⟨S16384x7x7x20, .f32⟩ : BufTy).Contents (Elt F) → (⟨S16384x7x7x20, .f32⟩ : BufTy).Contents (Elt F)),
    nullary main_cst_19 (constant S_ .f32 0x00000000#32),
    binary main_v143 main_cst_19 main_v144 ((fun x v => Host.reduceAdd x v reducesTo_S16384x7x7x20_S16384_d1_2_3 h_S_) : (⟨S16384x7x7x20, .f32⟩ : BufTy).Contents (Elt F) → (⟨S_, .f32⟩ : BufTy).Contents (Elt F) → (⟨S16384, .f32⟩ : BufTy).Contents (Elt F)),
    binary main_v101 main_v136 main_v145 (addf : (⟨S16384, .f32⟩ : BufTy).Contents (Elt F) → (⟨S16384, .f32⟩ : BufTy).Contents (Elt F) → (⟨S16384, .f32⟩ : BufTy).Contents (Elt F)),
    binary main_v145 main_v144 main_v146 (addf : (⟨S16384, .f32⟩ : BufTy).Contents (Elt F) → (⟨S16384, .f32⟩ : BufTy).Contents (Elt F) → (⟨S16384, .f32⟩ : BufTy).Contents (Elt F)),
    nullary main_cst_20 (constant S_ .f32 0x00000000#32),
    binary main_v146 main_cst_20 main_v147 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_21 (constant S_ .f32 0x46800000#32),
    binary main_v147 main_cst_21 main_v148 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq (targetLines ++ lossLines) := rfl
theorem scopedRefs_eq : (Finset.univ.filter fun b : Ref sig .tc => b.isScoped) = ∅ := by decide
theorem scopedSems_eq : (Finset.univ.filter fun sm : SemLoc sig => sm.isScoped .tc) = ∅ := by decide

theorem target_sub : (targetLines : List (HloOp τ sig (Elt F))).Forall fun op => op.bufs ⊆ tcRefs τ sig :=
  ⟨unary_bufs_sub .., nullary_bufs_sub .., unary_bufs_sub .., binary_bufs_sub .., unary_bufs_sub .., reshape_bufs_sub .., unary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., binary_bufs_sub .., nullary_bufs_sub .., binary_bufs_sub .., unary_bufs_sub .., unary_bufs_sub .., nullary_bufs_sub .., unary_bufs_sub .., unary_bufs_sub .., binary_bufs_sub .., unary_bufs_sub .., unary_bufs_sub .., unary_bufs_sub .., unary_bufs_sub .., unary_bufs_sub .., nullary_bufs_sub .., unary_bufs_sub .., unary_bufs_sub .., nary_bufs_sub .., nullary_bufs_sub .., unary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩
theorem loss_sub : (lossLines : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., unary_bufs_sub .., reshape_bufs_sub .., unary_bufs_sub .., reshape_bufs_sub .., binary_bufs_sub .., binary_bufs_sub .., binary_bufs_sub .., binary_bufs_sub .., nullary_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., binary_bufs_sub .., binary_bufs_sub .., unary_bufs_sub .., reshape_bufs_sub .., unary_bufs_sub .., unary_bufs_sub .., reshape_bufs_sub .., unary_bufs_sub .., binary_bufs_sub .., binary_bufs_sub .., binary_bufs_sub .., unary_bufs_sub .., reshape_bufs_sub .., unary_bufs_sub .., unary_bufs_sub .., reshape_bufs_sub .., unary_bufs_sub .., binary_bufs_sub .., binary_bufs_sub .., binary_bufs_sub .., binary_bufs_sub .., nullary_bufs_sub .., unary_bufs_sub .., binary_bufs_sub .., nullary_bufs_sub .., binary_bufs_sub .., unary_bufs_sub .., unary_bufs_sub .., binary_bufs_sub .., binary_bufs_sub .., unary_bufs_sub .., unary_bufs_sub .., binary_bufs_sub .., nullary_bufs_sub .., binary_bufs_sub .., binary_bufs_sub .., binary_bufs_sub .., nullary_bufs_sub .., binary_bufs_sub .., nullary_bufs_sub .., binary_bufs_sub ..⟩
theorem target_fresh : (targetLines : List (HloOp τ sig (Elt F))).Forall fun op => op.fresh = ∅ := by
  simp only [List.Forall]; repeat' constructor
theorem loss_fresh : (lossLines : List (HloOp τ sig (Elt F))).Forall fun op => op.fresh = ∅ := by
  simp only [List.Forall]; repeat' constructor

/-- Folding two stretches of lines one after the other is folding their concatenation. -/
theorem after_app : ∀ (l₁ l₂ : List (HloOp τ sig (Elt F))) (V : Valuation τ sig (Elt F)), after (l₁ ++ l₂) V = after l₂ (after l₁ V)
  | [], _, _ => rfl
  | op :: l₁, l₂, V => after_app l₁ l₂ (op.result V)

/-- The run: every buffer ends at the fold of all 188 lines over what it held at launch. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after lossLines (after targetLines (launchContents m d)) (Proc.devRef .tc b) :=
  (θ_run defs _ _).mono (fun _ h d b => (h d b).trans (by rw [after_app]))
    (run_seq scopedRefs_eq scopedSems_eq defs main (fun _ => targetLines ++ lossLines) main_eq
      (fun _ => List.forall_iff_forall_mem.mpr fun op h => (List.mem_append.mp h).elim
        (List.forall_iff_forall_mem.mp target_sub op) (List.forall_iff_forall_mem.mp loss_sub op)) m ρ
      (fun _ op h => (List.mem_append.mp h).elim
        (List.forall_iff_forall_mem.mp target_fresh op) (List.forall_iff_forall_mem.mp loss_fresh op)))

end Cert.ReferenceIdeal.Lines

end
-- ==== Proof.LibIdxSums.lean ====
/-
  Sums over the index set of a rank-3 or rank-4 array, coordinate by coordinate: the whole sum as nested
  sums over the coordinates, and the sum over the indices with a given leading coordinate as nested sums
  over the other coordinates. In any additive commutative monoid.
-/
import Idealize.ShloMosaic.Lib.ValueIdx

noncomputable section

open scoped BigOperators

namespace Cert.LibIdxSums

open Idealize.ShloMosaic Idealize.ShloMosaic.ValueIdx

variable {M : Type*} [AddCommMonoid M]

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {n : Nat} (f : (⟨1, ![n]⟩ : Shape).Idx → M) : ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-3 index set is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-4 index set is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The sum over the rank-3 indices whose leading coordinate is `a`: the double sum over the other two. -/
theorem sum_lead3 {n0 n1 n2 : Nat} (f : (⟨3, ![n0, n1, n2]⟩ : Shape).Idx → M) (a : Fin n0)
    (p : (⟨3, ![n0, n1, n2]⟩ : Shape).Idx → Prop) [DecidablePred p] (hp : ∀ i, p i ↔ i 0 = a) :
    ∑ i ∈ Finset.univ.filter p, f i = ∑ b : Fin n1, ∑ c : Fin n2, f (ix3 a b c) := by
  rw [Finset.sum_filter, sum_idx3]
  rw [Finset.sum_eq_single a]
  · refine Finset.sum_congr rfl fun b _ => Finset.sum_congr rfl fun c _ => ?_
    rw [if_pos ((hp _).mpr rfl)]
  · intro a' _ ha'
    refine Finset.sum_eq_zero fun b _ => Finset.sum_eq_zero fun c _ => ?_
    rw [if_neg fun h => ha' ((hp _).mp h)]
  · intro h; exact absurd (Finset.mem_univ a) h

/-- The sum over the rank-4 indices whose leading coordinate is `a`: the triple sum over the other three. -/
theorem sum_lead4 {n0 n1 n2 n3 : Nat} (f : (⟨4, ![n0, n1, n2, n3]⟩ : Shape).Idx → M) (a : Fin n0)
    (p : (⟨4, ![n0, n1, n2, n3]⟩ : Shape).Idx → Prop) [DecidablePred p] (hp : ∀ i, p i ↔ i 0 = a) :
    ∑ i ∈ Finset.univ.filter p, f i = ∑ b : Fin n1, ∑ c : Fin n2, ∑ d : Fin n3, f (ix4 a b c d) := by
  rw [Finset.sum_filter, sum_idx4]
  rw [Finset.sum_eq_single a]
  · refine Finset.sum_congr rfl fun b _ => Finset.sum_congr rfl fun c _ => Finset.sum_congr rfl fun d _ => ?_
    rw [if_pos ((hp _).mpr rfl)]
  · intro a' _ ha'
    refine Finset.sum_eq_zero fun b _ => Finset.sum_eq_zero fun c _ => Finset.sum_eq_zero fun d _ => ?_
    rw [if_neg fun h => ha' ((hp _).mp h)]
  · intro h; exact absurd (Finset.mem_univ a) h

end Cert.LibIdxSums

end
-- ==== Proof.RefLoss.lean ====
/-
  The reference's loss lines, read. From the predictions and the target they take, cell by cell, the masked
  squared errors (confidence, box, classes), sum each per image, add the three per-image sums, sum over the
  16384 images and divide by 16384. Here the 70 lines are one function of the two arrays, and that function,
  over the extended reals, is the total of Proof/LossSum.lean divided by 16384.
-/
import proofs.«149325_j86758339379422_2_alg».proof.Proof.RefLines
import proofs.«149325_j86758339379422_2_alg».proof.Proof.LossSum
import proofs.«149325_j86758339379422_2_alg».proof.Proof.LibIdxSums
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Loss

open Idealize.ShloMosaic Idealize.ShloMosaic.TcCoe Idealize.SL.Sem Idealize.ShloMosaic.StableHlo
open Idealize.ShloMosaic.ValueIdx
open Cert.ReferenceIdeal Cert.ReferenceIdeal.Gen Cert.ReferenceIdeal.Lines Cert.LossSum Cert.LibIdxSums

variable {F : FTy → Type} [FloatOps F]

/-! ## The lines as one function of the two arrays -/

/-- Feature `o` of every cell of a [16384,7,7,25] array, as a [16384,7,7] array. -/
def feat (o : Nat) (X : FVec F S16384x7x7x25 .f32) (hs : S16384x7x7x25.Slices ![0, 0, 0, o] S16384x7x7x1) : FVec F S16384x7x7 .f32 :=
  shapeCast S16384x7x7 (extractStridedSlice S16384x7x7x1 ![0, 0, 0, o] X hs) shapeCasts_S16384x7x7x1_S16384x7x7

/-- A literal laid over all cells. -/
def lit (w : BitVec 32) : FVec F S16384x7x7 .f32 :=
  broadcastInDim S16384x7x7 ![] bcast_S_S16384x7x7 (constant S_ .f32 w)

/-- The cells' confidence terms. -/
def confArr (P T : FVec F S16384x7x7x25 .f32) : FVec F S16384x7x7 .f32 :=
  mulf (addf (feat 4 T slices_S16384x7x7x25_S16384x7x7x1_0_0_0_4)
      (mulf (subf (lit 0x3F800000#32) (feat 4 T slices_S16384x7x7x25_S16384x7x7x1_0_0_0_4)) (lit 0x3F000000#32)))
    (mulf (subf (feat 4 T slices_S16384x7x7x25_S16384x7x7x1_0_0_0_4) (feat 4 P slices_S16384x7x7x25_S16384x7x7x1_0_0_0_4))
      (subf (feat 4 T slices_S16384x7x7x25_S16384x7x7x1_0_0_0_4) (feat 4 P slices_S16384x7x7x25_S16384x7x7x1_0_0_0_4)))

/-- The cells' box terms. -/
def coordArr (P T : FVec F S16384x7x7x25 .f32) : FVec F S16384x7x7 .f32 :=
  mulf (mulf (feat 4 T slices_S16384x7x7x25_S16384x7x7x1_0_0_0_4)
    (addf (addf (addf
      (mulf (subf (feat 0 T slices_S16384x7x7x25_S16384x7x7x1_0_0_0_0) (feat 0 P slices_S16384x7x7x25_S16384x7x7x1_0_0_0_0))
        (subf (feat 0 T slices_S16384x7x7x25_S16384x7x7x1_0_0_0_0) (feat 0 P slices_S16384x7x7x25_S16384x7x7x1_0_0_0_0)))
      (mulf (subf (feat 1 T slices_S16384x7x7x25_S16384x7x7x1_0_0_0_1) (feat 1 P slices_S16384x7x7x25_S16384x7x7x1_0_0_0_1))
        (subf (feat 1 T slices_S16384x7x7x25_S16384x7x7x1_0_0_0_1) (feat 1 P slices_S16384x7x7x25_S16384x7x7x1_0_0_0_1))))
      (mulf (subf (Host.sqrt (feat 2 T slices_S16384x7x7x25_S16384x7x7x1_0_0_0_2)) (Host.sqrt (feat 2 P slices_S16384x7x7x25_S16384x7x7x1_0_0_0_2)))
        (subf (Host.sqrt (feat 2 T slices_S16384x7x7x25_S16384x7x7x1_0_0_0_2)) (Host.sqrt (feat 2 P slices_S16384x7x7x25_S16384x7x7x1_0_0_0_2)))))
      (mulf (subf (Host.sqrt (feat 3 T slices_S16384x7x7x25_S16384x7x7x1_0_0_0_3)) (Host.sqrt (feat 3 P slices_S16384x7x7x25_S16384x7x7x1_0_0_0_3)))
        (subf (Host.sqrt (feat 3 T slices_S16384x7x7x25_S16384x7x7x1_0_0_0_3)) (Host.sqrt (feat 3 P slices_S16384x7x7x25_S16384x7x7x1_0_0_0_3))))))
    (lit 0x40A00000#32)

/-- The cells' class terms. -/
def clsArr (P T : FVec F S16384x7x7x25 .f32) : FVec F S16384x7x7x20 .f32 :=
  mulf (broadcastInDim S16384x7x7x20 ![0, 1, 2, 3] bcast_S16384x7x7x1_S16384x7x7x20_0_1_2_3
      (broadcastInDim S16384x7x7x1 ![0, 1, 2] bcast_S16384x7x7_S16384x7x7x1_0_1_2 (feat 4 T slices_S16384x7x7x25_S16384x7x7x1_0_0_0_4)))
    (mulf (subf (extractStridedSlice S16384x7x7x20 ![0, 0, 0, 5] T slices_S16384x7x7x25_S16384x7x7x20_0_0_0_5)
        (extractStridedSlice S16384x7x7x20 ![0, 0, 0, 5] P slices_S16384x7x7x25_S16384x7x7x20_0_0_0_5))
      (subf (extractStridedSlice S16384x7x7x20 ![0, 0, 0, 5] T slices_S16384x7x7x25_S16384x7x7x20_0_0_0_5)
        (extractStridedSlice S16384x7x7x20 ![0, 0, 0, 5] P slices_S16384x7x7x25_S16384x7x7x20_0_0_0_5)))

/-- Each image's three sums, added. -/
def perImage (P T : FVec F S16384x7x7x25 .f32) : FVec F S16384 .f32 :=
  addf (addf (Host.reduceAdd (confArr P T) (constant S_ .f32 0x00000000#32) reducesTo_S16384x7x7_S16384_d1_2 h_S_)
      (Host.reduceAdd (coordArr P T) (constant S_ .f32 0x00000000#32) reducesTo_S16384x7x7_S16384_d1_2 h_S_))
    (Host.reduceAdd (clsArr P T) (constant S_ .f32 0x00000000#32) reducesTo_S16384x7x7x20_S16384_d1_2_3 h_S_)

/-- The mean over the images. -/
def meanLoss (P T : FVec F S16384x7x7x25 .f32) : FVec F S_ .f32 :=
  Host.divf (Host.reduceAdd (perImage P T) (constant S_ .f32 0x00000000#32) reducesTo_S16384_S_d0 h_S_) (constant S_ .f32 0x46800000#32)

set_option maxHeartbeats 4000000 in
/-- The 70 lines compute `meanLoss` of the predictions and the target as they stand in memory. -/
theorem lossLines_result (W : Valuation τ sig (Elt F)) :
    (after (lossLines (F := F)) W (Proc.devRef .tc main_v148) : FVec F S_ .f32)
      = meanLoss (W (Proc.devRef .tc main_arg0)) (W (Proc.devRef .tc main_v86)) := by
  simp (disch := decide) only [after_cons, after_nil,
    nullary_result', unary_result', binary_result', reshape_result',
    nullary_result_ne', unary_result_ne', binary_result_ne', reshape_result_ne']
  rfl

/-- They leave both argument arrays as they were. -/
theorem lossLines_keep (W : Valuation τ sig (Elt F)) :
    after (lossLines (F := F)) W (Proc.devRef .tc main_arg0) = W (Proc.devRef .tc main_arg0)
    ∧ after (lossLines (F := F)) W (Proc.devRef .tc main_arg1) = W (Proc.devRef .tc main_arg1) := by
  constructor <;>
  simp (disch := decide) only [after_cons, after_nil,
    nullary_result_ne', unary_result_ne', binary_result_ne', reshape_result_ne']

/-- So do the 118 lines before them. -/
theorem targetLines_keep (W : Valuation τ sig (Elt F)) :
    after (targetLines (F := F)) W (Proc.devRef .tc main_arg0) = W (Proc.devRef .tc main_arg0)
    ∧ after (targetLines (F := F)) W (Proc.devRef .tc main_arg1) = W (Proc.devRef .tc main_arg1) := by
  constructor <;>
  simp (disch := decide) only [after_cons, after_nil,
    nullary_result_ne', unary_result_ne', binary_result_ne', ternary_result_ne', reshape_result_ne', nary_result_ne']

/-! ## Read over the extended reals -/

section AtIdeal

variable (P T : FVec Ideal S16384x7x7x25 .f32)

theorem feat_apply (o : Nat) (ho : o < 25) (X : FVec Ideal S16384x7x7x25 .f32)
    (hs : S16384x7x7x25.Slices ![0, 0, 0, o] S16384x7x7x1) (B : Fin 16384) (i j : Fin 7) :
    feat o X hs (ix3 B i j) = X (ix4 B i j ⟨o, ho⟩) := by
  unfold feat
  refine (shapeCast_apply _ shapeCasts_S16384x7x7x1_S16384x7x7 (ix3 B i j) (ix4 B i j (0 : Fin 1)) ?_).trans ?_
  · rw [Shape.rowMajor_val_four, Shape.rowMajor_val_three]
    show ((B.val * 7 + i.val) * 7 + j.val) * 1 + 0 = (B.val * 7 + i.val) * 7 + j.val
    omega
  · exact extractStridedSlice_apply ![0, 0, 0, o] X hs (ix4 B i j (0 : Fin 1)) (ix4 B i j ⟨o, ho⟩) (fun a => match a with
      | ⟨0, _⟩ => by show B.val = 0 + B.val; omega
      | ⟨1, _⟩ => by show i.val = 0 + i.val; omega
      | ⟨2, _⟩ => by show j.val = 0 + j.val; omega
      | ⟨3, _⟩ => by show o = o + 0; omega)

theorem lit_apply (w : BitVec 32) (y : S16384x7x7.Idx) : lit (F := Ideal) w y = Ideal.ofBits .f32 w := rfl

theorem hostSqrt_apply {s : Shape} (v : FVec Ideal s .f32) (y : s.Idx) : Host.sqrt v y = Ideal.sqrt (v y) := rfl

theorem scores_apply (X : FVec Ideal S16384x7x7x25 .f32) (B : Fin 16384) (i j : Fin 7) (k : Fin 20) :
    extractStridedSlice S16384x7x7x20 ![0, 0, 0, 5] X slices_S16384x7x7x25_S16384x7x7x20_0_0_0_5 (ix4 B i j k) = X (ix4 B i j (clsAt k)) :=
  extractStridedSlice_apply ![0, 0, 0, 5] X _ (ix4 B i j k) (ix4 B i j (clsAt k)) (fun a => match a with
    | ⟨0, _⟩ => by show B.val = 0 + B.val; omega
    | ⟨1, _⟩ => by show i.val = 0 + i.val; omega
    | ⟨2, _⟩ => by show j.val = 0 + j.val; omega
    | ⟨3, _⟩ => by show 5 + k.val = 5 + k.val; rfl)

/-- A [16384,7,7] array laid along twenty classes. -/
theorem alongClasses_apply (v : FVec Ideal S16384x7x7 .f32) (B : Fin 16384) (i j : Fin 7) (k : Fin 20) :
    broadcastInDim S16384x7x7x20 ![0, 1, 2, 3] bcast_S16384x7x7x1_S16384x7x7x20_0_1_2_3
      (broadcastInDim S16384x7x7x1 ![0, 1, 2] bcast_S16384x7x7_S16384x7x7x1_0_1_2 v) (ix4 B i j k) = v (ix3 B i j) := by
  refine (broadcastInDim_apply _ _ _ (ix4 B i j k) (ix4 B i j (0 : Fin 1)) (fun a => match a with
      | ⟨0, _⟩ => by show B.val = if (16384 : Nat) = 1 then 0 else B.val; rw [if_neg (by decide)]
      | ⟨1, _⟩ => by show i.val = if (7 : Nat) = 1 then 0 else i.val; rw [if_neg (by decide)]
      | ⟨2, _⟩ => by show j.val = if (7 : Nat) = 1 then 0 else j.val; rw [if_neg (by decide)]
      | ⟨3, _⟩ => by show (0 : Nat) = if (1 : Nat) = 1 then 0 else k.val; rw [if_pos rfl])).trans ?_
  exact broadcastInDim_apply _ _ v (ix4 B i j (0 : Fin 1)) (ix3 B i j) (fun a => match a with
      | ⟨0, _⟩ => by show B.val = if (16384 : Nat) = 1 then 0 else B.val; rw [if_neg (by decide)]
      | ⟨1, _⟩ => by show i.val = if (7 : Nat) = 1 then 0 else i.val; rw [if_neg (by decide)]
      | ⟨2, _⟩ => by show j.val = if (7 : Nat) = 1 then 0 else j.val; rw [if_neg (by decide)])

theorem confArr_apply (B : Fin 16384) (i j : Fin 7) :
    confArr P T (ix3 B i j) = conf (imageOf P B i j) (imageOf T B i j) := by
  unfold confArr
  simp only [mulf_apply, addf_apply, subf_apply, lit_apply, feat_apply 4 (by omega)]
  rfl

theorem coordArr_apply (B : Fin 16384) (i j : Fin 7) :
    coordArr P T (ix3 B i j) = coord (imageOf P B i j) (imageOf T B i j) := by
  unfold coordArr
  simp only [mulf_apply, addf_apply, subf_apply, lit_apply, hostSqrt_apply, feat_apply 4 (by omega), feat_apply 0 (by omega),
    feat_apply 1 (by omega), feat_apply 2 (by omega), feat_apply 3 (by omega)]
  rfl

theorem clsArr_apply (B : Fin 16384) (i j : Fin 7) (k : Fin 20) :
    clsArr P T (ix4 B i j k) = cls (imageOf P B i j) (imageOf T B i j) k := by
  unfold clsArr
  simp only [mulf_apply, subf_apply, scores_apply]
  rw [alongClasses_apply, feat_apply 4 (by omega)]
  rfl

/-- Which cells a per-image sum runs over: those of that image. -/
theorem drop3_iff (i : S16384x7x7.Idx) (B : Fin 16384) :
    reducesTo_S16384x7x7_S16384_d1_2.drop i = ix1 B ↔ i 0 = B := by
  constructor
  · intro e
    apply Fin.ext
    rw [← Shape.ReducesTo.drop_apply_val_of_eq reducesTo_S16384x7x7_S16384_d1_2 i 0 0, e]
  · intro e
    funext a
    match a with
    | ⟨0, _⟩ =>
      apply Fin.ext
      exact (Shape.ReducesTo.drop_apply_val_of_eq reducesTo_S16384x7x7_S16384_d1_2 i 0 0).trans (congrArg Fin.val e)

theorem drop4_iff (i : S16384x7x7x20.Idx) (B : Fin 16384) :
    reducesTo_S16384x7x7x20_S16384_d1_2_3.drop i = ix1 B ↔ i 0 = B := by
  constructor
  · intro e
    apply Fin.ext
    rw [← Shape.ReducesTo.drop_apply_val_of_eq reducesTo_S16384x7x7x20_S16384_d1_2_3 i 0 0, e]
  · intro e
    funext a
    match a with
    | ⟨0, _⟩ =>
      apply Fin.ext
      exact (Shape.ReducesTo.drop_apply_val_of_eq reducesTo_S16384x7x7x20_S16384_d1_2_3 i 0 0).trans (congrArg Fin.val e)

/-- A per-image sum of a [16384,7,7] array. -/
theorem imageSum3 (x : FVec Ideal S16384x7x7 .f32) (B : Fin 16384) :
    Host.reduceAdd x (constant S_ .f32 0x00000000#32) reducesTo_S16384x7x7_S16384_d1_2 h_S_ (ix1 B)
      = ∑ i : Fin 7, ∑ j : Fin 7, x (ix3 B i j) := by
  show Ideal.hostReduceAdd reducesTo_S16384x7x7_S16384_d1_2 x (Ideal.ofBits .f32 0x00000000#32) (ix1 B) = _
  unfold Ideal.hostReduceAdd
  rw [Ideal.ofBits_zero_f32, zero_add, sum_lead3 x B _ (fun i => drop3_iff i B)]

/-- A per-image sum of a [16384,7,7,20] array. -/
theorem imageSum4 (x : FVec Ideal S16384x7x7x20 .f32) (B : Fin 16384) :
    Host.reduceAdd x (constant S_ .f32 0x00000000#32) reducesTo_S16384x7x7x20_S16384_d1_2_3 h_S_ (ix1 B)
      = ∑ i : Fin 7, ∑ j : Fin 7, ∑ k : Fin 20, x (ix4 B i j k) := by
  show Ideal.hostReduceAdd reducesTo_S16384x7x7x20_S16384_d1_2_3 x (Ideal.ofBits .f32 0x00000000#32) (ix1 B) = _
  unfold Ideal.hostReduceAdd
  rw [Ideal.ofBits_zero_f32, zero_add, sum_lead4 x B _ (fun i => drop4_iff i B)]

/-- An image's three sums, added, are its contribution. -/
theorem perImage_apply (B : Fin 16384) : perImage P T (ix1 B) = imageLoss (imageOf P B) (imageOf T B) := by
  unfold perImage imageLoss
  rw [addf_apply, addf_apply, imageSum3, imageSum3, imageSum4]
  simp only [confArr_apply, coordArr_apply, clsArr_apply]

/-- THE REFERENCE'S VALUE: the total over the images divided by 16384. -/
theorem meanLoss_eq : meanLoss P T = lossValue P T := by
  funext j
  unfold meanLoss lossValue
  show Ideal.div (Ideal.hostReduceAdd reducesTo_S16384_S_d0 (perImage P T) (Ideal.ofBits .f32 0x00000000#32) j) _ = _
  rw [Ideal.hostReduceAdd_total reducesTo_S16384_S_d0 (fun b => b.elim0), Ideal.ofBits_zero_f32, zero_add, sum_idx1]
  unfold totalLoss
  simp only [perImage_apply]
  rfl

end AtIdeal

end Cert.ReferenceIdeal.Loss

end
-- ==== Proof.RefResult.lean ====
/-
  The reference's result, read off its run: the loss lines' function of the predictions as launched and of the
  target array the first 118 lines built; both arguments unchanged.
-/
import proofs.«149325_j86758339379422_2_alg».proof.Proof.RefLoss

noncomputable section

namespace Cert.ReferenceIdeal.Result

open Idealize.ShloMosaic Idealize.ShloMosaic.TcCoe Idealize.SL.Sem Idealize.ShloMosaic.StableHlo
open Cert.ReferenceIdeal Cert.ReferenceIdeal.Gen Cert.ReferenceIdeal.Lines Cert.ReferenceIdeal.Loss

variable {F : FTy → Type} [FloatOps F]

/-- The run, read. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v148)
          = meanLoss (m ((c.tc : Thread nD τ).loc main_arg0)) (after targetLines (launchContents m c) (Proc.devRef .tc main_v86))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v148).trans ((lossLines_result _).trans (congrArg (fun z => meanLoss z _) (targetLines_keep (launchContents m c)).1)),
      (h c main_arg0).trans ((lossLines_keep _).1.trans (targetLines_keep (launchContents m c)).1),
      (h c main_arg1).trans ((lossLines_keep _).2.trans (targetLines_keep (launchContents m c)).2)⟩) (Lines.run m ρ)

end Cert.ReferenceIdeal.Result

end
-- ==== Proof.TargetSegments.lean ====
/-
  The lines that build the target array, cut into twelve short stretches at the same places in both programs:
  the box corners over the image size; the centres; the sizes; the cell coordinates; the offsets inside the
  cell; the flat cell index and the pairwise "same cell" table; the lower-triangular mask; the "an earlier box
  hit this cell" test; the one-hot labels; the 25 features and the flat row index; the sentinel for dropped
  boxes; the scatter into the zero table. Each program's lines are the concatenation of its stretches.
-/
import proofs.«149325_j86758339379422_2_alg».proof.Proof.IdealRegionEntry
import proofs.«149325_j86758339379422_2_alg».proof.Proof.RefLines

set_option maxRecDepth 16384

noncomputable section

namespace Cert.ReferenceIdeal.Lines

open Cert.ReferenceIdeal Cert.ReferenceIdeal.Gen Idealize.ShloMosaic Idealize.ShloMosaic.TcCoe Idealize.SL.Sem Idealize.ShloMosaic.StableHlo

variable {F : FTy → Type} [FloatOps F]

/-- The reference's lines 1 … 4. -/
abbrev tseg0 : List (HloOp τ sig (Elt F)) :=
  [ unary main_arg1 main_v0 ((extractStridedSlice S16384x8x4 ![0, 0, 0] · slices_S16384x8x5_S16384x8x4_0_0_0) : (⟨S16384x8x5, .f32⟩ : BufTy).Contents (Elt F) → (⟨S16384x8x4, .f32⟩ : BufTy).Contents (Elt F)),
    nullary main_cst (constant S_ .f32 0x43E00000#32),
    unary main_cst main_v1 (broadcastInDim S16384x8x4 ![] bcast_S_S16384x8x4 : (⟨S_, .f32⟩ : BufTy).Contents (Elt F) → (⟨S16384x8x4, .f32⟩ : BufTy).Contents (Elt F)),
    binary main_v0 main_v1 main_v2 (Host.divf : (⟨S16384x8x4, .f32⟩ : BufTy).Contents (Elt F) → (⟨S16384x8x4, .f32⟩ : BufTy).Contents (Elt F) → (⟨S16384x8x4, .f32⟩ : BufTy).Contents (Elt F)) ]

/-- The reference's lines 5 … 23. -/
abbrev tseg1 : List (HloOp τ sig (Elt F)) :=
  [ unary main_arg1 main_v3 ((extractStridedSlice S16384x8x1 ![0, 0, 4] · slices_S16384x8x5_S16384x8x1_0_0_4) : (⟨S16384x8x5, .f32⟩ : BufTy).Contents (Elt F) → (⟨S16384x8x1, .f32⟩ : BufTy).Contents (Elt F)),
    reshape main_v3 main_v4 rfl shapeCasts_S16384x8x1_S16384x8,
    unary main_v4 main_v5 (fptosi 32 : (⟨S16384x8, .f32⟩ : BufTy).Contents (Elt F) → (⟨S16384x8, .i32⟩ : BufTy).Contents (Elt F)),
    unary main_v2 main_v6 ((extractStridedSlice S16384x8x1 ![0, 0, 0] · slices_S16384x8x4_S16384x8x1_0_0_0) : (⟨S16384x8x4, .f32⟩ : BufTy).Contents (Elt F) → (⟨S16384x8x1, .f32⟩ : BufTy).Contents (Elt F)),
    reshape main_v6 main_v7 rfl shapeCasts_S16384x8x1_S16384x8,
    unary main_v2 main_v8 ((extractStridedSlice S16384x8x1 ![0, 0, 2] · slices_S16384x8x4_S16384x8x1_0_0_2) : (⟨S16384x8x4, .f32⟩ : BufTy).Contents (Elt F) → (⟨S16384x8x1, .f32⟩ : BufTy).Contents (Elt F)),
    reshape main_v8 main_v9 rfl shapeCasts_S16384x8x1_S16384x8,
    binary main_v7 main_v9 main_v10 (addf : (⟨S16384x8, .f32⟩ : BufTy).Contents (Elt F) → (⟨S16384x8, .f32⟩ : BufTy).Contents (Elt F) → (⟨S16384x8, .f32⟩ : BufTy).Contents (Elt F)),
    nullary main_cst_0 (constant S_ .f32 0x3F000000#32),
    unary main_cst_0 main_v11 (broadcastInDim S16384x8 ![] bcast_S_S16384x8 : (⟨S_, .f32⟩ : BufTy).Contents (Elt F) → (⟨S16384x8, .f32⟩ : BufTy).Contents (Elt F)),
    binary main_v10 main_v11 main_v12 (mulf : (⟨S16384x8, .f32⟩ : BufTy).Contents (Elt F) → (⟨S16384x8, .f32⟩ : BufTy).Contents (Elt F) → (⟨S16384x8, .f32⟩ : BufTy).Contents (Elt F)),
    unary main_v2 main_v13 ((extractStridedSlice S16384x8x1 ![0, 0, 1] · slices_S16384x8x4_S16384x8x1_0_0_1) : (⟨S16384x8x4, .f32⟩ : BufTy).Contents (Elt F) → (⟨S16384x8x1, .f32⟩ : BufTy).Contents (Elt F)),
    reshape main_v13 main_v14 rfl shapeCasts_S16384x8x1_S16384x8,
    unary main_v2 main_v15 ((extractStridedSlice S16384x8x1 ![0, 0, 3] · slices_S16384x8x4_S16384x8x1_0_0_3) : (⟨S16384x8x4, .f32⟩ : BufTy).Contents (Elt F) → (⟨S16384x8x1, .f32⟩ : BufTy).Contents (Elt F)),
    reshape main_v15 main_v16 rfl shapeCasts_S16384x8x1_S16384x8,
    binary main_v14 main_v16 main_v17 (addf : (⟨S16384x8, .f32⟩ : BufTy).Contents (Elt F) → (⟨S16384x8, .f32⟩ : BufTy).Contents (Elt F) → (⟨S16384x8, .f32⟩ : BufTy).Contents (Elt F)),
    nullary main_cst_1 (constant S_ .f32 0x3F000000#32),
    unary main_cst_1 main_v18 (broadcastInDim S16384x8 ![] bcast_S_S16384x8 : (⟨S_, .f32⟩ : BufTy).Contents (Elt F) → (⟨S16384x8, .f32⟩ : BufTy).Contents (Elt F)),
    binary main_v17 main_v18 main_v19 (mulf : (⟨S16384x8, .f32⟩ : BufTy).Contents (Elt F) → (⟨S16384x8, .f32⟩ : BufTy).Contents (Elt F) → (⟨S16384x8, .f32⟩ : BufTy).Contents (Elt F)) ]

/-- The reference's lines 24 … 33. -/
abbrev tseg2 : List (HloOp τ sig (Elt F)) :=
  [ unary main_v2 main_v20 ((extractStridedSlice S16384x8x1 ![0, 0, 2] · slices_S16384x8x4_S16384x8x1_0_0_2) : (⟨S16384x8x4, .f32⟩ : BufTy).Contents (Elt F) → (⟨S16384x8x1, .f32⟩ : BufTy).Contents (Elt F)),
    reshape main_v20 main_v21 rfl shapeCasts_S16384x8x1_S16384x8,
    unary main_v2 main_v22 ((extractStridedSlice S16384x8x1 ![0, 0, 0] · slices_S16384x8x4_S16384x8x1_0_0_0) : (⟨S16384x8x4, .f32⟩ : BufTy).Contents (Elt F) → (⟨S16384x8x1, .f32⟩ : BufTy).Contents (Elt F)),
    reshape main_v22 main_v23 rfl shapeCasts_S16384x8x1_S16384x8,
    binary main_v21 main_v23 main_v24 (subf : (⟨S16384x8, .f32⟩ : BufTy).Contents (Elt F) → (⟨S16384x8, .f32⟩ : BufTy).Contents (Elt F) → (⟨S16384x8, .f32⟩ : BufTy).Contents (Elt F)),
    unary main_v2 main_v25 ((extractStridedSlice S16384x8x1 ![0, 0, 3] · slices_S16384x8x4_S16384x8x1_0_0_3) : (⟨S16384x8x4, .f32⟩ : BufTy).Contents (Elt F) → (⟨S16384x8x1, .f32⟩ : BufTy).Contents (Elt F)),
    reshape main_v25 main_v26 rfl shapeCasts_S16384x8x1_S16384x8,
    unary main_v2 main_v27 ((extractStridedSlice S16384x8x1 ![0, 0, 1] · slices_S16384x8x4_S16384x8x1_0_0_1) : (⟨S16384x8x4, .f32⟩ : BufTy).Contents (Elt F) → (⟨S16384x8x1, .f32⟩ : BufTy).Contents (Elt F)),
    reshape main_v27 main_v28 rfl shapeCasts_S16384x8x1_S16384x8,
    binary main_v26 main_v28 main_v29 (subf : (⟨S16384x8, .f32⟩ : BufTy).Contents (Elt F) → (⟨S16384x8, .f32⟩ : BufTy).Contents (Elt F) → (⟨S16384x8, .f32⟩ : BufTy).Contents (Elt F)) ]

/-- The reference's lines 34 … 43. -/
abbrev tseg3 : List (HloOp τ sig (Elt F)) :=
  [ nullary main_cst_2 (constant S_ .f32 0x40E00000#32),
    unary main_cst_2 main_v30 (broadcastInDim S16384x8 ![] bcast_S_S16384x8 : (⟨S_, .f32⟩ : BufTy).Contents (Elt F) → (⟨S16384x8, .f32⟩ : BufTy).Contents (Elt F)),
    binary main_v12 main_v30 main_v31 (mulf : (⟨S16384x8, .f32⟩ : BufTy).Contents (Elt F) → (⟨S16384x8, .f32⟩ : BufTy).Contents (Elt F) → (⟨S16384x8, .f32⟩ : BufTy).Contents (Elt F)),
    unary main_v31 main_v32 (Host.floor : (⟨S16384x8, .f32⟩ : BufTy).Contents (Elt F) → (⟨S16384x8, .f32⟩ : BufTy).Contents (Elt F)),
    unary main_v32 main_v33 (fptosi 32 : (⟨S16384x8, .f32⟩ : BufTy).Contents (Elt F) → (⟨S16384x8, .i32⟩ : BufTy).Contents (Elt F)),
    nullary main_cst_3 (constant S_ .f32 0x40E00000#32),
    unary main_cst_3 main_v34 (broadcastInDim S16384x8 ![] bcast_S_S16384x8 : (⟨S_, .f32⟩ : BufTy).Contents (Elt F) → (⟨S16384x8, .f32⟩ : BufTy).Contents (Elt F)),
    binary main_v19 main_v34 main_v35 (mulf : (⟨S16384x8, .f32⟩ : BufTy).Contents (Elt F) → (⟨S16384x8, .f32⟩ : BufTy).Contents (Elt F) → (⟨S16384x8, .f32⟩ : BufTy).Contents (Elt F)),
    unary main_v35 main_v36 (Host.floor : (⟨S16384x8, .f32⟩ : BufTy).Contents (Elt F) → (⟨S16384x8, .f32⟩ : BufTy).Contents (Elt F)),
    unary main_v36 main_v37 (fptosi 32 : (⟨S16384x8, .f32⟩ : BufTy).Contents (Elt F) → (⟨S16384x8, .i32⟩ : BufTy).Contents (Elt F)) ]

/-- The reference's lines 44 … 53. -/
abbrev tseg4 : List (HloOp τ sig (Elt F)) :=
  [ nullary main_cst_4 (constant S_ .f32 0x40E00000#32),
    unary main_cst_4 main_v38 (broadcastInDim S16384x8 ![] bcast_S_S16384x8 : (⟨S_, .f32⟩ : BufTy).Contents (Elt F) → (⟨S16384x8, .f32⟩ : BufTy).Contents (Elt F)),
    binary main_v12 main_v38 main_v39 (mulf : (⟨S16384x8, .f32⟩ : BufTy).Contents (Elt F) → (⟨S16384x8, .f32⟩ : BufTy).Contents (Elt F) → (⟨S16384x8, .f32⟩ : BufTy).Contents (Elt F)),
    unary main_v33 main_v40 (sitofp .f32 : (⟨S16384x8, .i32⟩ : BufTy).Contents (Elt F) → (⟨S16384x8, .f32⟩ : BufTy).Contents (Elt F)),
    binary main_v39 main_v40 main_v41 (subf : (⟨S16384x8, .f32⟩ : BufTy).Contents (Elt F) → (⟨S16384x8, .f32⟩ : BufTy).Contents (Elt F) → (⟨S16384x8, .f32⟩ : BufTy).Contents (Elt F)),
    nullary main_cst_5 (constant S_ .f32 0x40E00000#32),
    unary main_cst_5 main_v42 (broadcastInDim S16384x8 ![] bcast_S_S16384x8 : (⟨S_, .f32⟩ : BufTy).Contents (Elt F) → (⟨S16384x8, .f32⟩ : BufTy).Contents (Elt F)),
    binary main_v19 main_v42 main_v43 (mulf : (⟨S16384x8, .f32⟩ : BufTy).Contents (Elt F) → (⟨S16384x8, .f32⟩ : BufTy).Contents (Elt F) → (⟨S16384x8, .f32⟩ : BufTy).Contents (Elt F)),
    unary main_v37 main_v44 (sitofp .f32 : (⟨S16384x8, .i32⟩ : BufTy).Contents (Elt F) → (⟨S16384x8, .f32⟩ : BufTy).Contents (Elt F)),
    binary main_v43 main_v44 main_v45 (subf : (⟨S16384x8, .f32⟩ : BufTy).Contents (Elt F) → (⟨S16384x8, .f32⟩ : BufTy).Contents (Elt F) → (⟨S16384x8, .f32⟩ : BufTy).Contents (Elt F)) ]

/-- The reference's lines 54 … 64. -/
abbrev tseg5 : List (HloOp τ sig (Elt F)) :=
  [ nullary main_c (constantI S_ 32 7#32),
    unary main_c main_v46 (broadcastInDim S16384x8 ![] bcast_S_S16384x8 : (⟨S_, .i32⟩ : BufTy).Contents (Elt F) → (⟨S16384x8, .i32⟩ : BufTy).Contents (Elt F)),
    binary main_v37 main_v46 main_v47 (muli : (⟨S16384x8, .i32⟩ : BufTy).Contents (Elt F) → (⟨S16384x8, .i32⟩ : BufTy).Contents (Elt F) → (⟨S16384x8, .i32⟩ : BufTy).Contents (Elt F)),
    binary main_v47 main_v33 main_v48 (addi : (⟨S16384x8, .i32⟩ : BufTy).Contents (Elt F) → (⟨S16384x8, .i32⟩ : BufTy).Contents (Elt F) → (⟨S16384x8, .i32⟩ : BufTy).Contents (Elt F)),
    unary main_v48 main_v49 (broadcastInDim S16384x8x1 ![0, 1] bcast_S16384x8_S16384x8x1_0_1 : (⟨S16384x8, .i32⟩ : BufTy).Contents (Elt F) → (⟨S16384x8x1, .i32⟩ : BufTy).Contents (Elt F)),
    unary main_v48 main_v50 (broadcastInDim S16384x1x8 ![0, 2] bcast_S16384x8_S16384x1x8_0_2 : (⟨S16384x8, .i32⟩ : BufTy).Contents (Elt F) → (⟨S16384x1x8, .i32⟩ : BufTy).Contents (Elt F)),
    unary main_v49 main_v51 (broadcastInDim S16384x8x8 ![0, 1, 2] bcast_S16384x8x1_S16384x8x8_0_1_2 : (⟨S16384x8x1, .i32⟩ : BufTy).Contents (Elt F) → (⟨S16384x8x8, .i32⟩ : BufTy).Contents (Elt F)),
    unary main_v50 main_v52 (broadcastInDim S16384x8x8 ![0, 1, 2] bcast_S16384x1x8_S16384x8x8_0_1_2 : (⟨S16384x1x8, .i32⟩ : BufTy).Contents (Elt F) → (⟨S16384x8x8, .i32⟩ : BufTy).Contents (Elt F)),
    binary main_v51 main_v52 main_v53 (cmpi .eq : (⟨S16384x8x8, .i32⟩ : BufTy).Contents (Elt F) → (⟨S16384x8x8, .i32⟩ : BufTy).Contents (Elt F) → (⟨S16384x8x8, .i1⟩ : BufTy).Contents (Elt F)),
    nullary main_c_6 (constantI S_ 1 1#1),
    unary main_c_6 main_v54 (broadcastInDim S8x8 ![] bcast_S_S8x8 : (⟨S_, .i1⟩ : BufTy).Contents (Elt F) → (⟨S8x8, .i1⟩ : BufTy).Contents (Elt F)) ]

/-- The reference's lines 65 … 73. -/
abbrev tseg6 : List (HloOp τ sig (Elt F)) :=
  [ TRef.nullary (TRef.of (T := ⟨S8x8, .i32⟩) main_call0_v0) (iotaInDim S8x8 32 0),
    TRef.nullary (TRef.of (T := ⟨S_, .i32⟩) main_call0_c) (constantI S_ 32 4294967295#32),
    TRef.unary (TRef.of (T := ⟨S_, .i32⟩) main_call0_c) (TRef.of (T := ⟨S8x8, .i32⟩) main_call0_v1) (broadcastInDim S8x8 ![] bcast_S_S8x8),
    TRef.binary (TRef.of (T := ⟨S8x8, .i32⟩) main_call0_v0) (TRef.of (T := ⟨S8x8, .i32⟩) main_call0_v1) (TRef.of (T := ⟨S8x8, .i32⟩) main_call0_v2) addi,
    TRef.nullary (TRef.of (T := ⟨S8x8, .i32⟩) main_call0_v3) (iotaInDim S8x8 32 1),
    TRef.binary (TRef.of (T := ⟨S8x8, .i32⟩) main_call0_v2) (TRef.of (T := ⟨S8x8, .i32⟩) main_call0_v3) (TRef.of (T := ⟨S8x8, .i1⟩) main_call0_v4) (cmpi .sge),
    TRef.nullary (TRef.of (T := ⟨S_, .i1⟩) main_call0_c_0) (constantI S_ 1 0#1),
    TRef.unary (TRef.of (T := ⟨S_, .i1⟩) main_call0_c_0) (TRef.of (T := ⟨S8x8, .i1⟩) main_call0_v5) (broadcastInDim S8x8 ![] bcast_S_S8x8),
    TRef.ternary (TRef.of (T := ⟨S8x8, .i1⟩) main_call0_v4) (TRef.of (T := ⟨S8x8, .i1⟩) main_v54) (TRef.of (T := ⟨S8x8, .i1⟩) main_call0_v5) (TRef.of (T := ⟨S8x8, .i1⟩) main_v55) select ]

/-- The reference's lines 74 … 79. -/
abbrev tseg7 : List (HloOp τ sig (Elt F)) :=
  [ unary main_v55 main_v56 (broadcastInDim S1x8x8 ![1, 2] bcast_S8x8_S1x8x8_1_2 : (⟨S8x8, .i1⟩ : BufTy).Contents (Elt F) → (⟨S1x8x8, .i1⟩ : BufTy).Contents (Elt F)),
    unary main_v56 main_v57 (broadcastInDim S16384x8x8 ![0, 1, 2] bcast_S1x8x8_S16384x8x8_0_1_2 : (⟨S1x8x8, .i1⟩ : BufTy).Contents (Elt F) → (⟨S16384x8x8, .i1⟩ : BufTy).Contents (Elt F)),
    binary main_v53 main_v57 main_v58 (andi : (⟨S16384x8x8, .i1⟩ : BufTy).Contents (Elt F) → (⟨S16384x8x8, .i1⟩ : BufTy).Contents (Elt F) → (⟨S16384x8x8, .i1⟩ : BufTy).Contents (Elt F)),
    nullary main_c_7 (constantI S_ 1 0#1),
    binary main_v58 main_c_7 main_v59 ((fun x v => Host.reduce IntOp.ori x v reducesTo_S16384x8x8_S16384x8_d2 h_S_) : (⟨S16384x8x8, .i1⟩ : BufTy).Contents (Elt F) → (⟨S_, .i1⟩ : BufTy).Contents (Elt F) → (⟨S16384x8, .i1⟩ : BufTy).Contents (Elt F)),
    unary main_v59 main_v60 (noti : (⟨S16384x8, .i1⟩ : BufTy).Contents (Elt F) → (⟨S16384x8, .i1⟩ : BufTy).Contents (Elt F)) ]

/-- The reference's lines 80 … 85. -/
abbrev tseg8 : List (HloOp τ sig (Elt F)) :=
  [ TRef.unary (TRef.of (T := ⟨S16384x8, .i32⟩) main_v5) (TRef.of (T := ⟨S16384x8x1, .i32⟩) main_call1_v0) (broadcastInDim S16384x8x1 ![0, 1] bcast_S16384x8_S16384x8x1_0_1),
    TRef.nullary (TRef.of (T := ⟨S1x1x20, .i32⟩) main_call1_v1) (iotaInDim S1x1x20 32 2),
    TRef.unary (TRef.of (T := ⟨S16384x8x1, .i32⟩) main_call1_v0) (TRef.of (T := ⟨S16384x8x20, .i32⟩) main_call1_v2) (broadcastInDim S16384x8x20 ![0, 1, 2] bcast_S16384x8x1_S16384x8x20_0_1_2),
    TRef.unary (TRef.of (T := ⟨S1x1x20, .i32⟩) main_call1_v1) (TRef.of (T := ⟨S16384x8x20, .i32⟩) main_call1_v3) (broadcastInDim S16384x8x20 ![0, 1, 2] bcast_S1x1x20_S16384x8x20_0_1_2),
    TRef.binary (TRef.of (T := ⟨S16384x8x20, .i32⟩) main_call1_v2) (TRef.of (T := ⟨S16384x8x20, .i32⟩) main_call1_v3) (TRef.of (T := ⟨S16384x8x20, .i1⟩) main_call1_v4) (cmpi .eq),
    TRef.unary (TRef.of (T := ⟨S16384x8x20, .i1⟩) main_call1_v4) (TRef.of (T := ⟨S16384x8x20, .f32⟩) main_v61) (uitofp .f32) ]

/-- The reference's lines 86 … 101. -/
abbrev tseg9 : List (HloOp τ sig (Elt F)) :=
  [ unary main_v41 main_v62 (broadcastInDim S16384x8x1 ![0, 1] bcast_S16384x8_S16384x8x1_0_1 : (⟨S16384x8, .f32⟩ : BufTy).Contents (Elt F) → (⟨S16384x8x1, .f32⟩ : BufTy).Contents (Elt F)),
    unary main_v45 main_v63 (broadcastInDim S16384x8x1 ![0, 1] bcast_S16384x8_S16384x8x1_0_1 : (⟨S16384x8, .f32⟩ : BufTy).Contents (Elt F) → (⟨S16384x8x1, .f32⟩ : BufTy).Contents (Elt F)),
    unary main_v24 main_v64 (broadcastInDim S16384x8x1 ![0, 1] bcast_S16384x8_S16384x8x1_0_1 : (⟨S16384x8, .f32⟩ : BufTy).Contents (Elt F) → (⟨S16384x8x1, .f32⟩ : BufTy).Contents (Elt F)),
    unary main_v29 main_v65 (broadcastInDim S16384x8x1 ![0, 1] bcast_S16384x8_S16384x8x1_0_1 : (⟨S16384x8, .f32⟩ : BufTy).Contents (Elt F) → (⟨S16384x8x1, .f32⟩ : BufTy).Contents (Elt F)),
    nullary main_cst_8 (constant S_ .f32 0x3F800000#32),
    unary main_cst_8 main_v66 (broadcastInDim S16384x8 ![] bcast_S_S16384x8 : (⟨S_, .f32⟩ : BufTy).Contents (Elt F) → (⟨S16384x8, .f32⟩ : BufTy).Contents (Elt F)),
    unary main_v66 main_v67 (broadcastInDim S16384x8x1 ![0, 1] bcast_S16384x8_S16384x8x1_0_1 : (⟨S16384x8, .f32⟩ : BufTy).Contents (Elt F) → (⟨S16384x8x1, .f32⟩ : BufTy).Contents (Elt F)),
    nary ![main_v62, main_v63, main_v64, main_v65, main_v67, main_v61] main_v68 (fun u => concatenate S16384x8x25 2 [⟨S16384x8x1, u 0⟩, ⟨S16384x8x1, u 1⟩, ⟨S16384x8x1, u 2⟩, ⟨S16384x8x1, u 3⟩, ⟨S16384x8x1, u 4⟩, ⟨S16384x8x20, u 5⟩] concatenates_S16384x8x1_S16384x8x1_S16384x8x1_S16384x8x1_S16384x8x1_S16384x8x20_S16384x8x25_d2),
    nullary main_v69 (iotaInDim S16384 32 0),
    unary main_v69 main_v70 (broadcastInDim S16384x1 ![0] bcast_S16384_S16384x1_0 : (⟨S16384, .i32⟩ : BufTy).Contents (Elt F) → (⟨S16384x1, .i32⟩ : BufTy).Contents (Elt F)),
    nullary main_c_9 (constantI S_ 32 49#32),
    unary main_c_9 main_v71 (broadcastInDim S16384x1 ![] bcast_S_S16384x1 : (⟨S_, .i32⟩ : BufTy).Contents (Elt F) → (⟨S16384x1, .i32⟩ : BufTy).Contents (Elt F)),
    binary main_v70 main_v71 main_v72 (muli : (⟨S16384x1, .i32⟩ : BufTy).Contents (Elt F) → (⟨S16384x1, .i32⟩ : BufTy).Contents (Elt F) → (⟨S16384x1, .i32⟩ : BufTy).Contents (Elt F)),
    unary main_v72 main_v73 (broadcastInDim S16384x8 ![0, 1] bcast_S16384x1_S16384x8_0_1 : (⟨S16384x1, .i32⟩ : BufTy).Contents (Elt F) → (⟨S16384x8, .i32⟩ : BufTy).Contents (Elt F)),
    binary main_v73 main_v48 main_v74 (addi : (⟨S16384x8, .i32⟩ : BufTy).Contents (Elt F) → (⟨S16384x8, .i32⟩ : BufTy).Contents (Elt F) → (⟨S16384x8, .i32⟩ : BufTy).Contents (Elt F)),
    nullary main_c_10 (constantI S_ 32 802816#32) ]

/-- The reference's lines 102 … 104. -/
abbrev tseg10 : List (HloOp τ sig (Elt F)) :=
  [ TRef.unary (TRef.of (T := ⟨S_, .i32⟩) main_c_10) (TRef.of (T := ⟨S_, .i32⟩) main_call2_v0) id,
    TRef.unary (TRef.of (T := ⟨S_, .i32⟩) main_call2_v0) (TRef.of (T := ⟨S16384x8, .i32⟩) main_call2_v1) (broadcastInDim S16384x8 ![] bcast_S_S16384x8),
    TRef.ternary (TRef.of (T := ⟨S16384x8, .i1⟩) main_v60) (TRef.of (T := ⟨S16384x8, .i32⟩) main_v74) (TRef.of (T := ⟨S16384x8, .i32⟩) main_call2_v1) (TRef.of (T := ⟨S16384x8, .i32⟩) main_v75) select ]

/-- The reference's lines 105 … 118. -/
abbrev tseg11 : List (HloOp τ sig (Elt F)) :=
  [ nullary main_cst_11 (constant S_ .f32 0x00000000#32),
    unary main_cst_11 main_v76 (broadcastInDim S802816x25 ![] bcast_S_S802816x25 : (⟨S_, .f32⟩ : BufTy).Contents (Elt F) → (⟨S802816x25, .f32⟩ : BufTy).Contents (Elt F)),
    reshape main_v75 main_v77 rfl shapeCasts_S16384x8_S131072,
    reshape main_v68 main_v78 rfl shapeCasts_S16384x8x25_S131072x25,
    nullary main_c_12 (constantI S_ 32 0#32),
    unary main_c_12 main_v79 (broadcastInDim S131072 ![] bcast_S_S131072 : (⟨S_, .i32⟩ : BufTy).Contents (Elt F) → (⟨S131072, .i32⟩ : BufTy).Contents (Elt F)),
    binary main_v77 main_v79 main_v80 (cmpi .slt : (⟨S131072, .i32⟩ : BufTy).Contents (Elt F) → (⟨S131072, .i32⟩ : BufTy).Contents (Elt F) → (⟨S131072, .i1⟩ : BufTy).Contents (Elt F)),
    nullary main_c_13 (constantI S_ 32 802816#32),
    unary main_c_13 main_v81 (broadcastInDim S131072 ![] bcast_S_S131072 : (⟨S_, .i32⟩ : BufTy).Contents (Elt F) → (⟨S131072, .i32⟩ : BufTy).Contents (Elt F)),
    binary main_v77 main_v81 main_v82 (addi : (⟨S131072, .i32⟩ : BufTy).Contents (Elt F) → (⟨S131072, .i32⟩ : BufTy).Contents (Elt F) → (⟨S131072, .i32⟩ : BufTy).Contents (Elt F)),
    ternary main_v80 main_v82 main_v77 main_v83 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v83 main_v84 (broadcastInDim S131072x1 ![0] bcast_S131072_S131072x1_0 : (⟨S131072, .i32⟩ : BufTy).Contents (Elt F) → (⟨S131072x1, .i32⟩ : BufTy).Contents (Elt F)),
    ternary main_v76 main_v84 main_v78 main_v85 ((fun x i u => Host.scatter scatter_S802816x25_S131072x1_S131072x25_1_0_0_1 (fun _ b => b) x i u) : (⟨S802816x25, .f32⟩ : BufTy).Contents (Elt F) → (⟨S131072x1, .i32⟩ : BufTy).Contents (Elt F) → (⟨S131072x25, .f32⟩ : BufTy).Contents (Elt F) → (⟨S802816x25, .f32⟩ : BufTy).Contents (Elt F)),
    reshape main_v85 main_v86 rfl shapeCasts_S802816x25_S16384x7x7x25 ]

theorem targetLines_split : (targetLines : List (HloOp τ sig (Elt F))) = tseg0 ++ (tseg1 ++ (tseg2 ++ (tseg3 ++ (tseg4 ++ (tseg5 ++ (tseg6 ++ (tseg7 ++ (tseg8 ++ (tseg9 ++ (tseg10 ++ (tseg11))))))))))) := rfl

end Cert.ReferenceIdeal.Lines

namespace Cert.KernelIdeal.Accum

open Cert.KernelIdeal Cert.KernelIdeal.Gen Idealize.ShloMosaic Idealize.ShloMosaic.TcCoe Idealize.SL.Sem

variable {F : FTy → Type} [FloatOps F]

/-- The kernel program's lines 1 … 4 before its region. -/
abbrev bseg0 : List (HloOp τ sig (Elt F)) :=
  [ StableHlo.unary main_arg1 main_v0 ((extractStridedSlice S16384x8x4 ![0, 0, 0] · slices_S16384x8x5_S16384x8x4_0_0_0) : (⟨S16384x8x5, .f32⟩ : BufTy).Contents (Elt F) → (⟨S16384x8x4, .f32⟩ : BufTy).Contents (Elt F)),
    StableHlo.nullary main_cst (constant S_ .f32 0x43E00000#32),
    StableHlo.unary main_cst main_v1 (broadcastInDim S16384x8x4 ![] bcast_S_S16384x8x4 : (⟨S_, .f32⟩ : BufTy).Contents (Elt F) → (⟨S16384x8x4, .f32⟩ : BufTy).Contents (Elt F)),
    StableHlo.binary main_v0 main_v1 main_v2 (Host.divf : (⟨S16384x8x4, .f32⟩ : BufTy).Contents (Elt F) → (⟨S16384x8x4, .f32⟩ : BufTy).Contents (Elt F) → (⟨S16384x8x4, .f32⟩ : BufTy).Contents (Elt F)) ]

/-- The kernel program's lines 5 … 23 before its region. -/
abbrev bseg1 : List (HloOp τ sig (Elt F)) :=
  [ StableHlo.unary main_arg1 main_v3 ((extractStridedSlice S16384x8x1 ![0, 0, 4] · slices_S16384x8x5_S16384x8x1_0_0_4) : (⟨S16384x8x5, .f32⟩ : BufTy).Contents (Elt F) → (⟨S16384x8x1, .f32⟩ : BufTy).Contents (Elt F)),
    StableHlo.reshape main_v3 main_v4 rfl shapeCasts_S16384x8x1_S16384x8,
    StableHlo.unary main_v4 main_v5 (fptosi 32 : (⟨S16384x8, .f32⟩ : BufTy).Contents (Elt F) → (⟨S16384x8, .i32⟩ : BufTy).Contents (Elt F)),
    StableHlo.unary main_v2 main_v6 ((extractStridedSlice S16384x8x1 ![0, 0, 0] · slices_S16384x8x4_S16384x8x1_0_0_0) : (⟨S16384x8x4, .f32⟩ : BufTy).Contents (Elt F) → (⟨S16384x8x1, .f32⟩ : BufTy).Contents (Elt F)),
    StableHlo.reshape main_v6 main_v7 rfl shapeCasts_S16384x8x1_S16384x8,
    StableHlo.unary main_v2 main_v8 ((extractStridedSlice S16384x8x1 ![0, 0, 2] · slices_S16384x8x4_S16384x8x1_0_0_2) : (⟨S16384x8x4, .f32⟩ : BufTy).Contents (Elt F) → (⟨S16384x8x1, .f32⟩ : BufTy).Contents (Elt F)),
    StableHlo.reshape main_v8 main_v9 rfl shapeCasts_S16384x8x1_S16384x8,
    StableHlo.binary main_v7 main_v9 main_v10 (addf : (⟨S16384x8, .f32⟩ : BufTy).Contents (Elt F) → (⟨S16384x8, .f32⟩ : BufTy).Contents (Elt F) → (⟨S16384x8, .f32⟩ : BufTy).Contents (Elt F)),
    StableHlo.nullary main_cst_0 (constant S_ .f32 0x3F000000#32),
    StableHlo.unary main_cst_0 main_v11 (broadcastInDim S16384x8 ![] bcast_S_S16384x8 : (⟨S_, .f32⟩ : BufTy).Contents (Elt F) → (⟨S16384x8, .f32⟩ : BufTy).Contents (Elt F)),
    StableHlo.binary main_v10 main_v11 main_v12 (mulf : (⟨S16384x8, .f32⟩ : BufTy).Contents (Elt F) → (⟨S16384x8, .f32⟩ : BufTy).Contents (Elt F) → (⟨S16384x8, .f32⟩ : BufTy).Contents (Elt F)),
    StableHlo.unary main_v2 main_v13 ((extractStridedSlice S16384x8x1 ![0, 0, 1] · slices_S16384x8x4_S16384x8x1_0_0_1) : (⟨S16384x8x4, .f32⟩ : BufTy).Contents (Elt F) → (⟨S16384x8x1, .f32⟩ : BufTy).Contents (Elt F)),
    StableHlo.reshape main_v13 main_v14 rfl shapeCasts_S16384x8x1_S16384x8,
    StableHlo.unary main_v2 main_v15 ((extractStridedSlice S16384x8x1 ![0, 0, 3] · slices_S16384x8x4_S16384x8x1_0_0_3) : (⟨S16384x8x4, .f32⟩ : BufTy).Contents (Elt F) → (⟨S16384x8x1, .f32⟩ : BufTy).Contents (Elt F)),
    StableHlo.reshape main_v15 main_v16 rfl shapeCasts_S16384x8x1_S16384x8,
    StableHlo.binary main_v14 main_v16 main_v17 (addf : (⟨S16384x8, .f32⟩ : BufTy).Contents (Elt F) → (⟨S16384x8, .f32⟩ : BufTy).Contents (Elt F) → (⟨S16384x8, .f32⟩ : BufTy).Contents (Elt F)),
    StableHlo.nullary main_cst_1 (constant S_ .f32 0x3F000000#32),
    StableHlo.unary main_cst_1 main_v18 (broadcastInDim S16384x8 ![] bcast_S_S16384x8 : (⟨S_, .f32⟩ : BufTy).Contents (Elt F) → (⟨S16384x8, .f32⟩ : BufTy).Contents (Elt F)),
    StableHlo.binary main_v17 main_v18 main_v19 (mulf : (⟨S16384x8, .f32⟩ : BufTy).Contents (Elt F) → (⟨S16384x8, .f32⟩ : BufTy).Contents (Elt F) → (⟨S16384x8, .f32⟩ : BufTy).Contents (Elt F)) ]

/-- The kernel program's lines 24 … 33 before its region. -/
abbrev bseg2 : List (HloOp τ sig (Elt F)) :=
  [ StableHlo.unary main_v2 main_v20 ((extractStridedSlice S16384x8x1 ![0, 0, 2] · slices_S16384x8x4_S16384x8x1_0_0_2) : (⟨S16384x8x4, .f32⟩ : BufTy).Contents (Elt F) → (⟨S16384x8x1, .f32⟩ : BufTy).Contents (Elt F)),
    StableHlo.reshape main_v20 main_v21 rfl shapeCasts_S16384x8x1_S16384x8,
    StableHlo.unary main_v2 main_v22 ((extractStridedSlice S16384x8x1 ![0, 0, 0] · slices_S16384x8x4_S16384x8x1_0_0_0) : (⟨S16384x8x4, .f32⟩ : BufTy).Contents (Elt F) → (⟨S16384x8x1, .f32⟩ : BufTy).Contents (Elt F)),
    StableHlo.reshape main_v22 main_v23 rfl shapeCasts_S16384x8x1_S16384x8,
    StableHlo.binary main_v21 main_v23 main_v24 (subf : (⟨S16384x8, .f32⟩ : BufTy).Contents (Elt F) → (⟨S16384x8, .f32⟩ : BufTy).Contents (Elt F) → (⟨S16384x8, .f32⟩ : BufTy).Contents (Elt F)),
    StableHlo.unary main_v2 main_v25 ((extractStridedSlice S16384x8x1 ![0, 0, 3] · slices_S16384x8x4_S16384x8x1_0_0_3) : (⟨S16384x8x4, .f32⟩ : BufTy).Contents (Elt F) → (⟨S16384x8x1, .f32⟩ : BufTy).Contents (Elt F)),
    StableHlo.reshape main_v25 main_v26 rfl shapeCasts_S16384x8x1_S16384x8,
    StableHlo.unary main_v2 main_v27 ((extractStridedSlice S16384x8x1 ![0, 0, 1] · slices_S16384x8x4_S16384x8x1_0_0_1) : (⟨S16384x8x4, .f32⟩ : BufTy).Contents (Elt F) → (⟨S16384x8x1, .f32⟩ : BufTy).Contents (Elt F)),
    StableHlo.reshape main_v27 main_v28 rfl shapeCasts_S16384x8x1_S16384x8,
    StableHlo.binary main_v26 main_v28 main_v29 (subf : (⟨S16384x8, .f32⟩ : BufTy).Contents (Elt F) → (⟨S16384x8, .f32⟩ : BufTy).Contents (Elt F) → (⟨S16384x8, .f32⟩ : BufTy).Contents (Elt F)) ]

/-- The kernel program's lines 34 … 43 before its region. -/
abbrev bseg3 : List (HloOp τ sig (Elt F)) :=
  [ StableHlo.nullary main_cst_2 (constant S_ .f32 0x40E00000#32),
    StableHlo.unary main_cst_2 main_v30 (broadcastInDim S16384x8 ![] bcast_S_S16384x8 : (⟨S_, .f32⟩ : BufTy).Contents (Elt F) → (⟨S16384x8, .f32⟩ : BufTy).Contents (Elt F)),
    StableHlo.binary main_v12 main_v30 main_v31 (mulf : (⟨S16384x8, .f32⟩ : BufTy).Contents (Elt F) → (⟨S16384x8, .f32⟩ : BufTy).Contents (Elt F) → (⟨S16384x8, .f32⟩ : BufTy).Contents (Elt F)),
    StableHlo.unary main_v31 main_v32 (Host.floor : (⟨S16384x8, .f32⟩ : BufTy).Contents (Elt F) → (⟨S16384x8, .f32⟩ : BufTy).Contents (Elt F)),
    StableHlo.unary main_v32 main_v33 (fptosi 32 : (⟨S16384x8, .f32⟩ : BufTy).Contents (Elt F) → (⟨S16384x8, .i32⟩ : BufTy).Contents (Elt F)),
    StableHlo.nullary main_cst_3 (constant S_ .f32 0x40E00000#32),
    StableHlo.unary main_cst_3 main_v34 (broadcastInDim S16384x8 ![] bcast_S_S16384x8 : (⟨S_, .f32⟩ : BufTy).Contents (Elt F) → (⟨S16384x8, .f32⟩ : BufTy).Contents (Elt F)),
    StableHlo.binary main_v19 main_v34 main_v35 (mulf : (⟨S16384x8, .f32⟩ : BufTy).Contents (Elt F) → (⟨S16384x8, .f32⟩ : BufTy).Contents (Elt F) → (⟨S16384x8, .f32⟩ : BufTy).Contents (Elt F)),
    StableHlo.unary main_v35 main_v36 (Host.floor : (⟨S16384x8, .f32⟩ : BufTy).Contents (Elt F) → (⟨S16384x8, .f32⟩ : BufTy).Contents (Elt F)),
    StableHlo.unary main_v36 main_v37 (fptosi 32 : (⟨S16384x8, .f32⟩ : BufTy).Contents (Elt F) → (⟨S16384x8, .i32⟩ : BufTy).Contents (Elt F)) ]

/-- The kernel program's lines 44 … 53 before its region. -/
abbrev bseg4 : List (HloOp τ sig (Elt F)) :=
  [ StableHlo.nullary main_cst_4 (constant S_ .f32 0x40E00000#32),
    StableHlo.unary main_cst_4 main_v38 (broadcastInDim S16384x8 ![] bcast_S_S16384x8 : (⟨S_, .f32⟩ : BufTy).Contents (Elt F) → (⟨S16384x8, .f32⟩ : BufTy).Contents (Elt F)),
    StableHlo.binary main_v12 main_v38 main_v39 (mulf : (⟨S16384x8, .f32⟩ : BufTy).Contents (Elt F) → (⟨S16384x8, .f32⟩ : BufTy).Contents (Elt F) → (⟨S16384x8, .f32⟩ : BufTy).Contents (Elt F)),
    StableHlo.unary main_v33 main_v40 (sitofp .f32 : (⟨S16384x8, .i32⟩ : BufTy).Contents (Elt F) → (⟨S16384x8, .f32⟩ : BufTy).Contents (Elt F)),
    StableHlo.binary main_v39 main_v40 main_v41 (subf : (⟨S16384x8, .f32⟩ : BufTy).Contents (Elt F) → (⟨S16384x8, .f32⟩ : BufTy).Contents (Elt F) → (⟨S16384x8, .f32⟩ : BufTy).Contents (Elt F)),
    StableHlo.nullary main_cst_5 (constant S_ .f32 0x40E00000#32),
    StableHlo.unary main_cst_5 main_v42 (broadcastInDim S16384x8 ![] bcast_S_S16384x8 : (⟨S_, .f32⟩ : BufTy).Contents (Elt F) → (⟨S16384x8, .f32⟩ : BufTy).Contents (Elt F)),
    StableHlo.binary main_v19 main_v42 main_v43 (mulf : (⟨S16384x8, .f32⟩ : BufTy).Contents (Elt F) → (⟨S16384x8, .f32⟩ : BufTy).Contents (Elt F) → (⟨S16384x8, .f32⟩ : BufTy).Contents (Elt F)),
    StableHlo.unary main_v37 main_v44 (sitofp .f32 : (⟨S16384x8, .i32⟩ : BufTy).Contents (Elt F) → (⟨S16384x8, .f32⟩ : BufTy).Contents (Elt F)),
    StableHlo.binary main_v43 main_v44 main_v45 (subf : (⟨S16384x8, .f32⟩ : BufTy).Contents (Elt F) → (⟨S16384x8, .f32⟩ : BufTy).Contents (Elt F) → (⟨S16384x8, .f32⟩ : BufTy).Contents (Elt F)) ]

/-- The kernel program's lines 54 … 64 before its region. -/
abbrev bseg5 : List (HloOp τ sig (Elt F)) :=
  [ StableHlo.nullary main_c (constantI S_ 32 7#32),
    StableHlo.unary main_c main_v46 (broadcastInDim S16384x8 ![] bcast_S_S16384x8 : (⟨S_, .i32⟩ : BufTy).Contents (Elt F) → (⟨S16384x8, .i32⟩ : BufTy).Contents (Elt F)),
    StableHlo.binary main_v37 main_v46 main_v47 (muli : (⟨S16384x8, .i32⟩ : BufTy).Contents (Elt F) → (⟨S16384x8, .i32⟩ : BufTy).Contents (Elt F) → (⟨S16384x8, .i32⟩ : BufTy).Contents (Elt F)),
    StableHlo.binary main_v47 main_v33 main_v48 (addi : (⟨S16384x8, .i32⟩ : BufTy).Contents (Elt F) → (⟨S16384x8, .i32⟩ : BufTy).Contents (Elt F) → (⟨S16384x8, .i32⟩ : BufTy).Contents (Elt F)),
    StableHlo.unary main_v48 main_v49 (broadcastInDim S16384x8x1 ![0, 1] bcast_S16384x8_S16384x8x1_0_1 : (⟨S16384x8, .i32⟩ : BufTy).Contents (Elt F) → (⟨S16384x8x1, .i32⟩ : BufTy).Contents (Elt F)),
    StableHlo.unary main_v48 main_v50 (broadcastInDim S16384x1x8 ![0, 2] bcast_S16384x8_S16384x1x8_0_2 : (⟨S16384x8, .i32⟩ : BufTy).Contents (Elt F) → (⟨S16384x1x8, .i32⟩ : BufTy).Contents (Elt F)),
    StableHlo.unary main_v49 main_v51 (broadcastInDim S16384x8x8 ![0, 1, 2] bcast_S16384x8x1_S16384x8x8_0_1_2 : (⟨S16384x8x1, .i32⟩ : BufTy).Contents (Elt F) → (⟨S16384x8x8, .i32⟩ : BufTy).Contents (Elt F)),
    StableHlo.unary main_v50 main_v52 (broadcastInDim S16384x8x8 ![0, 1, 2] bcast_S16384x1x8_S16384x8x8_0_1_2 : (⟨S16384x1x8, .i32⟩ : BufTy).Contents (Elt F) → (⟨S16384x8x8, .i32⟩ : BufTy).Contents (Elt F)),
    StableHlo.binary main_v51 main_v52 main_v53 (cmpi .eq : (⟨S16384x8x8, .i32⟩ : BufTy).Contents (Elt F) → (⟨S16384x8x8, .i32⟩ : BufTy).Contents (Elt F) → (⟨S16384x8x8, .i1⟩ : BufTy).Contents (Elt F)),
    StableHlo.nullary main_c_6 (constantI S_ 1 1#1),
    StableHlo.unary main_c_6 main_v54 (broadcastInDim S8x8 ![] bcast_S_S8x8 : (⟨S_, .i1⟩ : BufTy).Contents (Elt F) → (⟨S8x8, .i1⟩ : BufTy).Contents (Elt F)) ]

/-- The kernel program's lines 65 … 73 before its region. -/
abbrev bseg6 : List (HloOp τ sig (Elt F)) :=
  [ StableHlo.TRef.nullary (.of main_call0_v0 : StableHlo.TRef sig ⟨S8x8, .i32⟩) (iotaInDim S8x8 32 0),
    StableHlo.TRef.nullary (.of main_call0_c : StableHlo.TRef sig ⟨S_, .i32⟩) (constantI S_ 32 4294967295#32),
    StableHlo.TRef.unary (.of main_call0_c : StableHlo.TRef sig ⟨S_, .i32⟩) (.of main_call0_v1 : StableHlo.TRef sig ⟨S8x8, .i32⟩) (broadcastInDim S8x8 ![] bcast_S_S8x8),
    StableHlo.TRef.binary (.of main_call0_v0 : StableHlo.TRef sig ⟨S8x8, .i32⟩) (.of main_call0_v1 : StableHlo.TRef sig ⟨S8x8, .i32⟩) (.of main_call0_v2 : StableHlo.TRef sig ⟨S8x8, .i32⟩) addi,
    StableHlo.TRef.nullary (.of main_call0_v3 : StableHlo.TRef sig ⟨S8x8, .i32⟩) (iotaInDim S8x8 32 1),
    StableHlo.TRef.binary (.of main_call0_v2 : StableHlo.TRef sig ⟨S8x8, .i32⟩) (.of main_call0_v3 : StableHlo.TRef sig ⟨S8x8, .i32⟩) (.of main_call0_v4 : StableHlo.TRef sig ⟨S8x8, .i1⟩) (cmpi .sge),
    StableHlo.TRef.nullary (.of main_call0_c_0 : StableHlo.TRef sig ⟨S_, .i1⟩) (constantI S_ 1 0#1),
    StableHlo.TRef.unary (.of main_call0_c_0 : StableHlo.TRef sig ⟨S_, .i1⟩) (.of main_call0_v5 : StableHlo.TRef sig ⟨S8x8, .i1⟩) (broadcastInDim S8x8 ![] bcast_S_S8x8),
    StableHlo.TRef.ternary (.of main_call0_v4 : StableHlo.TRef sig ⟨S8x8, .i1⟩) (.of main_v54 : StableHlo.TRef sig ⟨S8x8, .i1⟩) (.of main_call0_v5 : StableHlo.TRef sig ⟨S8x8, .i1⟩) (.of main_v55 : StableHlo.TRef sig ⟨S8x8, .i1⟩) select ]

/-- The kernel program's lines 74 … 79 before its region. -/
abbrev bseg7 : List (HloOp τ sig (Elt F)) :=
  [ StableHlo.unary main_v55 main_v56 (broadcastInDim S1x8x8 ![1, 2] bcast_S8x8_S1x8x8_1_2 : (⟨S8x8, .i1⟩ : BufTy).Contents (Elt F) → (⟨S1x8x8, .i1⟩ : BufTy).Contents (Elt F)),
    StableHlo.unary main_v56 main_v57 (broadcastInDim S16384x8x8 ![0, 1, 2] bcast_S1x8x8_S16384x8x8_0_1_2 : (⟨S1x8x8, .i1⟩ : BufTy).Contents (Elt F) → (⟨S16384x8x8, .i1⟩ : BufTy).Contents (Elt F)),
    StableHlo.binary main_v53 main_v57 main_v58 (andi : (⟨S16384x8x8, .i1⟩ : BufTy).Contents (Elt F) → (⟨S16384x8x8, .i1⟩ : BufTy).Contents (Elt F) → (⟨S16384x8x8, .i1⟩ : BufTy).Contents (Elt F)),
    StableHlo.nullary main_c_7 (constantI S_ 1 0#1),
    StableHlo.binary main_v58 main_c_7 main_v59 ((fun x v => Host.reduce IntOp.ori x v reducesTo_S16384x8x8_S16384x8_d2 h_S_) : (⟨S16384x8x8, .i1⟩ : BufTy).Contents (Elt F) → (⟨S_, .i1⟩ : BufTy).Contents (Elt F) → (⟨S16384x8, .i1⟩ : BufTy).Contents (Elt F)),
    StableHlo.unary main_v59 main_v60 (noti : (⟨S16384x8, .i1⟩ : BufTy).Contents (Elt F) → (⟨S16384x8, .i1⟩ : BufTy).Contents (Elt F)) ]

/-- The kernel program's lines 80 … 85 before its region. -/
abbrev bseg8 : List (HloOp τ sig (Elt F)) :=
  [ StableHlo.TRef.unary (.of main_v5 : StableHlo.TRef sig ⟨S16384x8, .i32⟩) (.of main_call1_v0 : StableHlo.TRef sig ⟨S16384x8x1, .i32⟩) (broadcastInDim S16384x8x1 ![0, 1] bcast_S16384x8_S16384x8x1_0_1),
    StableHlo.TRef.nullary (.of main_call1_v1 : StableHlo.TRef sig ⟨S1x1x20, .i32⟩) (iotaInDim S1x1x20 32 2),
    StableHlo.TRef.unary (.of main_call1_v0 : StableHlo.TRef sig ⟨S16384x8x1, .i32⟩) (.of main_call1_v2 : StableHlo.TRef sig ⟨S16384x8x20, .i32⟩) (broadcastInDim S16384x8x20 ![0, 1, 2] bcast_S16384x8x1_S16384x8x20_0_1_2),
    StableHlo.TRef.unary (.of main_call1_v1 : StableHlo.TRef sig ⟨S1x1x20, .i32⟩) (.of main_call1_v3 : StableHlo.TRef sig ⟨S16384x8x20, .i32⟩) (broadcastInDim S16384x8x20 ![0, 1, 2] bcast_S1x1x20_S16384x8x20_0_1_2),
    StableHlo.TRef.binary (.of main_call1_v2 : StableHlo.TRef sig ⟨S16384x8x20, .i32⟩) (.of main_call1_v3 : StableHlo.TRef sig ⟨S16384x8x20, .i32⟩) (.of main_call1_v4 : StableHlo.TRef sig ⟨S16384x8x20, .i1⟩) (cmpi .eq),
    StableHlo.TRef.unary (.of main_call1_v4 : StableHlo.TRef sig ⟨S16384x8x20, .i1⟩) (.of main_v61 : StableHlo.TRef sig ⟨S16384x8x20, .f32⟩) (uitofp .f32) ]

/-- The kernel program's lines 86 … 101 before its region. -/
abbrev bseg9 : List (HloOp τ sig (Elt F)) :=
  [ StableHlo.unary main_v41 main_v62 (broadcastInDim S16384x8x1 ![0, 1] bcast_S16384x8_S16384x8x1_0_1 : (⟨S16384x8, .f32⟩ : BufTy).Contents (Elt F) → (⟨S16384x8x1, .f32⟩ : BufTy).Contents (Elt F)),
    StableHlo.unary main_v45 main_v63 (broadcastInDim S16384x8x1 ![0, 1] bcast_S16384x8_S16384x8x1_0_1 : (⟨S16384x8, .f32⟩ : BufTy).Contents (Elt F) → (⟨S16384x8x1, .f32⟩ : BufTy).Contents (Elt F)),
    StableHlo.unary main_v24 main_v64 (broadcastInDim S16384x8x1 ![0, 1] bcast_S16384x8_S16384x8x1_0_1 : (⟨S16384x8, .f32⟩ : BufTy).Contents (Elt F) → (⟨S16384x8x1, .f32⟩ : BufTy).Contents (Elt F)),
    StableHlo.unary main_v29 main_v65 (broadcastInDim S16384x8x1 ![0, 1] bcast_S16384x8_S16384x8x1_0_1 : (⟨S16384x8, .f32⟩ : BufTy).Contents (Elt F) → (⟨S16384x8x1, .f32⟩ : BufTy).Contents (Elt F)),
    StableHlo.nullary main_cst_8 (constant S_ .f32 0x3F800000#32),
    StableHlo.unary main_cst_8 main_v66 (broadcastInDim S16384x8 ![] bcast_S_S16384x8 : (⟨S_, .f32⟩ : BufTy).Contents (Elt F) → (⟨S16384x8, .f32⟩ : BufTy).Contents (Elt F)),
    StableHlo.unary main_v66 main_v67 (broadcastInDim S16384x8x1 ![0, 1] bcast_S16384x8_S16384x8x1_0_1 : (⟨S16384x8, .f32⟩ : BufTy).Contents (Elt F) → (⟨S16384x8x1, .f32⟩ : BufTy).Contents (Elt F)),
    StableHlo.nary ![main_v62, main_v63, main_v64, main_v65, main_v67, main_v61] main_v68 (fun u => concatenate S16384x8x25 2 [⟨S16384x8x1, u 0⟩, ⟨S16384x8x1, u 1⟩, ⟨S16384x8x1, u 2⟩, ⟨S16384x8x1, u 3⟩, ⟨S16384x8x1, u 4⟩, ⟨S16384x8x20, u 5⟩] concatenates_S16384x8x1_S16384x8x1_S16384x8x1_S16384x8x1_S16384x8x1_S16384x8x20_S16384x8x25_d2),
    StableHlo.nullary main_v69 (iotaInDim S16384 32 0),
    StableHlo.unary main_v69 main_v70 (broadcastInDim S16384x1 ![0] bcast_S16384_S16384x1_0 : (⟨S16384, .i32⟩ : BufTy).Contents (Elt F) → (⟨S16384x1, .i32⟩ : BufTy).Contents (Elt F)),
    StableHlo.nullary main_c_9 (constantI S_ 32 49#32),
    StableHlo.unary main_c_9 main_v71 (broadcastInDim S16384x1 ![] bcast_S_S16384x1 : (⟨S_, .i32⟩ : BufTy).Contents (Elt F) → (⟨S16384x1, .i32⟩ : BufTy).Contents (Elt F)),
    StableHlo.binary main_v70 main_v71 main_v72 (muli : (⟨S16384x1, .i32⟩ : BufTy).Contents (Elt F) → (⟨S16384x1, .i32⟩ : BufTy).Contents (Elt F) → (⟨S16384x1, .i32⟩ : BufTy).Contents (Elt F)),
    StableHlo.unary main_v72 main_v73 (broadcastInDim S16384x8 ![0, 1] bcast_S16384x1_S16384x8_0_1 : (⟨S16384x1, .i32⟩ : BufTy).Contents (Elt F) → (⟨S16384x8, .i32⟩ : BufTy).Contents (Elt F)),
    StableHlo.binary main_v73 main_v48 main_v74 (addi : (⟨S16384x8, .i32⟩ : BufTy).Contents (Elt F) → (⟨S16384x8, .i32⟩ : BufTy).Contents (Elt F) → (⟨S16384x8, .i32⟩ : BufTy).Contents (Elt F)),
    StableHlo.nullary main_c_10 (constantI S_ 32 802816#32) ]

/-- The kernel program's lines 102 … 104 before its region. -/
abbrev bseg10 : List (HloOp τ sig (Elt F)) :=
  [ StableHlo.TRef.unary (.of main_c_10 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16384x8, .i32⟩) (broadcastInDim S16384x8 ![] bcast_S_S16384x8),
    StableHlo.TRef.ternary (.of main_v60 : StableHlo.TRef sig ⟨S16384x8, .i1⟩) (.of main_v74 : StableHlo.TRef sig ⟨S16384x8, .i32⟩) (.of main_call2_v1 : StableHlo.TRef sig ⟨S16384x8, .i32⟩) (.of main_v75 : StableHlo.TRef sig ⟨S16384x8, .i32⟩) select ]

/-- The kernel program's lines 105 … 118 before its region. -/
abbrev bseg11 : List (HloOp τ sig (Elt F)) :=
  [ StableHlo.nullary main_cst_11 (constant S_ .f32 0x00000000#32),
    StableHlo.unary main_cst_11 main_v76 (broadcastInDim S802816x25 ![] bcast_S_S802816x25 : (⟨S_, .f32⟩ : BufTy).Contents (Elt F) → (⟨S802816x25, .f32⟩ : BufTy).Contents (Elt F)),
    StableHlo.reshape main_v75 main_v77 rfl shapeCasts_S16384x8_S131072,
    StableHlo.reshape main_v68 main_v78 rfl shapeCasts_S16384x8x25_S131072x25,
    StableHlo.nullary main_c_12 (constantI S_ 32 0#32),
    StableHlo.unary main_c_12 main_v79 (broadcastInDim S131072 ![] bcast_S_S131072 : (⟨S_, .i32⟩ : BufTy).Contents (Elt F) → (⟨S131072, .i32⟩ : BufTy).Contents (Elt F)),
    StableHlo.binary main_v77 main_v79 main_v80 (cmpi .slt : (⟨S131072, .i32⟩ : BufTy).Contents (Elt F) → (⟨S131072, .i32⟩ : BufTy).Contents (Elt F) → (⟨S131072, .i1⟩ : BufTy).Contents (Elt F)),
    StableHlo.nullary main_c_13 (constantI S_ 32 802816#32),
    StableHlo.unary main_c_13 main_v81 (broadcastInDim S131072 ![] bcast_S_S131072 : (⟨S_, .i32⟩ : BufTy).Contents (Elt F) → (⟨S131072, .i32⟩ : BufTy).Contents (Elt F)),
    StableHlo.binary main_v77 main_v81 main_v82 (addi : (⟨S131072, .i32⟩ : BufTy).Contents (Elt F) → (⟨S131072, .i32⟩ : BufTy).Contents (Elt F) → (⟨S131072, .i32⟩ : BufTy).Contents (Elt F)),
    StableHlo.ternary main_v80 main_v82 main_v77 main_v83 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v83 main_v84 (broadcastInDim S131072x1 ![0] bcast_S131072_S131072x1_0 : (⟨S131072, .i32⟩ : BufTy).Contents (Elt F) → (⟨S131072x1, .i32⟩ : BufTy).Contents (Elt F)),
    StableHlo.ternary main_v76 main_v84 main_v78 main_v85 ((fun x i u => Host.scatter scatter_S802816x25_S131072x1_S131072x25_1_0_0_1 (fun _ b => b) x i u) : (⟨S802816x25, .f32⟩ : BufTy).Contents (Elt F) → (⟨S131072x1, .i32⟩ : BufTy).Contents (Elt F) → (⟨S131072x25, .f32⟩ : BufTy).Contents (Elt F) → (⟨S802816x25, .f32⟩ : BufTy).Contents (Elt F)),
    StableHlo.reshape main_v85 main_v86 rfl shapeCasts_S802816x25_S16384x7x7x25 ]

theorem linesBefore_split : List.flatten (linesBefore (F := F)) = bseg0 ++ (bseg1 ++ (bseg2 ++ (bseg3 ++ (bseg4 ++ (bseg5 ++ (bseg6 ++ (bseg7 ++ (bseg8 ++ (bseg9 ++ (bseg10 ++ (bseg11))))))))))) := rfl

end Cert.KernelIdeal.Accum

end
-- ==== Proof.TargetAgree.lean ====
/-
  The two programs build the same target array. The kernel program's host lines before its region and the
  reference's first 118 lines are the same operations in the same order, each on its own program's buffers.
  They are compared stretch by stretch (Proof/TargetSegments.lean): if the two programs' buffers agree on
  everything a stretch and the later lines still read, they agree afterwards on everything the later lines
  read — each operation's result is the same function of the same operands. Chained from the boxes array to
  the scatter's reshaped result, this gives equal target arrays from equal boxes.
-/
import proofs.«149325_j86758339379422_2_alg».proof.Proof.TargetSegments
import proofs.«149325_j86758339379422_2_alg».proof.Proof.LibNarySix

set_option maxRecDepth 16384

noncomputable section

namespace Cert.TargetAgree

open Idealize.ShloMosaic Idealize.ShloMosaic.TcCoe Idealize.SL.Sem Idealize.ShloMosaic.StableHlo
open Cert.LibNarySix

variable {F : FTy → Type} [FloatOps F]

/-- Folding two stretches of lines one after the other is folding their concatenation. -/
theorem after_append' {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => after_append' l₁ l₂ (op.result V)

set_option maxHeartbeats 4000000 in
/-- Lines 1 … 4: from valuations that agree on what these lines and the later ones still read, both programs' stretches
    leave valuations that agree on what the later lines read. -/
theorem seg0 (W : Valuation Cert.KernelIdeal.τ Cert.KernelIdeal.sig (Elt F)) (W' : Valuation Cert.ReferenceIdeal.τ Cert.ReferenceIdeal.sig (Elt F))
    (h_main_arg1 : (W' (Proc.devRef .tc Cert.ReferenceIdeal.main_arg1) : (⟨Cert.KernelIdeal.S16384x8x5, .f32⟩ : BufTy).Contents (Elt F)) = W (Proc.devRef .tc Cert.KernelIdeal.main_arg1)) :
    ((after (Cert.ReferenceIdeal.Lines.tseg0 (F := F)) W' (Proc.devRef .tc Cert.ReferenceIdeal.main_arg1) : (⟨Cert.KernelIdeal.S16384x8x5, .f32⟩ : BufTy).Contents (Elt F))
        = after (Cert.KernelIdeal.Accum.bseg0 (F := F)) W (Proc.devRef .tc Cert.KernelIdeal.main_arg1))
    ∧ ((after (Cert.ReferenceIdeal.Lines.tseg0 (F := F)) W' (Proc.devRef .tc Cert.ReferenceIdeal.main_v2) : (⟨Cert.KernelIdeal.S16384x8x4, .f32⟩ : BufTy).Contents (Elt F))
        = after (Cert.KernelIdeal.Accum.bseg0 (F := F)) W (Proc.devRef .tc Cert.KernelIdeal.main_v2)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_arg1]
  repeat' constructor

set_option maxHeartbeats 4000000 in
/-- Lines 5 … 23: from valuations that agree on what these lines and the later ones still read, both programs' stretches
    leave valuations that agree on what the later lines read. -/
theorem seg1 (W : Valuation Cert.KernelIdeal.τ Cert.KernelIdeal.sig (Elt F)) (W' : Valuation Cert.ReferenceIdeal.τ Cert.ReferenceIdeal.sig (Elt F))
    (h_main_arg1 : (W' (Proc.devRef .tc Cert.ReferenceIdeal.main_arg1) : (⟨Cert.KernelIdeal.S16384x8x5, .f32⟩ : BufTy).Contents (Elt F)) = W (Proc.devRef .tc Cert.KernelIdeal.main_arg1))
    (h_main_v2 : (W' (Proc.devRef .tc Cert.ReferenceIdeal.main_v2) : (⟨Cert.KernelIdeal.S16384x8x4, .f32⟩ : BufTy).Contents (Elt F)) = W (Proc.devRef .tc Cert.KernelIdeal.main_v2)) :
    ((after (Cert.ReferenceIdeal.Lines.tseg1 (F := F)) W' (Proc.devRef .tc Cert.ReferenceIdeal.main_v2) : (⟨Cert.KernelIdeal.S16384x8x4, .f32⟩ : BufTy).Contents (Elt F))
        = after (Cert.KernelIdeal.Accum.bseg1 (F := F)) W (Proc.devRef .tc Cert.KernelIdeal.main_v2))
    ∧ ((after (Cert.ReferenceIdeal.Lines.tseg1 (F := F)) W' (Proc.devRef .tc Cert.ReferenceIdeal.main_v5) : (⟨Cert.KernelIdeal.S16384x8, .i32⟩ : BufTy).Contents (Elt F))
        = after (Cert.KernelIdeal.Accum.bseg1 (F := F)) W (Proc.devRef .tc Cert.KernelIdeal.main_v5))
    ∧ ((after (Cert.ReferenceIdeal.Lines.tseg1 (F := F)) W' (Proc.devRef .tc Cert.ReferenceIdeal.main_v12) : (⟨Cert.KernelIdeal.S16384x8, .f32⟩ : BufTy).Contents (Elt F))
        = after (Cert.KernelIdeal.Accum.bseg1 (F := F)) W (Proc.devRef .tc Cert.KernelIdeal.main_v12))
    ∧ ((after (Cert.ReferenceIdeal.Lines.tseg1 (F := F)) W' (Proc.devRef .tc Cert.ReferenceIdeal.main_v19) : (⟨Cert.KernelIdeal.S16384x8, .f32⟩ : BufTy).Contents (Elt F))
        = after (Cert.KernelIdeal.Accum.bseg1 (F := F)) W (Proc.devRef .tc Cert.KernelIdeal.main_v19)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_arg1, h_main_v2]
  repeat' constructor

set_option maxHeartbeats 4000000 in
/-- Lines 24 … 33: from valuations that agree on what these lines and the later ones still read, both programs' stretches
    leave valuations that agree on what the later lines read. -/
theorem seg2 (W : Valuation Cert.KernelIdeal.τ Cert.KernelIdeal.sig (Elt F)) (W' : Valuation Cert.ReferenceIdeal.τ Cert.ReferenceIdeal.sig (Elt F))
    (h_main_v2 : (W' (Proc.devRef .tc Cert.ReferenceIdeal.main_v2) : (⟨Cert.KernelIdeal.S16384x8x4, .f32⟩ : BufTy).Contents (Elt F)) = W (Proc.devRef .tc Cert.KernelIdeal.main_v2))
    (h_main_v5 : (W' (Proc.devRef .tc Cert.ReferenceIdeal.main_v5) : (⟨Cert.KernelIdeal.S16384x8, .i32⟩ : BufTy).Contents (Elt F)) = W (Proc.devRef .tc Cert.KernelIdeal.main_v5))
    (h_main_v12 : (W' (Proc.devRef .tc Cert.ReferenceIdeal.main_v12) : (⟨Cert.KernelIdeal.S16384x8, .f32⟩ : BufTy).Contents (Elt F)) = W (Proc.devRef .tc Cert.KernelIdeal.main_v12))
    (h_main_v19 : (W' (Proc.devRef .tc Cert.ReferenceIdeal.main_v19) : (⟨Cert.KernelIdeal.S16384x8, .f32⟩ : BufTy).Contents (Elt F)) = W (Proc.devRef .tc Cert.KernelIdeal.main_v19)) :
    ((after (Cert.ReferenceIdeal.Lines.tseg2 (F := F)) W' (Proc.devRef .tc Cert.ReferenceIdeal.main_v5) : (⟨Cert.KernelIdeal.S16384x8, .i32⟩ : BufTy).Contents (Elt F))
        = after (Cert.KernelIdeal.Accum.bseg2 (F := F)) W (Proc.devRef .tc Cert.KernelIdeal.main_v5))
    ∧ ((after (Cert.ReferenceIdeal.Lines.tseg2 (F := F)) W' (Proc.devRef .tc Cert.ReferenceIdeal.main_v12) : (⟨Cert.KernelIdeal.S16384x8, .f32⟩ : BufTy).Contents (Elt F))
        = after (Cert.KernelIdeal.Accum.bseg2 (F := F)) W (Proc.devRef .tc Cert.KernelIdeal.main_v12))
    ∧ ((after (Cert.ReferenceIdeal.Lines.tseg2 (F := F)) W' (Proc.devRef .tc Cert.ReferenceIdeal.main_v19) : (⟨Cert.KernelIdeal.S16384x8, .f32⟩ : BufTy).Contents (Elt F))
        = after (Cert.KernelIdeal.Accum.bseg2 (F := F)) W (Proc.devRef .tc Cert.KernelIdeal.main_v19))
    ∧ ((after (Cert.ReferenceIdeal.Lines.tseg2 (F := F)) W' (Proc.devRef .tc Cert.ReferenceIdeal.main_v24) : (⟨Cert.KernelIdeal.S16384x8, .f32⟩ : BufTy).Contents (Elt F))
        = after (Cert.KernelIdeal.Accum.bseg2 (F := F)) W (Proc.devRef .tc Cert.KernelIdeal.main_v24))
    ∧ ((after (Cert.ReferenceIdeal.Lines.tseg2 (F := F)) W' (Proc.devRef .tc Cert.ReferenceIdeal.main_v29) : (⟨Cert.KernelIdeal.S16384x8, .f32⟩ : BufTy).Contents (Elt F))
        = after (Cert.KernelIdeal.Accum.bseg2 (F := F)) W (Proc.devRef .tc Cert.KernelIdeal.main_v29)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_v2, h_main_v5, h_main_v12, h_main_v19]
  repeat' constructor

set_option maxHeartbeats 4000000 in
/-- Lines 34 … 43: from valuations that agree on what these lines and the later ones still read, both programs' stretches
    leave valuations that agree on what the later lines read. -/
theorem seg3 (W : Valuation Cert.KernelIdeal.τ Cert.KernelIdeal.sig (Elt F)) (W' : Valuation Cert.ReferenceIdeal.τ Cert.ReferenceIdeal.sig (Elt F))
    (h_main_v5 : (W' (Proc.devRef .tc Cert.ReferenceIdeal.main_v5) : (⟨Cert.KernelIdeal.S16384x8, .i32⟩ : BufTy).Contents (Elt F)) = W (Proc.devRef .tc Cert.KernelIdeal.main_v5))
    (h_main_v12 : (W' (Proc.devRef .tc Cert.ReferenceIdeal.main_v12) : (⟨Cert.KernelIdeal.S16384x8, .f32⟩ : BufTy).Contents (Elt F)) = W (Proc.devRef .tc Cert.KernelIdeal.main_v12))
    (h_main_v19 : (W' (Proc.devRef .tc Cert.ReferenceIdeal.main_v19) : (⟨Cert.KernelIdeal.S16384x8, .f32⟩ : BufTy).Contents (Elt F)) = W (Proc.devRef .tc Cert.KernelIdeal.main_v19))
    (h_main_v24 : (W' (Proc.devRef .tc Cert.ReferenceIdeal.main_v24) : (⟨Cert.KernelIdeal.S16384x8, .f32⟩ : BufTy).Contents (Elt F)) = W (Proc.devRef .tc Cert.KernelIdeal.main_v24))
    (h_main_v29 : (W' (Proc.devRef .tc Cert.ReferenceIdeal.main_v29) : (⟨Cert.KernelIdeal.S16384x8, .f32⟩ : BufTy).Contents (Elt F)) = W (Proc.devRef .tc Cert.KernelIdeal.main_v29)) :
    ((after (Cert.ReferenceIdeal.Lines.tseg3 (F := F)) W' (Proc.devRef .tc Cert.ReferenceIdeal.main_v5) : (⟨Cert.KernelIdeal.S16384x8, .i32⟩ : BufTy).Contents (Elt F))
        = after (Cert.KernelIdeal.Accum.bseg3 (F := F)) W (Proc.devRef .tc Cert.KernelIdeal.main_v5))
    ∧ ((after (Cert.ReferenceIdeal.Lines.tseg3 (F := F)) W' (Proc.devRef .tc Cert.ReferenceIdeal.main_v12) : (⟨Cert.KernelIdeal.S16384x8, .f32⟩ : BufTy).Contents (Elt F))
        = after (Cert.KernelIdeal.Accum.bseg3 (F := F)) W (Proc.devRef .tc Cert.KernelIdeal.main_v12))
    ∧ ((after (Cert.ReferenceIdeal.Lines.tseg3 (F := F)) W' (Proc.devRef .tc Cert.ReferenceIdeal.main_v19) : (⟨Cert.KernelIdeal.S16384x8, .f32⟩ : BufTy).Contents (Elt F))
        = after (Cert.KernelIdeal.Accum.bseg3 (F := F)) W (Proc.devRef .tc Cert.KernelIdeal.main_v19))
    ∧ ((after (Cert.ReferenceIdeal.Lines.tseg3 (F := F)) W' (Proc.devRef .tc Cert.ReferenceIdeal.main_v24) : (⟨Cert.KernelIdeal.S16384x8, .f32⟩ : BufTy).Contents (Elt F))
        = after (Cert.KernelIdeal.Accum.bseg3 (F := F)) W (Proc.devRef .tc Cert.KernelIdeal.main_v24))
    ∧ ((after (Cert.ReferenceIdeal.Lines.tseg3 (F := F)) W' (Proc.devRef .tc Cert.ReferenceIdeal.main_v29) : (⟨Cert.KernelIdeal.S16384x8, .f32⟩ : BufTy).Contents (Elt F))
        = after (Cert.KernelIdeal.Accum.bseg3 (F := F)) W (Proc.devRef .tc Cert.KernelIdeal.main_v29))
    ∧ ((after (Cert.ReferenceIdeal.Lines.tseg3 (F := F)) W' (Proc.devRef .tc Cert.ReferenceIdeal.main_v33) : (⟨Cert.KernelIdeal.S16384x8, .i32⟩ : BufTy).Contents (Elt F))
        = after (Cert.KernelIdeal.Accum.bseg3 (F := F)) W (Proc.devRef .tc Cert.KernelIdeal.main_v33))
    ∧ ((after (Cert.ReferenceIdeal.Lines.tseg3 (F := F)) W' (Proc.devRef .tc Cert.ReferenceIdeal.main_v37) : (⟨Cert.KernelIdeal.S16384x8, .i32⟩ : BufTy).Contents (Elt F))
        = after (Cert.KernelIdeal.Accum.bseg3 (F := F)) W (Proc.devRef .tc Cert.KernelIdeal.main_v37)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_v5, h_main_v12, h_main_v19, h_main_v24, h_main_v29]
  repeat' constructor

set_option maxHeartbeats 4000000 in
/-- Lines 44 … 53: from valuations that agree on what these lines and the later ones still read, both programs' stretches
    leave valuations that agree on what the later lines read. -/
theorem seg4 (W : Valuation Cert.KernelIdeal.τ Cert.KernelIdeal.sig (Elt F)) (W' : Valuation Cert.ReferenceIdeal.τ Cert.ReferenceIdeal.sig (Elt F))
    (h_main_v5 : (W' (Proc.devRef .tc Cert.ReferenceIdeal.main_v5) : (⟨Cert.KernelIdeal.S16384x8, .i32⟩ : BufTy).Contents (Elt F)) = W (Proc.devRef .tc Cert.KernelIdeal.main_v5))
    (h_main_v12 : (W' (Proc.devRef .tc Cert.ReferenceIdeal.main_v12) : (⟨Cert.KernelIdeal.S16384x8, .f32⟩ : BufTy).Contents (Elt F)) = W (Proc.devRef .tc Cert.KernelIdeal.main_v12))
    (h_main_v19 : (W' (Proc.devRef .tc Cert.ReferenceIdeal.main_v19) : (⟨Cert.KernelIdeal.S16384x8, .f32⟩ : BufTy).Contents (Elt F)) = W (Proc.devRef .tc Cert.KernelIdeal.main_v19))
    (h_main_v24 : (W' (Proc.devRef .tc Cert.ReferenceIdeal.main_v24) : (⟨Cert.KernelIdeal.S16384x8, .f32⟩ : BufTy).Contents (Elt F)) = W (Proc.devRef .tc Cert.KernelIdeal.main_v24))
    (h_main_v29 : (W' (Proc.devRef .tc Cert.ReferenceIdeal.main_v29) : (⟨Cert.KernelIdeal.S16384x8, .f32⟩ : BufTy).Contents (Elt F)) = W (Proc.devRef .tc Cert.KernelIdeal.main_v29))
    (h_main_v33 : (W' (Proc.devRef .tc Cert.ReferenceIdeal.main_v33) : (⟨Cert.KernelIdeal.S16384x8, .i32⟩ : BufTy).Contents (Elt F)) = W (Proc.devRef .tc Cert.KernelIdeal.main_v33))
    (h_main_v37 : (W' (Proc.devRef .tc Cert.ReferenceIdeal.main_v37) : (⟨Cert.KernelIdeal.S16384x8, .i32⟩ : BufTy).Contents (Elt F)) = W (Proc.devRef .tc Cert.KernelIdeal.main_v37)) :
    ((after (Cert.ReferenceIdeal.Lines.tseg4 (F := F)) W' (Proc.devRef .tc Cert.ReferenceIdeal.main_v5) : (⟨Cert.KernelIdeal.S16384x8, .i32⟩ : BufTy).Contents (Elt F))
        = after (Cert.KernelIdeal.Accum.bseg4 (F := F)) W (Proc.devRef .tc Cert.KernelIdeal.main_v5))
    ∧ ((after (Cert.ReferenceIdeal.Lines.tseg4 (F := F)) W' (Proc.devRef .tc Cert.ReferenceIdeal.main_v24) : (⟨Cert.KernelIdeal.S16384x8, .f32⟩ : BufTy).Contents (Elt F))
        = after (Cert.KernelIdeal.Accum.bseg4 (F := F)) W (Proc.devRef .tc Cert.KernelIdeal.main_v24))
    ∧ ((after (Cert.ReferenceIdeal.Lines.tseg4 (F := F)) W' (Proc.devRef .tc Cert.ReferenceIdeal.main_v29) : (⟨Cert.KernelIdeal.S16384x8, .f32⟩ : BufTy).Contents (Elt F))
        = after (Cert.KernelIdeal.Accum.bseg4 (F := F)) W (Proc.devRef .tc Cert.KernelIdeal.main_v29))
    ∧ ((after (Cert.ReferenceIdeal.Lines.tseg4 (F := F)) W' (Proc.devRef .tc Cert.ReferenceIdeal.main_v33) : (⟨Cert.KernelIdeal.S16384x8, .i32⟩ : BufTy).Contents (Elt F))
        = after (Cert.KernelIdeal.Accum.bseg4 (F := F)) W (Proc.devRef .tc Cert.KernelIdeal.main_v33))
    ∧ ((after (Cert.ReferenceIdeal.Lines.tseg4 (F := F)) W' (Proc.devRef .tc Cert.ReferenceIdeal.main_v37) : (⟨Cert.KernelIdeal.S16384x8, .i32⟩ : BufTy).Contents (Elt F))
        = after (Cert.KernelIdeal.Accum.bseg4 (F := F)) W (Proc.devRef .tc Cert.KernelIdeal.main_v37))
    ∧ ((after (Cert.ReferenceIdeal.Lines.tseg4 (F := F)) W' (Proc.devRef .tc Cert.ReferenceIdeal.main_v41) : (⟨Cert.KernelIdeal.S16384x8, .f32⟩ : BufTy).Contents (Elt F))
        = after (Cert.KernelIdeal.Accum.bseg4 (F := F)) W (Proc.devRef .tc Cert.KernelIdeal.main_v41))
    ∧ ((after (Cert.ReferenceIdeal.Lines.tseg4 (F := F)) W' (Proc.devRef .tc Cert.ReferenceIdeal.main_v45) : (⟨Cert.KernelIdeal.S16384x8, .f32⟩ : BufTy).Contents (Elt F))
        = after (Cert.KernelIdeal.Accum.bseg4 (F := F)) W (Proc.devRef .tc Cert.KernelIdeal.main_v45)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_v5, h_main_v12, h_main_v19, h_main_v24, h_main_v29, h_main_v33, h_main_v37]
  repeat' constructor

set_option maxHeartbeats 4000000 in
/-- Lines 54 … 64: from valuations that agree on what these lines and the later ones still read, both programs' stretches
    leave valuations that agree on what the later lines read. -/
theorem seg5 (W : Valuation Cert.KernelIdeal.τ Cert.KernelIdeal.sig (Elt F)) (W' : Valuation Cert.ReferenceIdeal.τ Cert.ReferenceIdeal.sig (Elt F))
    (h_main_v5 : (W' (Proc.devRef .tc Cert.ReferenceIdeal.main_v5) : (⟨Cert.KernelIdeal.S16384x8, .i32⟩ : BufTy).Contents (Elt F)) = W (Proc.devRef .tc Cert.KernelIdeal.main_v5))
    (h_main_v24 : (W' (Proc.devRef .tc Cert.ReferenceIdeal.main_v24) : (⟨Cert.KernelIdeal.S16384x8, .f32⟩ : BufTy).Contents (Elt F)) = W (Proc.devRef .tc Cert.KernelIdeal.main_v24))
    (h_main_v29 : (W' (Proc.devRef .tc Cert.ReferenceIdeal.main_v29) : (⟨Cert.KernelIdeal.S16384x8, .f32⟩ : BufTy).Contents (Elt F)) = W (Proc.devRef .tc Cert.KernelIdeal.main_v29))
    (h_main_v33 : (W' (Proc.devRef .tc Cert.ReferenceIdeal.main_v33) : (⟨Cert.KernelIdeal.S16384x8, .i32⟩ : BufTy).Contents (Elt F)) = W (Proc.devRef .tc Cert.KernelIdeal.main_v33))
    (h_main_v37 : (W' (Proc.devRef .tc Cert.ReferenceIdeal.main_v37) : (⟨Cert.KernelIdeal.S16384x8, .i32⟩ : BufTy).Contents (Elt F)) = W (Proc.devRef .tc Cert.KernelIdeal.main_v37))
    (h_main_v41 : (W' (Proc.devRef .tc Cert.ReferenceIdeal.main_v41) : (⟨Cert.KernelIdeal.S16384x8, .f32⟩ : BufTy).Contents (Elt F)) = W (Proc.devRef .tc Cert.KernelIdeal.main_v41))
    (h_main_v45 : (W' (Proc.devRef .tc Cert.ReferenceIdeal.main_v45) : (⟨Cert.KernelIdeal.S16384x8, .f32⟩ : BufTy).Contents (Elt F)) = W (Proc.devRef .tc Cert.KernelIdeal.main_v45)) :
    ((after (Cert.ReferenceIdeal.Lines.tseg5 (F := F)) W' (Proc.devRef .tc Cert.ReferenceIdeal.main_v5) : (⟨Cert.KernelIdeal.S16384x8, .i32⟩ : BufTy).Contents (Elt F))
        = after (Cert.KernelIdeal.Accum.bseg5 (F := F)) W (Proc.devRef .tc Cert.KernelIdeal.main_v5))
    ∧ ((after (Cert.ReferenceIdeal.Lines.tseg5 (F := F)) W' (Proc.devRef .tc Cert.ReferenceIdeal.main_v24) : (⟨Cert.KernelIdeal.S16384x8, .f32⟩ : BufTy).Contents (Elt F))
        = after (Cert.KernelIdeal.Accum.bseg5 (F := F)) W (Proc.devRef .tc Cert.KernelIdeal.main_v24))
    ∧ ((after (Cert.ReferenceIdeal.Lines.tseg5 (F := F)) W' (Proc.devRef .tc Cert.ReferenceIdeal.main_v29) : (⟨Cert.KernelIdeal.S16384x8, .f32⟩ : BufTy).Contents (Elt F))
        = after (Cert.KernelIdeal.Accum.bseg5 (F := F)) W (Proc.devRef .tc Cert.KernelIdeal.main_v29))
    ∧ ((after (Cert.ReferenceIdeal.Lines.tseg5 (F := F)) W' (Proc.devRef .tc Cert.ReferenceIdeal.main_v41) : (⟨Cert.KernelIdeal.S16384x8, .f32⟩ : BufTy).Contents (Elt F))
        = after (Cert.KernelIdeal.Accum.bseg5 (F := F)) W (Proc.devRef .tc Cert.KernelIdeal.main_v41))
    ∧ ((after (Cert.ReferenceIdeal.Lines.tseg5 (F := F)) W' (Proc.devRef .tc Cert.ReferenceIdeal.main_v45) : (⟨Cert.KernelIdeal.S16384x8, .f32⟩ : BufTy).Contents (Elt F))
        = after (Cert.KernelIdeal.Accum.bseg5 (F := F)) W (Proc.devRef .tc Cert.KernelIdeal.main_v45))
    ∧ ((after (Cert.ReferenceIdeal.Lines.tseg5 (F := F)) W' (Proc.devRef .tc Cert.ReferenceIdeal.main_v48) : (⟨Cert.KernelIdeal.S16384x8, .i32⟩ : BufTy).Contents (Elt F))
        = after (Cert.KernelIdeal.Accum.bseg5 (F := F)) W (Proc.devRef .tc Cert.KernelIdeal.main_v48))
    ∧ ((after (Cert.ReferenceIdeal.Lines.tseg5 (F := F)) W' (Proc.devRef .tc Cert.ReferenceIdeal.main_v53) : (⟨Cert.KernelIdeal.S16384x8x8, .i1⟩ : BufTy).Contents (Elt F))
        = after (Cert.KernelIdeal.Accum.bseg5 (F := F)) W (Proc.devRef .tc Cert.KernelIdeal.main_v53))
    ∧ ((after (Cert.ReferenceIdeal.Lines.tseg5 (F := F)) W' (Proc.devRef .tc Cert.ReferenceIdeal.main_v54) : (⟨Cert.KernelIdeal.S8x8, .i1⟩ : BufTy).Contents (Elt F))
        = after (Cert.KernelIdeal.Accum.bseg5 (F := F)) W (Proc.devRef .tc Cert.KernelIdeal.main_v54)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_v5, h_main_v24, h_main_v29, h_main_v33, h_main_v37, h_main_v41, h_main_v45]
  repeat' constructor

set_option maxHeartbeats 4000000 in
/-- Lines 65 … 73: from valuations that agree on what these lines and the later ones still read, both programs' stretches
    leave valuations that agree on what the later lines read. -/
theorem seg6 (W : Valuation Cert.KernelIdeal.τ Cert.KernelIdeal.sig (Elt F)) (W' : Valuation Cert.ReferenceIdeal.τ Cert.ReferenceIdeal.sig (Elt F))
    (h_main_v5 : (W' (Proc.devRef .tc Cert.ReferenceIdeal.main_v5) : (⟨Cert.KernelIdeal.S16384x8, .i32⟩ : BufTy).Contents (Elt F)) = W (Proc.devRef .tc Cert.KernelIdeal.main_v5))
    (h_main_v24 : (W' (Proc.devRef .tc Cert.ReferenceIdeal.main_v24) : (⟨Cert.KernelIdeal.S16384x8, .f32⟩ : BufTy).Contents (Elt F)) = W (Proc.devRef .tc Cert.KernelIdeal.main_v24))
    (h_main_v29 : (W' (Proc.devRef .tc Cert.ReferenceIdeal.main_v29) : (⟨Cert.KernelIdeal.S16384x8, .f32⟩ : BufTy).Contents (Elt F)) = W (Proc.devRef .tc Cert.KernelIdeal.main_v29))
    (h_main_v41 : (W' (Proc.devRef .tc Cert.ReferenceIdeal.main_v41) : (⟨Cert.KernelIdeal.S16384x8, .f32⟩ : BufTy).Contents (Elt F)) = W (Proc.devRef .tc Cert.KernelIdeal.main_v41))
    (h_main_v45 : (W' (Proc.devRef .tc Cert.ReferenceIdeal.main_v45) : (⟨Cert.KernelIdeal.S16384x8, .f32⟩ : BufTy).Contents (Elt F)) = W (Proc.devRef .tc Cert.KernelIdeal.main_v45))
    (h_main_v48 : (W' (Proc.devRef .tc Cert.ReferenceIdeal.main_v48) : (⟨Cert.KernelIdeal.S16384x8, .i32⟩ : BufTy).Contents (Elt F)) = W (Proc.devRef .tc Cert.KernelIdeal.main_v48))
    (h_main_v53 : (W' (Proc.devRef .tc Cert.ReferenceIdeal.main_v53) : (⟨Cert.KernelIdeal.S16384x8x8, .i1⟩ : BufTy).Contents (Elt F)) = W (Proc.devRef .tc Cert.KernelIdeal.main_v53))
    (h_main_v54 : (W' (Proc.devRef .tc Cert.ReferenceIdeal.main_v54) : (⟨Cert.KernelIdeal.S8x8, .i1⟩ : BufTy).Contents (Elt F)) = W (Proc.devRef .tc Cert.KernelIdeal.main_v54)) :
    ((after (Cert.ReferenceIdeal.Lines.tseg6 (F := F)) W' (Proc.devRef .tc Cert.ReferenceIdeal.main_v5) : (⟨Cert.KernelIdeal.S16384x8, .i32⟩ : BufTy).Contents (Elt F))
        = after (Cert.KernelIdeal.Accum.bseg6 (F := F)) W (Proc.devRef .tc Cert.KernelIdeal.main_v5))
    ∧ ((after (Cert.ReferenceIdeal.Lines.tseg6 (F := F)) W' (Proc.devRef .tc Cert.ReferenceIdeal.main_v24) : (⟨Cert.KernelIdeal.S16384x8, .f32⟩ : BufTy).Contents (Elt F))
        = after (Cert.KernelIdeal.Accum.bseg6 (F := F)) W (Proc.devRef .tc Cert.KernelIdeal.main_v24))
    ∧ ((after (Cert.ReferenceIdeal.Lines.tseg6 (F := F)) W' (Proc.devRef .tc Cert.ReferenceIdeal.main_v29) : (⟨Cert.KernelIdeal.S16384x8, .f32⟩ : BufTy).Contents (Elt F))
        = after (Cert.KernelIdeal.Accum.bseg6 (F := F)) W (Proc.devRef .tc Cert.KernelIdeal.main_v29))
    ∧ ((after (Cert.ReferenceIdeal.Lines.tseg6 (F := F)) W' (Proc.devRef .tc Cert.ReferenceIdeal.main_v41) : (⟨Cert.KernelIdeal.S16384x8, .f32⟩ : BufTy).Contents (Elt F))
        = after (Cert.KernelIdeal.Accum.bseg6 (F := F)) W (Proc.devRef .tc Cert.KernelIdeal.main_v41))
    ∧ ((after (Cert.ReferenceIdeal.Lines.tseg6 (F := F)) W' (Proc.devRef .tc Cert.ReferenceIdeal.main_v45) : (⟨Cert.KernelIdeal.S16384x8, .f32⟩ : BufTy).Contents (Elt F))
        = after (Cert.KernelIdeal.Accum.bseg6 (F := F)) W (Proc.devRef .tc Cert.KernelIdeal.main_v45))
    ∧ ((after (Cert.ReferenceIdeal.Lines.tseg6 (F := F)) W' (Proc.devRef .tc Cert.ReferenceIdeal.main_v48) : (⟨Cert.KernelIdeal.S16384x8, .i32⟩ : BufTy).Contents (Elt F))
        = after (Cert.KernelIdeal.Accum.bseg6 (F := F)) W (Proc.devRef .tc Cert.KernelIdeal.main_v48))
    ∧ ((after (Cert.ReferenceIdeal.Lines.tseg6 (F := F)) W' (Proc.devRef .tc Cert.ReferenceIdeal.main_v53) : (⟨Cert.KernelIdeal.S16384x8x8, .i1⟩ : BufTy).Contents (Elt F))
        = after (Cert.KernelIdeal.Accum.bseg6 (F := F)) W (Proc.devRef .tc Cert.KernelIdeal.main_v53))
    ∧ ((after (Cert.ReferenceIdeal.Lines.tseg6 (F := F)) W' (Proc.devRef .tc Cert.ReferenceIdeal.main_v55) : (⟨Cert.KernelIdeal.S8x8, .i1⟩ : BufTy).Contents (Elt F))
        = after (Cert.KernelIdeal.Accum.bseg6 (F := F)) W (Proc.devRef .tc Cert.KernelIdeal.main_v55)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_v5, h_main_v24, h_main_v29, h_main_v41, h_main_v45, h_main_v48, h_main_v53, h_main_v54]
  repeat' constructor

set_option maxHeartbeats 4000000 in
/-- Lines 74 … 79: from valuations that agree on what these lines and the later ones still read, both programs' stretches
    leave valuations that agree on what the later lines read. -/
theorem seg7 (W : Valuation Cert.KernelIdeal.τ Cert.KernelIdeal.sig (Elt F)) (W' : Valuation Cert.ReferenceIdeal.τ Cert.ReferenceIdeal.sig (Elt F))
    (h_main_v5 : (W' (Proc.devRef .tc Cert.ReferenceIdeal.main_v5) : (⟨Cert.KernelIdeal.S16384x8, .i32⟩ : BufTy).Contents (Elt F)) = W (Proc.devRef .tc Cert.KernelIdeal.main_v5))
    (h_main_v24 : (W' (Proc.devRef .tc Cert.ReferenceIdeal.main_v24) : (⟨Cert.KernelIdeal.S16384x8, .f32⟩ : BufTy).Contents (Elt F)) = W (Proc.devRef .tc Cert.KernelIdeal.main_v24))
    (h_main_v29 : (W' (Proc.devRef .tc Cert.ReferenceIdeal.main_v29) : (⟨Cert.KernelIdeal.S16384x8, .f32⟩ : BufTy).Contents (Elt F)) = W (Proc.devRef .tc Cert.KernelIdeal.main_v29))
    (h_main_v41 : (W' (Proc.devRef .tc Cert.ReferenceIdeal.main_v41) : (⟨Cert.KernelIdeal.S16384x8, .f32⟩ : BufTy).Contents (Elt F)) = W (Proc.devRef .tc Cert.KernelIdeal.main_v41))
    (h_main_v45 : (W' (Proc.devRef .tc Cert.ReferenceIdeal.main_v45) : (⟨Cert.KernelIdeal.S16384x8, .f32⟩ : BufTy).Contents (Elt F)) = W (Proc.devRef .tc Cert.KernelIdeal.main_v45))
    (h_main_v48 : (W' (Proc.devRef .tc Cert.ReferenceIdeal.main_v48) : (⟨Cert.KernelIdeal.S16384x8, .i32⟩ : BufTy).Contents (Elt F)) = W (Proc.devRef .tc Cert.KernelIdeal.main_v48))
    (h_main_v53 : (W' (Proc.devRef .tc Cert.ReferenceIdeal.main_v53) : (⟨Cert.KernelIdeal.S16384x8x8, .i1⟩ : BufTy).Contents (Elt F)) = W (Proc.devRef .tc Cert.KernelIdeal.main_v53))
    (h_main_v55 : (W' (Proc.devRef .tc Cert.ReferenceIdeal.main_v55) : (⟨Cert.KernelIdeal.S8x8, .i1⟩ : BufTy).Contents (Elt F)) = W (Proc.devRef .tc Cert.KernelIdeal.main_v55)) :
    ((after (Cert.ReferenceIdeal.Lines.tseg7 (F := F)) W' (Proc.devRef .tc Cert.ReferenceIdeal.main_v5) : (⟨Cert.KernelIdeal.S16384x8, .i32⟩ : BufTy).Contents (Elt F))
        = after (Cert.KernelIdeal.Accum.bseg7 (F := F)) W (Proc.devRef .tc Cert.KernelIdeal.main_v5))
    ∧ ((after (Cert.ReferenceIdeal.Lines.tseg7 (F := F)) W' (Proc.devRef .tc Cert.ReferenceIdeal.main_v24) : (⟨Cert.KernelIdeal.S16384x8, .f32⟩ : BufTy).Contents (Elt F))
        = after (Cert.KernelIdeal.Accum.bseg7 (F := F)) W (Proc.devRef .tc Cert.KernelIdeal.main_v24))
    ∧ ((after (Cert.ReferenceIdeal.Lines.tseg7 (F := F)) W' (Proc.devRef .tc Cert.ReferenceIdeal.main_v29) : (⟨Cert.KernelIdeal.S16384x8, .f32⟩ : BufTy).Contents (Elt F))
        = after (Cert.KernelIdeal.Accum.bseg7 (F := F)) W (Proc.devRef .tc Cert.KernelIdeal.main_v29))
    ∧ ((after (Cert.ReferenceIdeal.Lines.tseg7 (F := F)) W' (Proc.devRef .tc Cert.ReferenceIdeal.main_v41) : (⟨Cert.KernelIdeal.S16384x8, .f32⟩ : BufTy).Contents (Elt F))
        = after (Cert.KernelIdeal.Accum.bseg7 (F := F)) W (Proc.devRef .tc Cert.KernelIdeal.main_v41))
    ∧ ((after (Cert.ReferenceIdeal.Lines.tseg7 (F := F)) W' (Proc.devRef .tc Cert.ReferenceIdeal.main_v45) : (⟨Cert.KernelIdeal.S16384x8, .f32⟩ : BufTy).Contents (Elt F))
        = after (Cert.KernelIdeal.Accum.bseg7 (F := F)) W (Proc.devRef .tc Cert.KernelIdeal.main_v45))
    ∧ ((after (Cert.ReferenceIdeal.Lines.tseg7 (F := F)) W' (Proc.devRef .tc Cert.ReferenceIdeal.main_v48) : (⟨Cert.KernelIdeal.S16384x8, .i32⟩ : BufTy).Contents (Elt F))
        = after (Cert.KernelIdeal.Accum.bseg7 (F := F)) W (Proc.devRef .tc Cert.KernelIdeal.main_v48))
    ∧ ((after (Cert.ReferenceIdeal.Lines.tseg7 (F := F)) W' (Proc.devRef .tc Cert.ReferenceIdeal.main_v60) : (⟨Cert.KernelIdeal.S16384x8, .i1⟩ : BufTy).Contents (Elt F))
        = after (Cert.KernelIdeal.Accum.bseg7 (F := F)) W (Proc.devRef .tc Cert.KernelIdeal.main_v60)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_v5, h_main_v24, h_main_v29, h_main_v41, h_main_v45, h_main_v48, h_main_v53, h_main_v55]
  repeat' constructor

set_option maxHeartbeats 4000000 in
/-- Lines 80 … 85: from valuations that agree on what these lines and the later ones still read, both programs' stretches
    leave valuations that agree on what the later lines read. -/
theorem seg8 (W : Valuation Cert.KernelIdeal.τ Cert.KernelIdeal.sig (Elt F)) (W' : Valuation Cert.ReferenceIdeal.τ Cert.ReferenceIdeal.sig (Elt F))
    (h_main_v5 : (W' (Proc.devRef .tc Cert.ReferenceIdeal.main_v5) : (⟨Cert.KernelIdeal.S16384x8, .i32⟩ : BufTy).Contents (Elt F)) = W (Proc.devRef .tc Cert.KernelIdeal.main_v5))
    (h_main_v24 : (W' (Proc.devRef .tc Cert.ReferenceIdeal.main_v24) : (⟨Cert.KernelIdeal.S16384x8, .f32⟩ : BufTy).Contents (Elt F)) = W (Proc.devRef .tc Cert.KernelIdeal.main_v24))
    (h_main_v29 : (W' (Proc.devRef .tc Cert.ReferenceIdeal.main_v29) : (⟨Cert.KernelIdeal.S16384x8, .f32⟩ : BufTy).Contents (Elt F)) = W (Proc.devRef .tc Cert.KernelIdeal.main_v29))
    (h_main_v41 : (W' (Proc.devRef .tc Cert.ReferenceIdeal.main_v41) : (⟨Cert.KernelIdeal.S16384x8, .f32⟩ : BufTy).Contents (Elt F)) = W (Proc.devRef .tc Cert.KernelIdeal.main_v41))
    (h_main_v45 : (W' (Proc.devRef .tc Cert.ReferenceIdeal.main_v45) : (⟨Cert.KernelIdeal.S16384x8, .f32⟩ : BufTy).Contents (Elt F)) = W (Proc.devRef .tc Cert.KernelIdeal.main_v45))
    (h_main_v48 : (W' (Proc.devRef .tc Cert.ReferenceIdeal.main_v48) : (⟨Cert.KernelIdeal.S16384x8, .i32⟩ : BufTy).Contents (Elt F)) = W (Proc.devRef .tc Cert.KernelIdeal.main_v48))
    (h_main_v60 : (W' (Proc.devRef .tc Cert.ReferenceIdeal.main_v60) : (⟨Cert.KernelIdeal.S16384x8, .i1⟩ : BufTy).Contents (Elt F)) = W (Proc.devRef .tc Cert.KernelIdeal.main_v60)) :
    ((after (Cert.ReferenceIdeal.Lines.tseg8 (F := F)) W' (Proc.devRef .tc Cert.ReferenceIdeal.main_v24) : (⟨Cert.KernelIdeal.S16384x8, .f32⟩ : BufTy).Contents (Elt F))
        = after (Cert.KernelIdeal.Accum.bseg8 (F := F)) W (Proc.devRef .tc Cert.KernelIdeal.main_v24))
    ∧ ((after (Cert.ReferenceIdeal.Lines.tseg8 (F := F)) W' (Proc.devRef .tc Cert.ReferenceIdeal.main_v29) : (⟨Cert.KernelIdeal.S16384x8, .f32⟩ : BufTy).Contents (Elt F))
        = after (Cert.KernelIdeal.Accum.bseg8 (F := F)) W (Proc.devRef .tc Cert.KernelIdeal.main_v29))
    ∧ ((after (Cert.ReferenceIdeal.Lines.tseg8 (F := F)) W' (Proc.devRef .tc Cert.ReferenceIdeal.main_v41) : (⟨Cert.KernelIdeal.S16384x8, .f32⟩ : BufTy).Contents (Elt F))
        = after (Cert.KernelIdeal.Accum.bseg8 (F := F)) W (Proc.devRef .tc Cert.KernelIdeal.main_v41))
    ∧ ((after (Cert.ReferenceIdeal.Lines.tseg8 (F := F)) W' (Proc.devRef .tc Cert.ReferenceIdeal.main_v45) : (⟨Cert.KernelIdeal.S16384x8, .f32⟩ : BufTy).Contents (Elt F))
        = after (Cert.KernelIdeal.Accum.bseg8 (F := F)) W (Proc.devRef .tc Cert.KernelIdeal.main_v45))
    ∧ ((after (Cert.ReferenceIdeal.Lines.tseg8 (F := F)) W' (Proc.devRef .tc Cert.ReferenceIdeal.main_v48) : (⟨Cert.KernelIdeal.S16384x8, .i32⟩ : BufTy).Contents (Elt F))
        = after (Cert.KernelIdeal.Accum.bseg8 (F := F)) W (Proc.devRef .tc Cert.KernelIdeal.main_v48))
    ∧ ((after (Cert.ReferenceIdeal.Lines.tseg8 (F := F)) W' (Proc.devRef .tc Cert.ReferenceIdeal.main_v60) : (⟨Cert.KernelIdeal.S16384x8, .i1⟩ : BufTy).Contents (Elt F))
        = after (Cert.KernelIdeal.Accum.bseg8 (F := F)) W (Proc.devRef .tc Cert.KernelIdeal.main_v60))
    ∧ ((after (Cert.ReferenceIdeal.Lines.tseg8 (F := F)) W' (Proc.devRef .tc Cert.ReferenceIdeal.main_v61) : (⟨Cert.KernelIdeal.S16384x8x20, .f32⟩ : BufTy).Contents (Elt F))
        = after (Cert.KernelIdeal.Accum.bseg8 (F := F)) W (Proc.devRef .tc Cert.KernelIdeal.main_v61)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_v5, h_main_v24, h_main_v29, h_main_v41, h_main_v45, h_main_v48, h_main_v60]
  repeat' constructor

set_option maxHeartbeats 4000000 in
/-- Lines 86 … 101: from valuations that agree on what these lines and the later ones still read, both programs' stretches
    leave valuations that agree on what the later lines read. -/
theorem seg9 (W : Valuation Cert.KernelIdeal.τ Cert.KernelIdeal.sig (Elt F)) (W' : Valuation Cert.ReferenceIdeal.τ Cert.ReferenceIdeal.sig (Elt F))
    (h_main_v24 : (W' (Proc.devRef .tc Cert.ReferenceIdeal.main_v24) : (⟨Cert.KernelIdeal.S16384x8, .f32⟩ : BufTy).Contents (Elt F)) = W (Proc.devRef .tc Cert.KernelIdeal.main_v24))
    (h_main_v29 : (W' (Proc.devRef .tc Cert.ReferenceIdeal.main_v29) : (⟨Cert.KernelIdeal.S16384x8, .f32⟩ : BufTy).Contents (Elt F)) = W (Proc.devRef .tc Cert.KernelIdeal.main_v29))
    (h_main_v41 : (W' (Proc.devRef .tc Cert.ReferenceIdeal.main_v41) : (⟨Cert.KernelIdeal.S16384x8, .f32⟩ : BufTy).Contents (Elt F)) = W (Proc.devRef .tc Cert.KernelIdeal.main_v41))
    (h_main_v45 : (W' (Proc.devRef .tc Cert.ReferenceIdeal.main_v45) : (⟨Cert.KernelIdeal.S16384x8, .f32⟩ : BufTy).Contents (Elt F)) = W (Proc.devRef .tc Cert.KernelIdeal.main_v45))
    (h_main_v48 : (W' (Proc.devRef .tc Cert.ReferenceIdeal.main_v48) : (⟨Cert.KernelIdeal.S16384x8, .i32⟩ : BufTy).Contents (Elt F)) = W (Proc.devRef .tc Cert.KernelIdeal.main_v48))
    (h_main_v60 : (W' (Proc.devRef .tc Cert.ReferenceIdeal.main_v60) : (⟨Cert.KernelIdeal.S16384x8, .i1⟩ : BufTy).Contents (Elt F)) = W (Proc.devRef .tc Cert.KernelIdeal.main_v60))
    (h_main_v61 : (W' (Proc.devRef .tc Cert.ReferenceIdeal.main_v61) : (⟨Cert.KernelIdeal.S16384x8x20, .f32⟩ : BufTy).Contents (Elt F)) = W (Proc.devRef .tc Cert.KernelIdeal.main_v61)) :
    ((after (Cert.ReferenceIdeal.Lines.tseg9 (F := F)) W' (Proc.devRef .tc Cert.ReferenceIdeal.main_v60) : (⟨Cert.KernelIdeal.S16384x8, .i1⟩ : BufTy).Contents (Elt F))
        = after (Cert.KernelIdeal.Accum.bseg9 (F := F)) W (Proc.devRef .tc Cert.KernelIdeal.main_v60))
    ∧ ((after (Cert.ReferenceIdeal.Lines.tseg9 (F := F)) W' (Proc.devRef .tc Cert.ReferenceIdeal.main_v68) : (⟨Cert.KernelIdeal.S16384x8x25, .f32⟩ : BufTy).Contents (Elt F))
        = after (Cert.KernelIdeal.Accum.bseg9 (F := F)) W (Proc.devRef .tc Cert.KernelIdeal.main_v68))
    ∧ ((after (Cert.ReferenceIdeal.Lines.tseg9 (F := F)) W' (Proc.devRef .tc Cert.ReferenceIdeal.main_v74) : (⟨Cert.KernelIdeal.S16384x8, .i32⟩ : BufTy).Contents (Elt F))
        = after (Cert.KernelIdeal.Accum.bseg9 (F := F)) W (Proc.devRef .tc Cert.KernelIdeal.main_v74))
    ∧ ((after (Cert.ReferenceIdeal.Lines.tseg9 (F := F)) W' (Proc.devRef .tc Cert.ReferenceIdeal.main_c_10) : (⟨Cert.KernelIdeal.S_, .i32⟩ : BufTy).Contents (Elt F))
        = after (Cert.KernelIdeal.Accum.bseg9 (F := F)) W (Proc.devRef .tc Cert.KernelIdeal.main_c_10)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_v24, h_main_v29, h_main_v41, h_main_v45, h_main_v48, h_main_v60, h_main_v61]
  repeat' constructor

set_option maxHeartbeats 4000000 in
/-- Lines 102 … 104: from valuations that agree on what these lines and the later ones still read, both programs' stretches
    leave valuations that agree on what the later lines read. -/
theorem seg10 (W : Valuation Cert.KernelIdeal.τ Cert.KernelIdeal.sig (Elt F)) (W' : Valuation Cert.ReferenceIdeal.τ Cert.ReferenceIdeal.sig (Elt F))
    (h_main_v60 : (W' (Proc.devRef .tc Cert.ReferenceIdeal.main_v60) : (⟨Cert.KernelIdeal.S16384x8, .i1⟩ : BufTy).Contents (Elt F)) = W (Proc.devRef .tc Cert.KernelIdeal.main_v60))
    (h_main_v68 : (W' (Proc.devRef .tc Cert.ReferenceIdeal.main_v68) : (⟨Cert.KernelIdeal.S16384x8x25, .f32⟩ : BufTy).Contents (Elt F)) = W (Proc.devRef .tc Cert.KernelIdeal.main_v68))
    (h_main_v74 : (W' (Proc.devRef .tc Cert.ReferenceIdeal.main_v74) : (⟨Cert.KernelIdeal.S16384x8, .i32⟩ : BufTy).Contents (Elt F)) = W (Proc.devRef .tc Cert.KernelIdeal.main_v74))
    (h_main_c_10 : (W' (Proc.devRef .tc Cert.ReferenceIdeal.main_c_10) : (⟨Cert.KernelIdeal.S_, .i32⟩ : BufTy).Contents (Elt F)) = W (Proc.devRef .tc Cert.KernelIdeal.main_c_10)) :
    ((after (Cert.ReferenceIdeal.Lines.tseg10 (F := F)) W' (Proc.devRef .tc Cert.ReferenceIdeal.main_v68) : (⟨Cert.KernelIdeal.S16384x8x25, .f32⟩ : BufTy).Contents (Elt F))
        = after (Cert.KernelIdeal.Accum.bseg10 (F := F)) W (Proc.devRef .tc Cert.KernelIdeal.main_v68))
    ∧ ((after (Cert.ReferenceIdeal.Lines.tseg10 (F := F)) W' (Proc.devRef .tc Cert.ReferenceIdeal.main_v75) : (⟨Cert.KernelIdeal.S16384x8, .i32⟩ : BufTy).Contents (Elt F))
        = after (Cert.KernelIdeal.Accum.bseg10 (F := F)) W (Proc.devRef .tc Cert.KernelIdeal.main_v75)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_v60, h_main_v68, h_main_v74, h_main_c_10]
  repeat' constructor

set_option maxHeartbeats 4000000 in
/-- Lines 105 … 118: from valuations that agree on what these lines and the later ones still read, both programs' stretches
    leave valuations that agree on what the later lines read. -/
theorem seg11 (W : Valuation Cert.KernelIdeal.τ Cert.KernelIdeal.sig (Elt F)) (W' : Valuation Cert.ReferenceIdeal.τ Cert.ReferenceIdeal.sig (Elt F))
    (h_main_v68 : (W' (Proc.devRef .tc Cert.ReferenceIdeal.main_v68) : (⟨Cert.KernelIdeal.S16384x8x25, .f32⟩ : BufTy).Contents (Elt F)) = W (Proc.devRef .tc Cert.KernelIdeal.main_v68))
    (h_main_v75 : (W' (Proc.devRef .tc Cert.ReferenceIdeal.main_v75) : (⟨Cert.KernelIdeal.S16384x8, .i32⟩ : BufTy).Contents (Elt F)) = W (Proc.devRef .tc Cert.KernelIdeal.main_v75)) :
    ((after (Cert.ReferenceIdeal.Lines.tseg11 (F := F)) W' (Proc.devRef .tc Cert.ReferenceIdeal.main_v86) : (⟨Cert.KernelIdeal.S16384x7x7x25, .f32⟩ : BufTy).Contents (Elt F))
        = after (Cert.KernelIdeal.Accum.bseg11 (F := F)) W (Proc.devRef .tc Cert.KernelIdeal.main_v86)) := by
  simp (disch := decide) only [after_cons, after_nil,
    nullary_result', unary_result', binary_result', ternary_result', reshape_result', nary6_result',
    nullary_result_ne', unary_result_ne', binary_result_ne', ternary_result_ne', reshape_result_ne', nary_result_ne']
  repeat (first
    | rw [nullary_result] | rw [unary_result] | rw [binary_result]
    | (rw [nullary_result_ne]; rotate_left; decide)
    | (rw [unary_result_ne]; rotate_left; decide)
    | (rw [binary_result_ne]; rotate_left; decide))
  rw [h_main_v68, h_main_v75]
  repeat' constructor

set_option maxHeartbeats 4000000 in
/-- From memories that agree on the boxes, the reference's target array is the kernel program's. -/
theorem target_eq
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (hboxes : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (after (Cert.ReferenceIdeal.Lines.targetLines (F := F)) (launchContents m' c) (Proc.devRef .tc Cert.ReferenceIdeal.main_v86)
        : (⟨Cert.KernelIdeal.S16384x7x7x25, .f32⟩ : BufTy).Contents (Elt F))
      = Cert.KernelIdeal.Accum.V m c Cert.KernelIdeal.main_v86 := by
  dsimp only [Cert.KernelIdeal.Accum.V, Cert.KernelIdeal.Accum.V0]
  rw [Cert.KernelIdeal.Accum.linesBefore_split, Cert.ReferenceIdeal.Lines.targetLines_split]
  simp only [after_append']
  have p0 := seg0 (F := F) (fun b => m (c, b)) (launchContents m' c) hboxes
  have p1 := seg1 (F := F) _ _ (p0.1) (p0.2)
  have p2 := seg2 (F := F) _ _ (p1.1) (p1.2.1) (p1.2.2.1) (p1.2.2.2)
  have p3 := seg3 (F := F) _ _ (p2.1) (p2.2.1) (p2.2.2.1) (p2.2.2.2.1) (p2.2.2.2.2)
  have p4 := seg4 (F := F) _ _ (p3.1) (p3.2.1) (p3.2.2.1) (p3.2.2.2.1) (p3.2.2.2.2.1) (p3.2.2.2.2.2.1) (p3.2.2.2.2.2.2)
  have p5 := seg5 (F := F) _ _ (p4.1) (p4.2.1) (p4.2.2.1) (p4.2.2.2.1) (p4.2.2.2.2.1) (p4.2.2.2.2.2.1) (p4.2.2.2.2.2.2)
  have p6 := seg6 (F := F) _ _ (p5.1) (p5.2.1) (p5.2.2.1) (p5.2.2.2.1) (p5.2.2.2.2.1) (p5.2.2.2.2.2.1) (p5.2.2.2.2.2.2.1) (p5.2.2.2.2.2.2.2)
  have p7 := seg7 (F := F) _ _ (p6.1) (p6.2.1) (p6.2.2.1) (p6.2.2.2.1) (p6.2.2.2.2.1) (p6.2.2.2.2.2.1) (p6.2.2.2.2.2.2.1) (p6.2.2.2.2.2.2.2)
  have p8 := seg8 (F := F) _ _ (p7.1) (p7.2.1) (p7.2.2.1) (p7.2.2.2.1) (p7.2.2.2.2.1) (p7.2.2.2.2.2.1) (p7.2.2.2.2.2.2)
  have p9 := seg9 (F := F) _ _ (p8.1) (p8.2.1) (p8.2.2.1) (p8.2.2.2.1) (p8.2.2.2.2.1) (p8.2.2.2.2.2.1) (p8.2.2.2.2.2.2)
  have p10 := seg10 (F := F) _ _ (p9.1) (p9.2.1) (p9.2.2.1) (p9.2.2.2)
  have p11 := seg11 (F := F) _ _ (p10.1) (p10.2)
  exact p11

end Cert.TargetAgree

end
-- ==== Proof.lean ====
/-
  The loss kernel against its reference.

  Both programs build the same target array from the boxes with the same host lines (Proof/TargetAgree.lean).
  The kernel then walks the 16384 images in 128 blocks of 128: at each grid point it sums the block's masked
  squared errors — confidence, box and class terms, each summed over the block, the three sums added — into a
  1×1 accumulator that is cleared at the first point and written back after the last, and the host divides
  the result by 16384 (Proof/IdealResult.lean). The reference sums the three terms per image, adds them,
  sums over the images and divides by 16384 (Proof/RefLoss.lean). Over the extended reals both are the same
  finite sum regrouped (Proof/LossSum.lean): addition is commutative and associative there with no side
  condition, so the precondition is never opened. The idealization rewrote nothing, so `preserves` is `True`;
  the three frames come from the three runs.
-/
import proofs.«149325_j86758339379422_2_alg».proof.Defs
import proofs.«149325_j86758339379422_2_alg».proof.Proof.Gen.Kernel
import proofs.«149325_j86758339379422_2_alg».proof.Proof.Gen.KernelIdeal
import proofs.«149325_j86758339379422_2_alg».proof.Proof.Gen.ReferenceIdeal
import proofs.«149325_j86758339379422_2_alg».proof.Proof.Gen.Pre_finite_inputs
import proofs.«149325_j86758339379422_2_alg».proof.Proof.WordFrame
import proofs.«149325_j86758339379422_2_alg».proof.Proof.IdealResult
import proofs.«149325_j86758339379422_2_alg».proof.Proof.RefResult
import proofs.«149325_j86758339379422_2_alg».proof.Proof.TargetAgree

noncomputable section

namespace Cert.Proof

open Idealize.ShloMosaic Idealize.ShloMosaic.TcCoe Idealize.SL.Sem

theorem frame_k : Cert.frame_Kernel := fun m ρ _ => Cert.Kernel.Accum.frame m ρ

theorem frame_ki : Cert.frame_KernelIdeal := fun m ρ _ => Cert.KernelIdeal.Accum.frame m ρ

theorem frame_ri : Cert.frame_ReferenceIdeal := fun m ρ _ =>
  (θ_run Cert.ReferenceIdeal.defs _ _).mono (fun _ h c => (h c).2) (Cert.ReferenceIdeal.Result.run (F := Ideal) m ρ)

theorem preserves : Cert.preserves_Kernel_KernelIdeal := trivial

/-- From memories agreeing on the predictions and the boxes both programs end with the mean loss of the
    predictions against the target built from the boxes. -/
theorem algebraic : Cert.algebraic_KernelIdeal_ReferenceIdeal := by
  intro m ρ m' ρ' _ hagree
  refine ⟨fun c => Cert.LossSum.lossValue (Cert.KernelIdeal.Accum.V m c Cert.KernelIdeal.main_arg0)
    (Cert.KernelIdeal.Accum.V m c Cert.KernelIdeal.main_v86), Cert.KernelIdeal.Result.run m ρ, ?_⟩
  refine (θ_run Cert.ReferenceIdeal.defs _ _).mono (fun _ h c => ⟨(h c).1.trans ?_, (h c).2⟩)
    (Cert.ReferenceIdeal.Result.run (F := Ideal) m' ρ')
  rw [Cert.ReferenceIdeal.Loss.meanLoss_eq, (hagree c).1, Cert.TargetAgree.target_eq m m' c (hagree c).2]
  show _ = Cert.LossSum.lossValue (Cert.KernelIdeal.Accum.V m c Cert.KernelIdeal.main_arg0)
    (Cert.KernelIdeal.Accum.V m c Cert.KernelIdeal.main_v86)
  rw [Cert.KernelIdeal.Accum.V_arg0]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
